-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8192x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S1x3072 : Shape := ⟨2, ![1, 3072]⟩
abbrev S512x1024 : Shape := ⟨2, ![512, 1024]⟩
abbrev S512x3072 : Shape := ⟨2, ![512, 3072]⟩
abbrev S2048x1024 : Shape := ⟨2, ![2048, 1024]⟩
abbrev S1024x1 : Shape := ⟨2, ![1024, 1]⟩
abbrev S1024x2048 : Shape := ⟨2, ![1024, 2048]⟩

abbrev nBuf : Space → Nat
  | .hbm => 18
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x3072, .f32⟩
  | .hbm, ⟨11, _⟩ => ⟨S1024x3072, .bf16⟩
  | .hbm, ⟨12, _⟩ => ⟨S3072, .f32⟩
  | .hbm, ⟨13, _⟩ => ⟨S1x3072, .f32⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S2048x1024, .bf16⟩
  | .local _ .vmem, ⟨13, _⟩ => ⟨S2048x1024, .bf16⟩
  | .local _ .vmem, ⟨14, _⟩ => ⟨S2048x1024, .bf16⟩
  | .local _ .vmem, ⟨15, _⟩ => ⟨S2048x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x1, .f32⟩
  | .local _ .vmem, ⟨19, _⟩ => ⟨S1024x1, .f32⟩
  | .local _ .vmem, ⟨20, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v42 : BitVec 1 := Scalar.cmpi .eq arg1 c3_i32
  let v43 : BitVec 32 := Scalar.extui v42
  let c0_i32_24 : BitVec 32 := 0#32
  let v44 : BitVec 1 := Scalar.cmpi .ne v43 c0_i32_24
  v44

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x1024 : S1024x1.Broadcasts S1024x1024
  dot_S512x1024_S1024x3072_S512x3072_1_0_0_1_n_n_wf : DotDims.WF S512x1024 S1024x3072 S512x3072 [1] [0] [0] [1] [] []
  dot_S1024x1024_S2048x1024_S1024x2048_1_1_0_0_n_n_wf : DotDims.WF S1024x1024 S2048x1024 S1024x2048 [1] [1] [0] [0] [] []
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S8192x1024.size a
  hwx1_1 : ∀ i : grid1.Coords, EltTy.bits .bf16 = 32 ∨ (Rect.block (s := S8192x1024) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S8192x1024.size a
  hwx1_2 : ∀ i : grid1.Coords, EltTy.bits .bf16 = 32 ∨ (Rect.block (s := S8192x1024) S2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .f32 = 32 ∨ (Rect.block (s := S8192x1024) S1024x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_2) S2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S1024x8192 : Shape := ⟨2, ![1024, 8192]⟩
abbrev S8192x8192 : Shape := ⟨2, ![8192, 8192]⟩
abbrev S8192 : Shape := ⟨1, ![8192]⟩
abbrev S8192x1 : Shape := ⟨2, ![8192, 1]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S1024x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S1024x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S_, .f32⟩
  | .hbm, ⟨24, _⟩ => ⟨S1024x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S8192x1024_S1024x8192_1_0 : S8192x1024.Transposes [1, 0] S1024x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.Bits.FlashDefs.lean ====
/-
  The flash-attention body as pure functions of what it loads, at any float instance: from the query block `q`,
  a key block `k`, a value block `v` and the three carried buffers (running maximum `mS`, running normaliser `lS`,
  running weighted sum `aS`), what one grid point stores back into each of the three, what the first point of a query
  row starts them from, and what the last point of a row writes to the output block. Each is a composition of the
  body's named payloads, nothing more.
-/
import proofs.«113662_j9672266350973_2_alg».proof.Proof.Gen.Kernel.Skeleton

noncomputable section

namespace Cert.Kernel.Hand

open Idealize.ShloMosaic Cert.Kernel Cert.Kernel.Gen

variable {F : FTy → Type} [FloatOps F]

/-- The running maximum a point leaves: the larger of the old one and the row maxima of the point's scaled scores. -/
def stepM (q : Vec F S1024x1024 .bf16) (k : Vec F S2048x1024 .bf16) (mS : Vec F S1024x1 .f32) : Vec F S1024x1 .f32 :=
  k1_pay2 (k1_pay8 q k mS)

/-- The running normaliser a point leaves: the old one rescaled by `exp (m − m')`, plus the row sums of `exp (s − m')`. -/
def stepL (q : Vec F S1024x1024 .bf16) (k : Vec F S2048x1024 .bf16) (mS lS : Vec F S1024x1 .f32) : Vec F S1024x1 .f32 :=
  k1_pay11 q k mS mS lS

/-- The running weighted sum a point leaves: the old one rescaled by `exp (m − m')`, plus `exp (s − m')` times the values. -/
def stepA (q : Vec F S1024x1024 .bf16) (k v : Vec F S2048x1024 .bf16) (mS : Vec F S1024x1 .f32) (aS : Vec F S1024x1024 .f32) :
    Vec F S1024x1024 .f32 :=
  k1_pay1 (k1_pay12 q k mS mS aS) (k1_pay13 q k mS) (k1_pay14 v)

/-- What the last point of a query row writes out: the weighted sum over the normaliser, row by row. -/
def outF (aS : Vec F S1024x1024 .f32) (lS : Vec F S1024x1 .f32) : Vec F S1024x1024 .f32 :=
  k1_pay3 aS lS

/-- The three carried buffers as the first point of a query row resets them: `−∞`, `0`, `0`. -/
def initM : Vec F S1024x1 .f32 := k1_pay4 (F := F)
def initL : Vec F S1024x1 .f32 := k1_pay5 (F := F)
def initA : Vec F S1024x1024 .f32 := k1_pay6 (F := F)

/-- The projection body's three output blocks from its loads: the row block of `x`, the stacked weights, the stacked bias. -/
def projQ (x0 : Vec F S512x1024 .f32) (w : Vec F S1024x3072 .bf16) (b : Vec F S1x3072 .f32) : Vec F S512x1024 .bf16 := k0_pay2 x0 w b
def projK (x0 : Vec F S512x1024 .f32) (w : Vec F S1024x3072 .bf16) (b : Vec F S1x3072 .f32) : Vec F S512x1024 .bf16 := k0_pay3 x0 w b
def projV (x0 : Vec F S512x1024 .f32) (w : Vec F S1024x3072 .bf16) (b : Vec F S1x3072 .f32) : Vec F S512x1024 .bf16 := k0_pay4 x0 w b

end Cert.Kernel.Hand

end
-- ==== Proof.Bits.Frame.R0.lean ====
/-
  The projection region: at every grid point the body loads the point's row block of `x`, the whole stacked weight
  matrix and the stacked bias row, and stores three blocks — the three column thirds of `x·W + b` — one into each
  output window. Stated at a parameter `V`, the buffers' contents when the region is entered: each window's block at
  a point, what the body leaves in each output's staging buffer as a function of the input blocks, the body's triple,
  the region's proof data and its body obligation.
-/
import proofs.«113662_j9672266350973_2_alg».proof.Proof.Gen.Kernel.Launch
import proofs.«113662_j9672266350973_2_alg».proof.Proof.Gen.Kernel.Skeleton
import proofs.«113662_j9672266350973_2_alg».proof.Proof.Gen.Kernel.Points
import proofs.«113662_j9672266350973_2_alg».proof.Proof.Bits.FlashDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each buffer whole. -/
abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S1x3072 := Rect.unit (s := S1x3072) ![0, 0] S1x3072.size inb_S1x3072_S1x3072_0_0

/-- What the body leaves in the three output windows' buffers, from the input blocks: one whole store each. -/
def out0_3 (x0 : Vec F S512x1024 .f32) (x1 : Vec F S1024x3072 .bf16) (x2 : Vec F S1x3072 .f32) : Vec F S512x1024 .bf16 :=
  View.canon [⟨r0_x, k0_pay2 (View.ld x0 r0_x) (View.ld x1 r0_w) (View.ld x2 r0_b)⟩]
def out0_4 (x0 : Vec F S512x1024 .f32) (x1 : Vec F S1024x3072 .bf16) (x2 : Vec F S1x3072 .f32) : Vec F S512x1024 .bf16 :=
  View.canon [⟨r0_x, k0_pay3 (View.ld x0 r0_x) (View.ld x1 r0_w) (View.ld x2 r0_b)⟩]
def out0_5 (x0 : Vec F S512x1024 .f32) (x1 : Vec F S1024x3072 .bf16) (x2 : Vec F S1x3072 .f32) : Vec F S512x1024 .bf16 :=
  View.canon [⟨r0_x, k0_pay4 (View.ld x0 r0_x) (View.ld x1 r0_w) (View.ld x2 r0_b)⟩]

/-- A whole store tiles the buffer, so it covers it. -/
theorem cover0 (p0 : Vec F S512x1024 .bf16) (y : S512x1024.Idx) :
    ∃ pc ∈ ([⟨r0_x, p0⟩] : List (View.Piece (Elt F) S512x1024 .bf16)), y ∈ pc.1.set :=
  View.cover_of_tiled [⟨r0_x, p0⟩] S512x1024.size (by rfl) y

set_option maxHeartbeats 2000000 in
/-- The body on whole staging memrefs, the inputs' at read contents and the outputs' at anything, runs to the
    continuation holding the inputs' as they were and each output's at its block of `x·W + b`. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-- The region's proof data on core `c`: the arrays as the region finds them; after the body at point `t` each input's
    buffer at its block and each output's at its block of `x·W + b`; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.Frame.R1Runs.lean ====
/-
  The attention region: what its three runs share. Where the body branches (the first point of a query row resets the
  three carried buffers; the last point of a row divides and stores the output block), decided over the grid; where
  the output window is idle; the staging and scratch memrefs; and the region's untouched rest spelled buffer by buffer.
-/
import proofs.«113662_j9672266350973_2_alg».proof.Proof.Gen.Kernel.Launch
import proofs.«113662_j9672266350973_2_alg».proof.Proof.Gen.Kernel.Skeleton
import proofs.«113662_j9672266350973_2_alg».proof.Proof.Gen.Kernel.Points
import proofs.«113662_j9672266350973_2_alg».proof.Proof.Bits.FlashDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first branch's condition (the key-chunk coordinate is 0), from the grid coordinates. -/
abbrev cond1_0 (i : grid1.Coords) : Prop := (Scalar.cmpi .ne (Scalar.extui (Scalar.cmpi .eq (BitVec.ofNat 32 (i 1).val) 0#32)) 0#32) = 1#1
/-- It holds at the first point of each query row. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second branch's condition (the key-chunk coordinate is 3). -/
abbrev cond1_1 (i : grid1.Coords) : Prop := k1_cond2 i = 1#1
/-- It holds at the last point of each query row. -/
theorem hcond1_1 : ∀ t : Fin cfg1.N, cond1_1 (grid1.coords t) ↔ t.val % 4 = 3 :=
  (by decide +kernel : ∀ t : Fin grid1.N, cond1_1 (grid1.coords t) ↔ t.val % 4 = 3)

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a row's last point the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At a row's last point it is live. -/
theorem liveAt1_3 : ∀ t : Fin cfg1.N, cond1_1 (grid1.coords t) → cfg1.idle 3 (grid1.coords t) = false := by decide +kernel

/-- One staging buffer of the output window, through which its contents are stated. -/
abbrev VO1_3 : View sig .tc .vmem S1024x1024 .f32 := (Memref.whole cc1_stg3_0 : Memref sig .tc .vmem S1024x1024 .f32).view
/-- Each window's current staging memref at point `t`, as the pipeline passes it, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The three carried buffers: running maximum, running normaliser, running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- The region's untouched rest with the three carried buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.Bits.Frame.R1RunA.lean ====
/-
  The attention body at the first point of a query row: the three carried buffers are reset, then one key chunk is absorbed; nothing is stored to the output.
-/
import proofs.«113662_j9672266350973_2_alg».proof.Proof.Bits.Frame.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output's staging memref and in the three carried buffers (last first) in this
    case, with the proof that on whole memrefs — the inputs' at their contents — the body runs to the continuation holding
    the inputs' as they were and each stored buffer with its pieces written; the pieces are what the symbolic run finds. -/
noncomputable def kernelRun1_A (c : Dev nD) (i : grid1.Coords) (arg2 : Memref sig .tc .vmem S1024x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S2048x1024 .bf16) (x2 : Vec F S2048x1024 .bf16) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.Bits.Frame.R1RunB.lean ====
/-
  The attention body at a middle point of a query row: one key chunk is absorbed into the three carried buffers; nothing is stored to the output.
-/
import proofs.«113662_j9672266350973_2_alg».proof.Proof.Bits.Frame.R1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output's staging memref and in the three carried buffers (last first) in this
    case, with the proof that on whole memrefs — the inputs' at their contents — the body runs to the continuation holding
    the inputs' as they were and each stored buffer with its pieces written; the pieces are what the symbolic run finds. -/
noncomputable def kernelRun1_B (c : Dev nD) (i : grid1.Coords) (arg2 : Memref sig .tc .vmem S1024x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S2048x1024 .bf16) (x2 : Vec F S2048x1024 .bf16) (xs0 : Vec F S1024x1 .f32) (xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.Bits.Frame.R1RunC.lean ====
/-
  The attention body at the last point of a query row: the last key chunk is absorbed, then the weighted sum over the normaliser is stored to the output block.
-/
import proofs.«113662_j9672266350973_2_alg».proof.Proof.Bits.Frame.R1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output's staging memref and in the three carried buffers (last first) in this
    case, with the proof that on whole memrefs — the inputs' at their contents — the body runs to the continuation holding
    the inputs' as they were and each stored buffer with its pieces written; the pieces are what the symbolic run finds. -/
noncomputable def kernelRun1_C (c : Dev nD) (i : grid1.Coords) (arg2 : Memref sig .tc .vmem S1024x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S2048x1024 .bf16) (x2 : Vec F S2048x1024 .bf16) (xs0 : Vec F S1024x1 .f32) (xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.Bits.Frame.R1.lean ====
/-
  The attention region, point by point. What each case of the body leaves in the output's staging buffer and in the
  three carried buffers (running maximum, running normaliser, running weighted sum); what they hold after every grid
  point, by recursion on the point — the first point of a query row starts afresh, every later point takes what the
  point before left —; the region's invariant, proof data and body obligation.
-/
import proofs.«113662_j9672266350973_2_alg».proof.Proof.Bits.Frame.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's run at point `t` of this case, on the point's staging memrefs and the three carried buffers. -/
abbrev ptA (c : Dev nD) (t : Fin cfg1.N) (h0 : t.val % 4 = 0) (x0 : Vec F S1024x1024 .bf16) (x1 : Vec F S2048x1024 .bf16) (x2 : Vec F S2048x1024 .bf16) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => by have := (hcond1_1 t).mp h; omega) x0 x1 x2

/-- The case's pieces tile each buffer they are stored into, so they cover it. -/
theorem scoverA_0 (c : Dev nD) (t : Fin cfg1.N) (h0 : t.val % 4 = 0) (x0 : Vec F S1024x1024 .bf16) (x1 : Vec F S2048x1024 .bf16) (x2 : Vec F S2048x1024 .bf16) (y : S1024x1.Idx) :
    ∃ pc ∈ (ptA c t h0 x0 x1 x2).2.1, y ∈ pc.1.set :=
  View.cover_of_tiledL (ptA c t h0 x0 x1 x2).2.1 S1024x1.size (by sl_kernel_rfl) y
theorem scoverA_1 (c : Dev nD) (t : Fin cfg1.N) (h0 : t.val % 4 = 0) (x0 : Vec F S1024x1024 .bf16) (x1 : Vec F S2048x1024 .bf16) (x2 : Vec F S2048x1024 .bf16) (y : S1024x1.Idx) :
    ∃ pc ∈ (ptA c t h0 x0 x1 x2).2.2.1, y ∈ pc.1.set :=
  View.cover_of_tiledL (ptA c t h0 x0 x1 x2).2.2.1 S1024x1.size (by sl_kernel_rfl) y
theorem scoverA_2 (c : Dev nD) (t : Fin cfg1.N) (h0 : t.val % 4 = 0) (x0 : Vec F S1024x1024 .bf16) (x1 : Vec F S2048x1024 .bf16) (x2 : Vec F S2048x1024 .bf16) (y : S1024x1024.Idx) :
    ∃ pc ∈ (ptA c t h0 x0 x1 x2).2.2.2.1, y ∈ pc.1.set :=
  View.cover_of_tiledL (ptA c t h0 x0 x1 x2).2.2.2.1 S1024x1024.size (by sl_kernel_rfl) y

/-- What the case leaves: the output's staging buffer (a placeholder where the case stores nothing into it) and the three
    carried buffers, each its pieces read back. -/
def outsA (c : Dev nD) (t : Fin cfg1.N) (h0 : t.val % 4 = 0) (x0 : Vec F S1024x1024 .bf16) (x1 : Vec F S2048x1024 .bf16) (x2 : Vec F S2048x1024 .bf16) : Vec F S1024x1024 .f32 × Vec F S1024x1 .f32 × Vec F S1024x1 .f32 × Vec F S1024x1024 .f32 :=
  (VO1_3.read (Elt F) (VO1_3.writes (Elt F) VO1_3.junk (ptA c t h0 x0 x1 x2).1),
   VS1_0.read (Elt F) (VS1_0.writes (Elt F) VS1_0.junk (ptA c t h0 x0 x1 x2).2.1),
   VS1_1.read (Elt F) (VS1_1.writes (Elt F) VS1_1.junk (ptA c t h0 x0 x1 x2).2.2.1),
   VS1_2.read (Elt F) (VS1_2.writes (Elt F) VS1_2.junk (ptA c t h0 x0 x1 x2).2.2.2.1))

/-- The body's run at point `t` of this case, on the point's staging memrefs and the three carried buffers. -/
abbrev ptB (c : Dev nD) (t : Fin cfg1.N) (h0 : ¬t.val % 4 = 0) (h1 : ¬t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) x0 x1 x2 xs0 xs1 xs2

/-- The case's pieces tile each buffer they are stored into, so they cover it. -/
theorem scoverB_0 (c : Dev nD) (t : Fin cfg1.N) (h0 : ¬t.val % 4 = 0) (h1 : ¬t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) (y : S1024x1.Idx) :
    ∃ pc ∈ (ptB c t h0 h1 x0 x1 x2 xs0 xs1 xs2).2.1, y ∈ pc.1.set :=
  View.cover_of_tiledL (ptB c t h0 h1 x0 x1 x2 xs0 xs1 xs2).2.1 S1024x1.size (by sl_kernel_rfl) y
theorem scoverB_1 (c : Dev nD) (t : Fin cfg1.N) (h0 : ¬t.val % 4 = 0) (h1 : ¬t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) (y : S1024x1.Idx) :
    ∃ pc ∈ (ptB c t h0 h1 x0 x1 x2 xs0 xs1 xs2).2.2.1, y ∈ pc.1.set :=
  View.cover_of_tiledL (ptB c t h0 h1 x0 x1 x2 xs0 xs1 xs2).2.2.1 S1024x1.size (by sl_kernel_rfl) y
theorem scoverB_2 (c : Dev nD) (t : Fin cfg1.N) (h0 : ¬t.val % 4 = 0) (h1 : ¬t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) (y : S1024x1024.Idx) :
    ∃ pc ∈ (ptB c t h0 h1 x0 x1 x2 xs0 xs1 xs2).2.2.2.1, y ∈ pc.1.set :=
  View.cover_of_tiledL (ptB c t h0 h1 x0 x1 x2 xs0 xs1 xs2).2.2.2.1 S1024x1024.size (by sl_kernel_rfl) y

/-- What the case leaves: the output's staging buffer (a placeholder where the case stores nothing into it) and the three
    carried buffers, each its pieces read back. -/
def outsB (c : Dev nD) (t : Fin cfg1.N) (h0 : ¬t.val % 4 = 0) (h1 : ¬t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) : Vec F S1024x1024 .f32 × Vec F S1024x1 .f32 × Vec F S1024x1 .f32 × Vec F S1024x1024 .f32 :=
  (VO1_3.read (Elt F) (VO1_3.writes (Elt F) VO1_3.junk (ptB c t h0 h1 x0 x1 x2 xs0 xs1 xs2).1),
   VS1_0.read (Elt F) (VS1_0.writes (Elt F) VS1_0.junk (ptB c t h0 h1 x0 x1 x2 xs0 xs1 xs2).2.1),
   VS1_1.read (Elt F) (VS1_1.writes (Elt F) VS1_1.junk (ptB c t h0 h1 x0 x1 x2 xs0 xs1 xs2).2.2.1),
   VS1_2.read (Elt F) (VS1_2.writes (Elt F) VS1_2.junk (ptB c t h0 h1 x0 x1 x2 xs0 xs1 xs2).2.2.2.1))

/-- The body's run at point `t` of this case, on the point's staging memrefs and the three carried buffers. -/
abbrev ptC (c : Dev nD) (t : Fin cfg1.N) (h0 : ¬t.val % 4 = 0) (h1 : t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) x0 x1 x2 xs0 xs1 xs2

/-- The case's pieces tile each buffer they are stored into, so they cover it. -/
theorem scoverC_0 (c : Dev nD) (t : Fin cfg1.N) (h0 : ¬t.val % 4 = 0) (h1 : t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) (y : S1024x1.Idx) :
    ∃ pc ∈ (ptC c t h0 h1 x0 x1 x2 xs0 xs1 xs2).2.1, y ∈ pc.1.set :=
  View.cover_of_tiledL (ptC c t h0 h1 x0 x1 x2 xs0 xs1 xs2).2.1 S1024x1.size (by sl_kernel_rfl) y
theorem scoverC_1 (c : Dev nD) (t : Fin cfg1.N) (h0 : ¬t.val % 4 = 0) (h1 : t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) (y : S1024x1.Idx) :
    ∃ pc ∈ (ptC c t h0 h1 x0 x1 x2 xs0 xs1 xs2).2.2.1, y ∈ pc.1.set :=
  View.cover_of_tiledL (ptC c t h0 h1 x0 x1 x2 xs0 xs1 xs2).2.2.1 S1024x1.size (by sl_kernel_rfl) y
theorem scoverC_2 (c : Dev nD) (t : Fin cfg1.N) (h0 : ¬t.val % 4 = 0) (h1 : t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) (y : S1024x1024.Idx) :
    ∃ pc ∈ (ptC c t h0 h1 x0 x1 x2 xs0 xs1 xs2).2.2.2.1, y ∈ pc.1.set :=
  View.cover_of_tiledL (ptC c t h0 h1 x0 x1 x2 xs0 xs1 xs2).2.2.2.1 S1024x1024.size (by sl_kernel_rfl) y
theorem coverC_3 (c : Dev nD) (t : Fin cfg1.N) (h0 : ¬t.val % 4 = 0) (h1 : t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) (y : S1024x1024.Idx) :
    ∃ pc ∈ (ptC c t h0 h1 x0 x1 x2 xs0 xs1 xs2).1, y ∈ pc.1.set :=
  View.cover_of_tiledL (ptC c t h0 h1 x0 x1 x2 xs0 xs1 xs2).1 S1024x1024.size (by sl_kernel_rfl) y

/-- What the case leaves: the output's staging buffer (a placeholder where the case stores nothing into it) and the three
    carried buffers, each its pieces read back. -/
def outsC (c : Dev nD) (t : Fin cfg1.N) (h0 : ¬t.val % 4 = 0) (h1 : t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) : Vec F S1024x1024 .f32 × Vec F S1024x1 .f32 × Vec F S1024x1 .f32 × Vec F S1024x1024 .f32 :=
  (VO1_3.read (Elt F) (VO1_3.writes (Elt F) VO1_3.junk (ptC c t h0 h1 x0 x1 x2 xs0 xs1 xs2).1),
   VS1_0.read (Elt F) (VS1_0.writes (Elt F) VS1_0.junk (ptC c t h0 h1 x0 x1 x2 xs0 xs1 xs2).2.1),
   VS1_1.read (Elt F) (VS1_1.writes (Elt F) VS1_1.junk (ptC c t h0 h1 x0 x1 x2 xs0 xs1 xs2).2.2.1),
   VS1_2.read (Elt F) (VS1_2.writes (Elt F) VS1_2.junk (ptC c t h0 h1 x0 x1 x2 xs0 xs1 xs2).2.2.2.1))

/-- THE ACCUMULATION. What the output's staging buffer and the three carried buffers hold after the body at position `n`:
    the case the point is in, run at the point's input blocks; after the first point of a query row the carried buffers
    enter a case at what the point before left in them. -/
def outsAt1 (c : Dev nD) : (n : ℕ) → n < cfg1.N → Vec F S1024x1024 .f32 × Vec F S1024x1 .f32 × Vec F S1024x1 .f32 × Vec F S1024x1024 .f32
  | 0, hn => outsA c ⟨0, hn⟩ (Nat.zero_mod 4) (iblk1 V c 0 ⟨0, hn⟩) (iblk1 V c 1 ⟨0, hn⟩) (iblk1 V c 2 ⟨0, hn⟩)
  | n + 1, hn =>
    if h0 : (n + 1) % 4 = 0 then
      outsA c ⟨n + 1, hn⟩ h0 (iblk1 V c 0 ⟨n + 1, hn⟩) (iblk1 V c 1 ⟨n + 1, hn⟩) (iblk1 V c 2 ⟨n + 1, hn⟩)
    else
      if h1 : (n + 1) % 4 = 3 then
        outsC c ⟨n + 1, hn⟩ h0 h1 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2
      else
        outsB c ⟨n + 1, hn⟩ h0 h1 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2

theorem outsAt1_A (c : Dev nD) (t : Fin cfg1.N) (h0 : t.val % 4 = 0) :
    outsAt1 V c t.val t.isLt = outsA c t h0 (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = outsB c t h0 h1 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = outsC c t h0 h1 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; exact absurd (Nat.zero_mod _) h0)
  | succ n => exact (dif_neg h0).trans ((dif_pos h1).trans rfl)

/-- The region invariant before position `n`: before the first point the untouched rest with every scoped buffer at
    anything; afterwards the same rest with the three carried buffers at what the point before left in them. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-- The region's proof data on core `c`: the arrays as the region finds them; after the body at point `t` each input's
    buffer at its block and the output's at the accumulation's first component; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; the point's position in its query row says which case it
    is in; the invariant hands the body the three carried buffers at what the point before left (at anything at the very
    first point) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  ·
    rw [Dat.leavesExact_idle (dat1 V c) 3 t (idleAt1_3 t (fun h => by have := (hcond1_1 t).mp h; omega)) (noFlush1_3 t (fun h => by have := (hcond1_1 t).mp h; omega))]
    rw [outsAt1_A V c t h0]
    unfold outsA; (try dsimp only)
    by_cases hz : t.val = 0
    · rw [PhiS_castSucc V c t, PhiS_zero V c _ _ hz, PhiA1_eq]
      iintro ⟨⟨⟨Ha0, Ha1, Ha2, Ha3, Ha4, Ha5, Ha6, Ha7, Ha8, Ha9, HS0, HS1, HS2⟩, Hg⟩, Ho, ⟨%d0, H0⟩, ⟨%d1, H1⟩, ⟨%d2, H2⟩, ⟨%d3, H3⟩⟩
      iapply ((ptA c t h0 (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Ha0 Ha1 Ha2 Ha3 Ha4 Ha5 Ha6 Ha7 Ha8 Ha9 HS0 HS1 HS2 Hg]
      · isplitr [Hg]
        · isplitl [Ha0]; · iexact Ha0
          isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          isplitl [Ha7]; · iexact Ha7
          isplitl [Ha8]; · iexact Ha8
          isplitl [Ha9]; · iexact Ha9
          isplitl [HS0]
          · unfold owns; iexists _; isplitr
            swap; · iexact HS0
            ipureintro; exact View.read_writes_of_cover _ _ _ _ _ (scoverA_0 c t h0 _ _ _)
          isplitl [HS1]
          · unfold owns; iexists _; isplitr
            swap; · iexact HS1
            ipureintro; exact View.read_writes_of_cover _ _ _ _ _ (scoverA_1 c t h0 _ _ _)
          unfold owns; iexists _; isplitr
          swap; · iexact HS2
          ipureintro; exact View.read_writes_of_cover _ _ _ _ _ (scoverA_2 c t h0 _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨Ha0, Ha1, Ha2, Ha3, Ha4, Ha5, Ha6, Ha7, Ha8, Ha9, HS0, HS1, HS2⟩, Hg⟩, Ho, ⟨%d0, H0⟩, ⟨%d1, H1⟩, ⟨%d2, H2⟩, ⟨%d3, H3⟩⟩
      iapply ((ptA c t h0 (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Ha0 Ha1 Ha2 Ha3 Ha4 Ha5 Ha6 Ha7 Ha8 Ha9 HS0 HS1 HS2 Hg]
      · isplitr [Hg]
        · isplitl [Ha0]; · iexact Ha0
          isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          isplitl [Ha7]; · iexact Ha7
          isplitl [Ha8]; · iexact Ha8
          isplitl [Ha9]; · iexact Ha9
          isplitl [HS0]
          · unfold owns; iexists _; isplitr
            swap; · iexact HS0
            ipureintro; exact View.read_writes_of_cover _ _ _ _ _ (scoverA_0 c t h0 _ _ _)
          isplitl [HS1]
          · unfold owns; iexists _; isplitr
            swap; · iexact HS1
            ipureintro; exact View.read_writes_of_cover _ _ _ _ _ (scoverA_1 c t h0 _ _ _)
          unfold owns; iexists _; isplitr
          swap; · iexact HS2
          ipureintro; exact View.read_writes_of_cover _ _ _ _ _ (scoverA_2 c t h0 _ _ _)
        iexact Hg
      isplitl [Ho]; · iexact Ho
      isplitl [H0]; · iexact H0
      isplitl [H1]; · iexact H1
      isplitl [H2]; · iexact H2
      iexists _; iexact H3
  · by_cases h1 : t.val % 4 = 3
    ·
      rw [show (dat1 V c).leavesExact 3 t = owns (c : Thread nD τ) (ms1_3 t) fullShare ((dat1 V c).after 3 t) from by
          unfold Dat.leavesExact; rw [liveAt1_3 t ((hcond1_1 t).mpr h1)], after1_3]
      rw [outsAt1_C V c t h0 h1]
      unfold outsC; (try dsimp only)
      have hz : t.val ≠ 0 := by omega
      rw [PhiS_castSucc V c t, PhiS_pos V c _ _ hz]
      iintro ⟨⟨⟨Ha0, Ha1, Ha2, Ha3, Ha4, Ha5, Ha6, Ha7, Ha8, Ha9, HS0, HS1, HS2⟩, Hg⟩, Ho, ⟨%d0, H0⟩, ⟨%d1, H1⟩, ⟨%d2, H2⟩, ⟨%d3, H3⟩⟩
      iapply ((ptC c t h0 h1 (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [Ha0 Ha1 Ha2 Ha3 Ha4 Ha5 Ha6 Ha7 Ha8 Ha9 HS0 HS1 HS2 Hg]
      · isplitr [Hg]
        · isplitl [Ha0]; · iexact Ha0
          isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          isplitl [Ha7]; · iexact Ha7
          isplitl [Ha8]; · iexact Ha8
          isplitl [Ha9]; · iexact Ha9
          isplitl [HS0]
          · unfold owns; iexists _; isplitr
            swap; · iexact HS0
            ipureintro; exact View.read_writes_of_cover _ _ _ _ _ (scoverC_0 c t h0 h1 _ _ _ _ _ _)
          isplitl [HS1]
          · unfold owns; iexists _; isplitr
            swap; · iexact HS1
            ipureintro; exact View.read_writes_of_cover _ _ _ _ _ (scoverC_1 c t h0 h1 _ _ _ _ _ _)
          unfold owns; iexists _; isplitr
          swap; · iexact HS2
          ipureintro; exact View.read_writes_of_cover _ _ _ _ _ (scoverC_2 c t h0 h1 _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 c t h0 h1 _ _ _ _ _ _)
    ·
      rw [Dat.leavesExact_idle (dat1 V c) 3 t (idleAt1_3 t (fun h => h1 ((hcond1_1 t).mp h))) (noFlush1_3 t (fun h => h1 ((hcond1_1 t).mp h)))]
      rw [outsAt1_B V c t h0 h1]
      unfold outsB; (try dsimp only)
      have hz : t.val ≠ 0 := by omega
      rw [PhiS_castSucc V c t, PhiS_pos V c _ _ hz]
      iintro ⟨⟨⟨Ha0, Ha1, Ha2, Ha3, Ha4, Ha5, Ha6, Ha7, Ha8, Ha9, HS0, HS1, HS2⟩, Hg⟩, Ho, ⟨%d0, H0⟩, ⟨%d1, H1⟩, ⟨%d2, H2⟩, ⟨%d3, H3⟩⟩
      iapply ((ptB c t h0 h1 (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Ha0 Ha1 Ha2 Ha3 Ha4 Ha5 Ha6 Ha7 Ha8 Ha9 HS0 HS1 HS2 Hg]
      · isplitr [Hg]
        · isplitl [Ha0]; · iexact Ha0
          isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          isplitl [Ha7]; · iexact Ha7
          isplitl [Ha8]; · iexact Ha8
          isplitl [Ha9]; · iexact Ha9
          isplitl [HS0]
          · unfold owns; iexists _; isplitr
            swap; · iexact HS0
            ipureintro; exact View.read_writes_of_cover _ _ _ _ _ (scoverB_0 c t h0 h1 _ _ _ _ _ _)
          isplitl [HS1]
          · unfold owns; iexists _; isplitr
            swap; · iexact HS1
            ipureintro; exact View.read_writes_of_cover _ _ _ _ _ (scoverB_1 c t h0 h1 _ _ _ _ _ _)
          unfold owns; iexists _; isplitr
          swap; · iexact HS2
          ipureintro; exact View.read_writes_of_cover _ _ _ _ _ (scoverB_2 c t h0 h1 _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the untouched rest back: the carried buffers' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  iintro ⟨⟨Ha0, Ha1, Ha2, Ha3, Ha4, Ha5, Ha6, Ha7, Ha8, Ha9, HS0, HS1, HS2⟩, Hg⟩
  isplitr [Hg]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [HS0]; · iexists _; iexact HS0
    isplitl [HS1]; · iexists _; iexact HS1
    iexists _; iexact HS2
  iexact Hg

end Cert.Kernel.Hand

end
-- ==== Proof.Bits.Frame.Run.lean ====
/-
  The whole program as three segments — the host operations that transpose, stack and cast the weights and stack the
  biases; the projection region; the attention region — run from the launch to the return. The buffers' contents at
  each boundary are a fold from the launch memory: after the host operations; after the projection region (its three
  output arrays at what its write-backs leave); after the attention region (the result array likewise). The run ends
  with every unscoped buffer at the last boundary's contents, from which both the unchanged arguments and the result
  are read.
-/
import proofs.«113662_j9672266350973_2_alg».proof.Proof.Bits.Frame.R0
import proofs.«113662_j9672266350973_2_alg».proof.Proof.Bits.Frame.R1
import proofs.«113662_j9672266350973_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev Wk0 : Dev nD → Valuation τ sig (Elt F) := fun c b => m (c, b)
/-- After the host operations (the projection region's entry). -/
abbrev Wk1 : Dev nD → Valuation τ sig (Elt F) := fun c => StableHlo.after hostOps0 (Wk0 m c)
abbrev Vk1 : (c : Dev nD) → (b : Ref sig .tc) → Buf (Elt F) ((c : Thread nD τ).loc b) := fun c b => Wk1 m c b
/-- At the projection region's exit: its arrays at what the pipeline leaves, every other buffer as entered. -/
def Wk2 (c : Dev nD) : Valuation τ sig (Elt F) :=
  Pipeline.withArrays spec0 c (Wk1 m c) fun w => (dat0 (Vk1 m) c).arrAt w cfg0.N
theorem Wk2_arr (c : Dev nD) (w : Fin cfg0.W) :
    Wk2 m c (Proc.devRef .tc (Pipeline.arrRef spec0 w)) = (dat0 (Vk1 m) c).arrAt w cfg0.N := by
  unfold Wk2; exact Pipeline.withArrays_arr spec0 launch0.win.arr_inj c _ _ w
theorem Wk2_of_ne (c : Dev nD) (b : Ref sig .tc) (hb : ∀ w, Pipeline.arrRef spec0 w ≠ b) :
    Wk2 m c (Proc.devRef .tc b) = Wk1 m c (Proc.devRef .tc b) := by
  unfold Wk2; exact Pipeline.withArrays_of_ne spec0 c _ _ b hb
abbrev Vk2 : (c : Dev nD) → (b : Ref sig .tc) → Buf (Elt F) ((c : Thread nD τ).loc b) := fun c b => Wk2 m c b
theorem hF0 (c : Dev nD) (w : Fin cfg0.W) : (dat0 (Vk1 m) c).arrAt w cfg0.N = Vk2 m c (Pipeline.arrRef spec0 w) :=
  (Wk2_arr m c w).symm
theorem hrest0 (c : Dev nD) : ∀ b, b ∉ Finset.univ.image (Pipeline.arrRef spec0) → Vk2 m c b = Vk1 m c b :=
  fun b hb => Wk2_of_ne m c b fun w e => hb (Finset.mem_image.mpr ⟨w, Finset.mem_univ _, e⟩)

/-- At the attention region's exit: its arrays at what the pipeline leaves, every other buffer as entered. -/
def Wk3 (c : Dev nD) : Valuation τ sig (Elt F) :=
  Pipeline.withArrays spec1 c (Wk2 m c) fun w => (dat1 (Vk2 m) c).arrAt w cfg1.N
theorem Wk3_arr (c : Dev nD) (w : Fin cfg1.W) :
    Wk3 m c (Proc.devRef .tc (Pipeline.arrRef spec1 w)) = (dat1 (Vk2 m) c).arrAt w cfg1.N := by
  unfold Wk3; exact Pipeline.withArrays_arr spec1 launch1.win.arr_inj c _ _ w
theorem Wk3_of_ne (c : Dev nD) (b : Ref sig .tc) (hb : ∀ w, Pipeline.arrRef spec1 w ≠ b) :
    Wk3 m c (Proc.devRef .tc b) = Wk2 m c (Proc.devRef .tc b) := by
  unfold Wk3; exact Pipeline.withArrays_of_ne spec1 c _ _ b hb
abbrev Vk3 : (c : Dev nD) → (b : Ref sig .tc) → Buf (Elt F) ((c : Thread nD τ).loc b) := fun c b => Wk3 m c b
theorem hF1 (c : Dev nD) (w : Fin cfg1.W) : (dat1 (Vk2 m) c).arrAt w cfg1.N = Vk3 m c (Pipeline.arrRef spec1 w) :=
  (Wk3_arr m c w).symm
theorem hrest1 (c : Dev nD) : ∀ b, b ∉ Finset.univ.image (Pipeline.arrRef spec1) → Vk3 m c b = Vk2 m c b :=
  fun b hb => Wk3_of_ne m c b fun w e => hb (Finset.mem_image.mpr ⟨w, Finset.mem_univ _, e⟩)

/-! The arguments end as launched: no host operation and no region writes one. -/

theorem Wk3_main_arg0 (c : Dev nD) : Wk3 m c (Proc.devRef .tc main_arg0) = m ((c : Thread nD τ).loc main_arg0) :=
  calc Wk3 m c (Proc.devRef .tc main_arg0)
    _ = Wk2 m c (Proc.devRef .tc main_arg0) := Wk3_of_ne m c main_arg0 (by decide)
    _ = Wk1 m c (Proc.devRef .tc main_arg0) := (Wk2_arr m c 0).trans (((dat0 (Vk1 m) c).arrAt_in 0 rfl _).trans (A_eq0 (Vk1 m) c 0))
    _ = m ((c : Thread nD τ).loc main_arg0) := Gen.V1_of m c main_arg0 (by decide)
theorem Wk3_main_arg1 (c : Dev nD) : Wk3 m c (Proc.devRef .tc main_arg1) = m ((c : Thread nD τ).loc main_arg1) :=
  calc Wk3 m c (Proc.devRef .tc main_arg1)
    _ = Wk2 m c (Proc.devRef .tc main_arg1) := Wk3_of_ne m c main_arg1 (by decide)
    _ = Wk1 m c (Proc.devRef .tc main_arg1) := Wk2_of_ne m c main_arg1 (by decide)
    _ = m ((c : Thread nD τ).loc main_arg1) := Gen.V1_of m c main_arg1 (by decide)
theorem Wk3_main_arg2 (c : Dev nD) : Wk3 m c (Proc.devRef .tc main_arg2) = m ((c : Thread nD τ).loc main_arg2) :=
  calc Wk3 m c (Proc.devRef .tc main_arg2)
    _ = Wk2 m c (Proc.devRef .tc main_arg2) := Wk3_of_ne m c main_arg2 (by decide)
    _ = Wk1 m c (Proc.devRef .tc main_arg2) := Wk2_of_ne m c main_arg2 (by decide)
    _ = m ((c : Thread nD τ).loc main_arg2) := Gen.V1_of m c main_arg2 (by decide)
theorem Wk3_main_arg3 (c : Dev nD) : Wk3 m c (Proc.devRef .tc main_arg3) = m ((c : Thread nD τ).loc main_arg3) :=
  calc Wk3 m c (Proc.devRef .tc main_arg3)
    _ = Wk2 m c (Proc.devRef .tc main_arg3) := Wk3_of_ne m c main_arg3 (by decide)
    _ = Wk1 m c (Proc.devRef .tc main_arg3) := Wk2_of_ne m c main_arg3 (by decide)
    _ = m ((c : Thread nD τ).loc main_arg3) := Gen.V1_of m c main_arg3 (by decide)
theorem Wk3_main_arg4 (c : Dev nD) : Wk3 m c (Proc.devRef .tc main_arg4) = m ((c : Thread nD τ).loc main_arg4) :=
  calc Wk3 m c (Proc.devRef .tc main_arg4)
    _ = Wk2 m c (Proc.devRef .tc main_arg4) := Wk3_of_ne m c main_arg4 (by decide)
    _ = Wk1 m c (Proc.devRef .tc main_arg4) := Wk2_of_ne m c main_arg4 (by decide)
    _ = m ((c : Thread nD τ).loc main_arg4) := Gen.V1_of m c main_arg4 (by decide)
theorem Wk3_main_arg5 (c : Dev nD) : Wk3 m c (Proc.devRef .tc main_arg5) = m ((c : Thread nD τ).loc main_arg5) :=
  calc Wk3 m c (Proc.devRef .tc main_arg5)
    _ = Wk2 m c (Proc.devRef .tc main_arg5) := Wk3_of_ne m c main_arg5 (by decide)
    _ = Wk1 m c (Proc.devRef .tc main_arg5) := Wk2_of_ne m c main_arg5 (by decide)
    _ = m ((c : Thread nD τ).loc main_arg5) := Gen.V1_of m c main_arg5 (by decide)
theorem Wk3_main_arg6 (c : Dev nD) : Wk3 m c (Proc.devRef .tc main_arg6) = m ((c : Thread nD τ).loc main_arg6) :=
  calc Wk3 m c (Proc.devRef .tc main_arg6)
    _ = Wk2 m c (Proc.devRef .tc main_arg6) := Wk3_of_ne m c main_arg6 (by decide)
    _ = Wk1 m c (Proc.devRef .tc main_arg6) := Wk2_of_ne m c main_arg6 (by decide)
    _ = m ((c : Thread nD τ).loc main_arg6) := Gen.V1_of m c main_arg6 (by decide)

/-- The result array ends at what the attention region's write-backs leave. -/
theorem Wk3_main_v8 (c : Dev nD) : Wk3 m c (Proc.devRef .tc main_v8) = (dat1 (Vk2 m) c).arrAt 3 cfg1.N := Wk3_arr m c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vk1 m) c
  | ⟨1, _⟩ => fun c => dat1 (Vk2 m) c
abbrev 𝒱₀ : Variants := Variants.none
abbrev Lk : GSem nD τ sig → Finset Unit := fun _ => ∅
abbrev lvk : GSem nD τ sig → Unit → ℕ := fun _ _ => 0
/-- What rides beside the buffers through every segment: the generator register at some state and the core's debts, none. -/
abbrev Rk (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lk lvk :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rk

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wk3 m c) ∗ ∃ r, prngReg c r)

/-! ## The regions as segments -/

set_option backward.isDefEq.respectTransparency.types false in
/-- The projection region over the thread state: entered from every unscoped buffer after the host operations, left with
    its three output arrays written. -/
def reg0 : Pipeline.RegionSeg (pcfgs (F := F)) adm (pdats m) () defs₀ 𝒱₀ Lk lvk 0 where
  win := launch0.win.to₀
  block_pos := launch0.block_pos
  stage_whole := launch0.stage_whole
  K := PEmpty
  osem k := k.elim
  ho := Pipeline.OwnSemFacts.none _
  hbody c := (body_obligation0 (Vk1 m) c).loose
  hwaits := Pipeline.hwaits_of_owed_zero _ _ _ _ Lk lvk 0 fun _ _ => rfl
  pre c := iprop(StableHlo.held (c : Thread nD τ) (Pipeline.ucRefs τ sig) (Wk1 m c) ∗ Rk c)
  post c := iprop(StableHlo.held (c : Thread nD τ) (Pipeline.ucRefs τ sig) (Wk2 m c) ∗ Rk c)
  X c := iprop(∃ r, prngReg c r)
  Y c := iprop(∃ r, prngReg c r)
  Z c := Pipeline.unscopedRest (Ix := Unit) (Name := ℕ) (U := UR sig nD τ) (Lvl := ℕ) spec0 c (Vk1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vk1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vk1 m c) (Vk2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from the projection region's exit contents, left with the result
    array written; the three carried buffers go into the region's invariant at anything and come back out at anything. -/
def reg1 : Pipeline.RegionSeg (pcfgs (F := F)) adm (pdats m) () defs₀ 𝒱₀ Lk lvk 1 where
  win := launch1.win.to₀
  block_pos := launch1.block_pos
  stage_whole := launch1.stage_whole
  K := PEmpty
  osem k := k.elim
  ho := Pipeline.OwnSemFacts.none _
  hbody c := (body_obligation1 (Vk2 m) c).loose
  hwaits := Pipeline.hwaits_of_owed_zero _ _ _ _ Lk lvk 1 fun _ _ => rfl
  pre c := iprop(StableHlo.held (c : Thread nD τ) (Pipeline.ucRefs τ sig) (Wk2 m c) ∗ Rk c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vk2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vk2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (Vk2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vk2 m c) (Vk3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ Lk lvk) :=
  [ .host (hseg hostOps0 hostOps0_sub hostOps0_fresh (Wk0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters, every weakly fair execution of the program terminates, nothing faulting,
    and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wk3 m c b) :=
  Pipeline.θ_run_regions_kit (pcfgs (F := F)) adm (pdats m) () cellOf_inj emb₁ defs₀ 𝒱₀ Lk lvk m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wk0 m c) ∗ Rk c)) (Tₙ := Tₙ m)
    (hch := ⟨fun _ => .rfl, fun _ => .rfl, fun _ => .rfl, fun _ => .rfl⟩)
    (hinit := by
      refine Pipeline.initEach Lk lvk fun c => ?_
      rw [show unscopedBufs c (fun b => m ((c : Thread nD τ).loc b)) = StableHlo.held (c : Thread nD τ) (Pipeline.ucRefs τ sig) (Wk0 m c)
        from Pipeline.unscopedBufs_held c (Wk0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wk3 m c b)
    (hfin := fun c s' => by
      iintro ⟨⟨Hh, -⟩, HSI⟩
      unfold StableHlo.held
      imodintro
      iapply (pointsTo_read_all (Pipeline.ucRefs τ sig) (fun b => (((c : Thread nD τ)).1, b)) (Wk3 m c) s')
      isplitl [Hh] <;> iassumption)
    (hQ := fun s h c => h c)

/-- The frame: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (Wk3_main_arg0 m c),
     (h c _ (mem_uc main_arg1 (by decide))).trans (Wk3_main_arg1 m c),
     (h c _ (mem_uc main_arg2 (by decide))).trans (Wk3_main_arg2 m c),
     (h c _ (mem_uc main_arg3 (by decide))).trans (Wk3_main_arg3 m c),
     (h c _ (mem_uc main_arg4 (by decide))).trans (Wk3_main_arg4 m c),
     (h c _ (mem_uc main_arg5 (by decide))).trans (Wk3_main_arg5 m c),
     (h c _ (mem_uc main_arg6 (by decide))).trans (Wk3_main_arg6 m c)⟩) (run_all m ρ)

/-- The run with the result named: the result array ends at what the attention region's write-backs leave, the arguments
    as launched. -/
theorem run_value : θ_run defs (onTc (τ := τ) (main (F := F))) ⟨m, fun _ => 0, ρ⟩ (fun r => ∀ c : Dev nD,
      r.2.mem ((c.tc : Thread nD τ).loc main_v8) = (dat1 (Vk2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v8 (by decide))).trans (Wk3_main_v8 m c),
     (h c _ (mem_uc main_arg0 (by decide))).trans (Wk3_main_arg0 m c),
     (h c _ (mem_uc main_arg1 (by decide))).trans (Wk3_main_arg1 m c),
     (h c _ (mem_uc main_arg2 (by decide))).trans (Wk3_main_arg2 m c),
     (h c _ (mem_uc main_arg3 (by decide))).trans (Wk3_main_arg3 m c),
     (h c _ (mem_uc main_arg4 (by decide))).trans (Wk3_main_arg4 m c),
     (h c _ (mem_uc main_arg5 (by decide))).trans (Wk3_main_arg5 m c),
     (h c _ (mem_uc main_arg6 (by decide))).trans (Wk3_main_arg6 m c)⟩) (run_all m ρ)

end Cert.Kernel.Hand

end
-- ==== Proof.FlashDefs.lean ====
/-
  The flash-attention body as pure functions of what it loads, at any float instance: from the query block `q`,
  a key block `k`, a value block `v` and the three carried buffers (running maximum `mS`, running normaliser `lS`,
  running weighted sum `aS`), what one grid point stores back into each of the three, what the first point of a query
  row starts them from, and what the last point of a row writes to the output block. Each is a composition of the
  body's named payloads, nothing more.
-/
import proofs.«113662_j9672266350973_2_alg».proof.Proof.Gen.KernelIdeal.Skeleton

noncomputable section

namespace Cert.KernelIdeal.Hand

open Idealize.ShloMosaic Cert.KernelIdeal Cert.KernelIdeal.Gen

variable {F : FTy → Type} [FloatOps F]

/-- The running maximum a point leaves: the larger of the old one and the row maxima of the point's scaled scores. -/
def stepM (q : Vec F S1024x1024 .bf16) (k : Vec F S2048x1024 .bf16) (mS : Vec F S1024x1 .f32) : Vec F S1024x1 .f32 :=
  k1_pay2 (k1_pay8 q k mS)

/-- The running normaliser a point leaves: the old one rescaled by `exp (m − m')`, plus the row sums of `exp (s − m')`. -/
def stepL (q : Vec F S1024x1024 .bf16) (k : Vec F S2048x1024 .bf16) (mS lS : Vec F S1024x1 .f32) : Vec F S1024x1 .f32 :=
  k1_pay11 q k mS mS lS

/-- The running weighted sum a point leaves: the old one rescaled by `exp (m − m')`, plus `exp (s − m')` times the values. -/
def stepA (q : Vec F S1024x1024 .bf16) (k v : Vec F S2048x1024 .bf16) (mS : Vec F S1024x1 .f32) (aS : Vec F S1024x1024 .f32) :
    Vec F S1024x1024 .f32 :=
  k1_pay1 (k1_pay12 q k mS mS aS) (k1_pay13 q k mS) (k1_pay14 v)

/-- What the last point of a query row writes out: the weighted sum over the normaliser, row by row. -/
def outF (aS : Vec F S1024x1024 .f32) (lS : Vec F S1024x1 .f32) : Vec F S1024x1024 .f32 :=
  k1_pay3 aS lS

/-- The three carried buffers as the first point of a query row resets them: `−∞`, `0`, `0`. -/
def initM : Vec F S1024x1 .f32 := k1_pay4 (F := F)
def initL : Vec F S1024x1 .f32 := k1_pay5 (F := F)
def initA : Vec F S1024x1024 .f32 := k1_pay6 (F := F)

/-- The projection body's three output blocks from its loads: the row block of `x`, the stacked weights, the stacked bias. -/
def projQ (x0 : Vec F S512x1024 .f32) (w : Vec F S1024x3072 .bf16) (b : Vec F S1x3072 .f32) : Vec F S512x1024 .bf16 := k0_pay2 x0 w b
def projK (x0 : Vec F S512x1024 .f32) (w : Vec F S1024x3072 .bf16) (b : Vec F S1x3072 .f32) : Vec F S512x1024 .bf16 := k0_pay3 x0 w b
def projV (x0 : Vec F S512x1024 .f32) (w : Vec F S1024x3072 .bf16) (b : Vec F S1x3072 .f32) : Vec F S512x1024 .bf16 := k0_pay4 x0 w b

end Cert.KernelIdeal.Hand

end
-- ==== Proof.Frame.R0.lean ====
/-
  The projection region: at every grid point the body loads the point's row block of `x`, the whole stacked weight
  matrix and the stacked bias row, and stores three blocks — the three column thirds of `x·W + b` — one into each
  output window. Stated at a parameter `V`, the buffers' contents when the region is entered: each window's block at
  a point, what the body leaves in each output's staging buffer as a function of the input blocks, the body's triple,
  the region's proof data and its body obligation.
-/
import proofs.«113662_j9672266350973_2_alg».proof.Proof.Gen.KernelIdeal.Launch
import proofs.«113662_j9672266350973_2_alg».proof.Proof.Gen.KernelIdeal.Skeleton
import proofs.«113662_j9672266350973_2_alg».proof.Proof.Gen.KernelIdeal.Points
import proofs.«113662_j9672266350973_2_alg».proof.Proof.FlashDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each buffer whole. -/
abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S1x3072 := Rect.unit (s := S1x3072) ![0, 0] S1x3072.size inb_S1x3072_S1x3072_0_0

/-- What the body leaves in the three output windows' buffers, from the input blocks: one whole store each. -/
def out0_3 (x0 : Vec F S512x1024 .f32) (x1 : Vec F S1024x3072 .bf16) (x2 : Vec F S1x3072 .f32) : Vec F S512x1024 .bf16 :=
  View.canon [⟨r0_x, k0_pay2 (View.ld x0 r0_x) (View.ld x1 r0_w) (View.ld x2 r0_b)⟩]
def out0_4 (x0 : Vec F S512x1024 .f32) (x1 : Vec F S1024x3072 .bf16) (x2 : Vec F S1x3072 .f32) : Vec F S512x1024 .bf16 :=
  View.canon [⟨r0_x, k0_pay3 (View.ld x0 r0_x) (View.ld x1 r0_w) (View.ld x2 r0_b)⟩]
def out0_5 (x0 : Vec F S512x1024 .f32) (x1 : Vec F S1024x3072 .bf16) (x2 : Vec F S1x3072 .f32) : Vec F S512x1024 .bf16 :=
  View.canon [⟨r0_x, k0_pay4 (View.ld x0 r0_x) (View.ld x1 r0_w) (View.ld x2 r0_b)⟩]

/-- A whole store tiles the buffer, so it covers it. -/
theorem cover0 (p0 : Vec F S512x1024 .bf16) (y : S512x1024.Idx) :
    ∃ pc ∈ ([⟨r0_x, p0⟩] : List (View.Piece (Elt F) S512x1024 .bf16)), y ∈ pc.1.set :=
  View.cover_of_tiled [⟨r0_x, p0⟩] S512x1024.size (by rfl) y

set_option maxHeartbeats 2000000 in
/-- The body on whole staging memrefs, the inputs' at read contents and the outputs' at anything, runs to the
    continuation holding the inputs' as they were and each output's at its block of `x·W + b`. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-- The region's proof data on core `c`: the arrays as the region finds them; after the body at point `t` each input's
    buffer at its block and each output's at its block of `x·W + b`; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Frame.R1Runs.lean ====
/-
  The attention region: what its three runs share. Where the body branches (the first point of a query row resets the
  three carried buffers; the last point of a row divides and stores the output block), decided over the grid; where
  the output window is idle; the staging and scratch memrefs; and the region's untouched rest spelled buffer by buffer.
-/
import proofs.«113662_j9672266350973_2_alg».proof.Proof.Gen.KernelIdeal.Launch
import proofs.«113662_j9672266350973_2_alg».proof.Proof.Gen.KernelIdeal.Skeleton
import proofs.«113662_j9672266350973_2_alg».proof.Proof.Gen.KernelIdeal.Points
import proofs.«113662_j9672266350973_2_alg».proof.Proof.FlashDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first branch's condition (the key-chunk coordinate is 0), from the grid coordinates. -/
abbrev cond1_0 (i : grid1.Coords) : Prop := (Scalar.cmpi .ne (Scalar.extui (Scalar.cmpi .eq (BitVec.ofNat 32 (i 1).val) 0#32)) 0#32) = 1#1
/-- It holds at the first point of each query row. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second branch's condition (the key-chunk coordinate is 3). -/
abbrev cond1_1 (i : grid1.Coords) : Prop := k1_cond2 i = 1#1
/-- It holds at the last point of each query row. -/
theorem hcond1_1 : ∀ t : Fin cfg1.N, cond1_1 (grid1.coords t) ↔ t.val % 4 = 3 :=
  (by decide +kernel : ∀ t : Fin grid1.N, cond1_1 (grid1.coords t) ↔ t.val % 4 = 3)

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a row's last point the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At a row's last point it is live. -/
theorem liveAt1_3 : ∀ t : Fin cfg1.N, cond1_1 (grid1.coords t) → cfg1.idle 3 (grid1.coords t) = false := by decide +kernel

/-- One staging buffer of the output window, through which its contents are stated. -/
abbrev VO1_3 : View sig .tc .vmem S1024x1024 .f32 := (Memref.whole cc1_stg3_0 : Memref sig .tc .vmem S1024x1024 .f32).view
/-- Each window's current staging memref at point `t`, as the pipeline passes it, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The three carried buffers: running maximum, running normaliser, running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- The region's untouched rest with the three carried buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.Frame.R1RunA.lean ====
/-
  The attention body at the first point of a query row: the three carried buffers are reset, then one key chunk is absorbed; nothing is stored to the output.
-/
import proofs.«113662_j9672266350973_2_alg».proof.Proof.Frame.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output's staging memref and in the three carried buffers (last first) in this
    case, with the proof that on whole memrefs — the inputs' at their contents — the body runs to the continuation holding
    the inputs' as they were and each stored buffer with its pieces written; the pieces are what the symbolic run finds. -/
noncomputable def kernelRun1_A (c : Dev nD) (i : grid1.Coords) (arg2 : Memref sig .tc .vmem S1024x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S2048x1024 .bf16) (x2 : Vec F S2048x1024 .bf16) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.Frame.R1RunB.lean ====
/-
  The attention body at a middle point of a query row: one key chunk is absorbed into the three carried buffers; nothing is stored to the output.
-/
import proofs.«113662_j9672266350973_2_alg».proof.Proof.Frame.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output's staging memref and in the three carried buffers (last first) in this
    case, with the proof that on whole memrefs — the inputs' at their contents — the body runs to the continuation holding
    the inputs' as they were and each stored buffer with its pieces written; the pieces are what the symbolic run finds. -/
noncomputable def kernelRun1_B (c : Dev nD) (i : grid1.Coords) (arg2 : Memref sig .tc .vmem S1024x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S2048x1024 .bf16) (x2 : Vec F S2048x1024 .bf16) (xs0 : Vec F S1024x1 .f32) (xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.Frame.R1RunC.lean ====
/-
  The attention body at the last point of a query row: the last key chunk is absorbed, then the weighted sum over the normaliser is stored to the output block.
-/
import proofs.«113662_j9672266350973_2_alg».proof.Proof.Frame.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output's staging memref and in the three carried buffers (last first) in this
    case, with the proof that on whole memrefs — the inputs' at their contents — the body runs to the continuation holding
    the inputs' as they were and each stored buffer with its pieces written; the pieces are what the symbolic run finds. -/
noncomputable def kernelRun1_C (c : Dev nD) (i : grid1.Coords) (arg2 : Memref sig .tc .vmem S1024x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S2048x1024 .bf16) (x2 : Vec F S2048x1024 .bf16) (xs0 : Vec F S1024x1 .f32) (xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.Frame.R1.lean ====
/-
  The attention region, point by point. What each case of the body leaves in the output's staging buffer and in the
  three carried buffers (running maximum, running normaliser, running weighted sum); what they hold after every grid
  point, by recursion on the point — the first point of a query row starts afresh, every later point takes what the
  point before left —; the region's invariant, proof data and body obligation.
-/
import proofs.«113662_j9672266350973_2_alg».proof.Proof.Frame.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's run at point `t` of this case, on the point's staging memrefs and the three carried buffers. -/
abbrev ptA (c : Dev nD) (t : Fin cfg1.N) (h0 : t.val % 4 = 0) (x0 : Vec F S1024x1024 .bf16) (x1 : Vec F S2048x1024 .bf16) (x2 : Vec F S2048x1024 .bf16) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => by have := (hcond1_1 t).mp h; omega) x0 x1 x2

/-- The case's pieces tile each buffer they are stored into, so they cover it. -/
theorem scoverA_0 (c : Dev nD) (t : Fin cfg1.N) (h0 : t.val % 4 = 0) (x0 : Vec F S1024x1024 .bf16) (x1 : Vec F S2048x1024 .bf16) (x2 : Vec F S2048x1024 .bf16) (y : S1024x1.Idx) :
    ∃ pc ∈ (ptA c t h0 x0 x1 x2).2.1, y ∈ pc.1.set :=
  View.cover_of_tiledL (ptA c t h0 x0 x1 x2).2.1 S1024x1.size (by sl_kernel_rfl) y
theorem scoverA_1 (c : Dev nD) (t : Fin cfg1.N) (h0 : t.val % 4 = 0) (x0 : Vec F S1024x1024 .bf16) (x1 : Vec F S2048x1024 .bf16) (x2 : Vec F S2048x1024 .bf16) (y : S1024x1.Idx) :
    ∃ pc ∈ (ptA c t h0 x0 x1 x2).2.2.1, y ∈ pc.1.set :=
  View.cover_of_tiledL (ptA c t h0 x0 x1 x2).2.2.1 S1024x1.size (by sl_kernel_rfl) y
theorem scoverA_2 (c : Dev nD) (t : Fin cfg1.N) (h0 : t.val % 4 = 0) (x0 : Vec F S1024x1024 .bf16) (x1 : Vec F S2048x1024 .bf16) (x2 : Vec F S2048x1024 .bf16) (y : S1024x1024.Idx) :
    ∃ pc ∈ (ptA c t h0 x0 x1 x2).2.2.2.1, y ∈ pc.1.set :=
  View.cover_of_tiledL (ptA c t h0 x0 x1 x2).2.2.2.1 S1024x1024.size (by sl_kernel_rfl) y

/-- What the case leaves: the output's staging buffer (a placeholder where the case stores nothing into it) and the three
    carried buffers, each its pieces read back. -/
def outsA (c : Dev nD) (t : Fin cfg1.N) (h0 : t.val % 4 = 0) (x0 : Vec F S1024x1024 .bf16) (x1 : Vec F S2048x1024 .bf16) (x2 : Vec F S2048x1024 .bf16) : Vec F S1024x1024 .f32 × Vec F S1024x1 .f32 × Vec F S1024x1 .f32 × Vec F S1024x1024 .f32 :=
  (VO1_3.read (Elt F) (VO1_3.writes (Elt F) VO1_3.junk (ptA c t h0 x0 x1 x2).1),
   VS1_0.read (Elt F) (VS1_0.writes (Elt F) VS1_0.junk (ptA c t h0 x0 x1 x2).2.1),
   VS1_1.read (Elt F) (VS1_1.writes (Elt F) VS1_1.junk (ptA c t h0 x0 x1 x2).2.2.1),
   VS1_2.read (Elt F) (VS1_2.writes (Elt F) VS1_2.junk (ptA c t h0 x0 x1 x2).2.2.2.1))

/-- The body's run at point `t` of this case, on the point's staging memrefs and the three carried buffers. -/
abbrev ptB (c : Dev nD) (t : Fin cfg1.N) (h0 : ¬t.val % 4 = 0) (h1 : ¬t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) x0 x1 x2 xs0 xs1 xs2

/-- The case's pieces tile each buffer they are stored into, so they cover it. -/
theorem scoverB_0 (c : Dev nD) (t : Fin cfg1.N) (h0 : ¬t.val % 4 = 0) (h1 : ¬t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) (y : S1024x1.Idx) :
    ∃ pc ∈ (ptB c t h0 h1 x0 x1 x2 xs0 xs1 xs2).2.1, y ∈ pc.1.set :=
  View.cover_of_tiledL (ptB c t h0 h1 x0 x1 x2 xs0 xs1 xs2).2.1 S1024x1.size (by sl_kernel_rfl) y
theorem scoverB_1 (c : Dev nD) (t : Fin cfg1.N) (h0 : ¬t.val % 4 = 0) (h1 : ¬t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) (y : S1024x1.Idx) :
    ∃ pc ∈ (ptB c t h0 h1 x0 x1 x2 xs0 xs1 xs2).2.2.1, y ∈ pc.1.set :=
  View.cover_of_tiledL (ptB c t h0 h1 x0 x1 x2 xs0 xs1 xs2).2.2.1 S1024x1.size (by sl_kernel_rfl) y
theorem scoverB_2 (c : Dev nD) (t : Fin cfg1.N) (h0 : ¬t.val % 4 = 0) (h1 : ¬t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) (y : S1024x1024.Idx) :
    ∃ pc ∈ (ptB c t h0 h1 x0 x1 x2 xs0 xs1 xs2).2.2.2.1, y ∈ pc.1.set :=
  View.cover_of_tiledL (ptB c t h0 h1 x0 x1 x2 xs0 xs1 xs2).2.2.2.1 S1024x1024.size (by sl_kernel_rfl) y

/-- What the case leaves: the output's staging buffer (a placeholder where the case stores nothing into it) and the three
    carried buffers, each its pieces read back. -/
def outsB (c : Dev nD) (t : Fin cfg1.N) (h0 : ¬t.val % 4 = 0) (h1 : ¬t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) : Vec F S1024x1024 .f32 × Vec F S1024x1 .f32 × Vec F S1024x1 .f32 × Vec F S1024x1024 .f32 :=
  (VO1_3.read (Elt F) (VO1_3.writes (Elt F) VO1_3.junk (ptB c t h0 h1 x0 x1 x2 xs0 xs1 xs2).1),
   VS1_0.read (Elt F) (VS1_0.writes (Elt F) VS1_0.junk (ptB c t h0 h1 x0 x1 x2 xs0 xs1 xs2).2.1),
   VS1_1.read (Elt F) (VS1_1.writes (Elt F) VS1_1.junk (ptB c t h0 h1 x0 x1 x2 xs0 xs1 xs2).2.2.1),
   VS1_2.read (Elt F) (VS1_2.writes (Elt F) VS1_2.junk (ptB c t h0 h1 x0 x1 x2 xs0 xs1 xs2).2.2.2.1))

/-- The body's run at point `t` of this case, on the point's staging memrefs and the three carried buffers. -/
abbrev ptC (c : Dev nD) (t : Fin cfg1.N) (h0 : ¬t.val % 4 = 0) (h1 : t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) x0 x1 x2 xs0 xs1 xs2

/-- The case's pieces tile each buffer they are stored into, so they cover it. -/
theorem scoverC_0 (c : Dev nD) (t : Fin cfg1.N) (h0 : ¬t.val % 4 = 0) (h1 : t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) (y : S1024x1.Idx) :
    ∃ pc ∈ (ptC c t h0 h1 x0 x1 x2 xs0 xs1 xs2).2.1, y ∈ pc.1.set :=
  View.cover_of_tiledL (ptC c t h0 h1 x0 x1 x2 xs0 xs1 xs2).2.1 S1024x1.size (by sl_kernel_rfl) y
theorem scoverC_1 (c : Dev nD) (t : Fin cfg1.N) (h0 : ¬t.val % 4 = 0) (h1 : t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) (y : S1024x1.Idx) :
    ∃ pc ∈ (ptC c t h0 h1 x0 x1 x2 xs0 xs1 xs2).2.2.1, y ∈ pc.1.set :=
  View.cover_of_tiledL (ptC c t h0 h1 x0 x1 x2 xs0 xs1 xs2).2.2.1 S1024x1.size (by sl_kernel_rfl) y
theorem scoverC_2 (c : Dev nD) (t : Fin cfg1.N) (h0 : ¬t.val % 4 = 0) (h1 : t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) (y : S1024x1024.Idx) :
    ∃ pc ∈ (ptC c t h0 h1 x0 x1 x2 xs0 xs1 xs2).2.2.2.1, y ∈ pc.1.set :=
  View.cover_of_tiledL (ptC c t h0 h1 x0 x1 x2 xs0 xs1 xs2).2.2.2.1 S1024x1024.size (by sl_kernel_rfl) y
theorem coverC_3 (c : Dev nD) (t : Fin cfg1.N) (h0 : ¬t.val % 4 = 0) (h1 : t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) (y : S1024x1024.Idx) :
    ∃ pc ∈ (ptC c t h0 h1 x0 x1 x2 xs0 xs1 xs2).1, y ∈ pc.1.set :=
  View.cover_of_tiledL (ptC c t h0 h1 x0 x1 x2 xs0 xs1 xs2).1 S1024x1024.size (by sl_kernel_rfl) y

/-- What the case leaves: the output's staging buffer (a placeholder where the case stores nothing into it) and the three
    carried buffers, each its pieces read back. -/
def outsC (c : Dev nD) (t : Fin cfg1.N) (h0 : ¬t.val % 4 = 0) (h1 : t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) : Vec F S1024x1024 .f32 × Vec F S1024x1 .f32 × Vec F S1024x1 .f32 × Vec F S1024x1024 .f32 :=
  (VO1_3.read (Elt F) (VO1_3.writes (Elt F) VO1_3.junk (ptC c t h0 h1 x0 x1 x2 xs0 xs1 xs2).1),
   VS1_0.read (Elt F) (VS1_0.writes (Elt F) VS1_0.junk (ptC c t h0 h1 x0 x1 x2 xs0 xs1 xs2).2.1),
   VS1_1.read (Elt F) (VS1_1.writes (Elt F) VS1_1.junk (ptC c t h0 h1 x0 x1 x2 xs0 xs1 xs2).2.2.1),
   VS1_2.read (Elt F) (VS1_2.writes (Elt F) VS1_2.junk (ptC c t h0 h1 x0 x1 x2 xs0 xs1 xs2).2.2.2.1))

/-- THE ACCUMULATION. What the output's staging buffer and the three carried buffers hold after the body at position `n`:
    the case the point is in, run at the point's input blocks; after the first point of a query row the carried buffers
    enter a case at what the point before left in them. -/
def outsAt1 (c : Dev nD) : (n : ℕ) → n < cfg1.N → Vec F S1024x1024 .f32 × Vec F S1024x1 .f32 × Vec F S1024x1 .f32 × Vec F S1024x1024 .f32
  | 0, hn => outsA c ⟨0, hn⟩ (Nat.zero_mod 4) (iblk1 V c 0 ⟨0, hn⟩) (iblk1 V c 1 ⟨0, hn⟩) (iblk1 V c 2 ⟨0, hn⟩)
  | n + 1, hn =>
    if h0 : (n + 1) % 4 = 0 then
      outsA c ⟨n + 1, hn⟩ h0 (iblk1 V c 0 ⟨n + 1, hn⟩) (iblk1 V c 1 ⟨n + 1, hn⟩) (iblk1 V c 2 ⟨n + 1, hn⟩)
    else
      if h1 : (n + 1) % 4 = 3 then
        outsC c ⟨n + 1, hn⟩ h0 h1 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2
      else
        outsB c ⟨n + 1, hn⟩ h0 h1 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2

theorem outsAt1_A (c : Dev nD) (t : Fin cfg1.N) (h0 : t.val % 4 = 0) :
    outsAt1 V c t.val t.isLt = outsA c t h0 (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = outsB c t h0 h1 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = outsC c t h0 h1 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; exact absurd (Nat.zero_mod _) h0)
  | succ n => exact (dif_neg h0).trans ((dif_pos h1).trans rfl)

/-- The region invariant before position `n`: before the first point the untouched rest with every scoped buffer at
    anything; afterwards the same rest with the three carried buffers at what the point before left in them. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-- The region's proof data on core `c`: the arrays as the region finds them; after the body at point `t` each input's
    buffer at its block and the output's at the accumulation's first component; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; the point's position in its query row says which case it
    is in; the invariant hands the body the three carried buffers at what the point before left (at anything at the very
    first point) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  ·
    rw [Dat.leavesExact_idle (dat1 V c) 3 t (idleAt1_3 t (fun h => by have := (hcond1_1 t).mp h; omega)) (noFlush1_3 t (fun h => by have := (hcond1_1 t).mp h; omega))]
    rw [outsAt1_A V c t h0]
    unfold outsA; (try dsimp only)
    by_cases hz : t.val = 0
    · rw [PhiS_castSucc V c t, PhiS_zero V c _ _ hz, PhiA1_eq]
      iintro ⟨⟨⟨Ha0, Ha1, Ha2, Ha3, Ha4, Ha5, Ha6, Ha7, Ha8, Ha9, HS0, HS1, HS2⟩, Hg⟩, Ho, ⟨%d0, H0⟩, ⟨%d1, H1⟩, ⟨%d2, H2⟩, ⟨%d3, H3⟩⟩
      iapply ((ptA c t h0 (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Ha0 Ha1 Ha2 Ha3 Ha4 Ha5 Ha6 Ha7 Ha8 Ha9 HS0 HS1 HS2 Hg]
      · isplitr [Hg]
        · isplitl [Ha0]; · iexact Ha0
          isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          isplitl [Ha7]; · iexact Ha7
          isplitl [Ha8]; · iexact Ha8
          isplitl [Ha9]; · iexact Ha9
          isplitl [HS0]
          · unfold owns; iexists _; isplitr
            swap; · iexact HS0
            ipureintro; exact View.read_writes_of_cover _ _ _ _ _ (scoverA_0 c t h0 _ _ _)
          isplitl [HS1]
          · unfold owns; iexists _; isplitr
            swap; · iexact HS1
            ipureintro; exact View.read_writes_of_cover _ _ _ _ _ (scoverA_1 c t h0 _ _ _)
          unfold owns; iexists _; isplitr
          swap; · iexact HS2
          ipureintro; exact View.read_writes_of_cover _ _ _ _ _ (scoverA_2 c t h0 _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨Ha0, Ha1, Ha2, Ha3, Ha4, Ha5, Ha6, Ha7, Ha8, Ha9, HS0, HS1, HS2⟩, Hg⟩, Ho, ⟨%d0, H0⟩, ⟨%d1, H1⟩, ⟨%d2, H2⟩, ⟨%d3, H3⟩⟩
      iapply ((ptA c t h0 (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Ha0 Ha1 Ha2 Ha3 Ha4 Ha5 Ha6 Ha7 Ha8 Ha9 HS0 HS1 HS2 Hg]
      · isplitr [Hg]
        · isplitl [Ha0]; · iexact Ha0
          isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          isplitl [Ha7]; · iexact Ha7
          isplitl [Ha8]; · iexact Ha8
          isplitl [Ha9]; · iexact Ha9
          isplitl [HS0]
          · unfold owns; iexists _; isplitr
            swap; · iexact HS0
            ipureintro; exact View.read_writes_of_cover _ _ _ _ _ (scoverA_0 c t h0 _ _ _)
          isplitl [HS1]
          · unfold owns; iexists _; isplitr
            swap; · iexact HS1
            ipureintro; exact View.read_writes_of_cover _ _ _ _ _ (scoverA_1 c t h0 _ _ _)
          unfold owns; iexists _; isplitr
          swap; · iexact HS2
          ipureintro; exact View.read_writes_of_cover _ _ _ _ _ (scoverA_2 c t h0 _ _ _)
        iexact Hg
      isplitl [Ho]; · iexact Ho
      isplitl [H0]; · iexact H0
      isplitl [H1]; · iexact H1
      isplitl [H2]; · iexact H2
      iexists _; iexact H3
  · by_cases h1 : t.val % 4 = 3
    ·
      rw [show (dat1 V c).leavesExact 3 t = owns (c : Thread nD τ) (ms1_3 t) fullShare ((dat1 V c).after 3 t) from by
          unfold Dat.leavesExact; rw [liveAt1_3 t ((hcond1_1 t).mpr h1)], after1_3]
      rw [outsAt1_C V c t h0 h1]
      unfold outsC; (try dsimp only)
      have hz : t.val ≠ 0 := by omega
      rw [PhiS_castSucc V c t, PhiS_pos V c _ _ hz]
      iintro ⟨⟨⟨Ha0, Ha1, Ha2, Ha3, Ha4, Ha5, Ha6, Ha7, Ha8, Ha9, HS0, HS1, HS2⟩, Hg⟩, Ho, ⟨%d0, H0⟩, ⟨%d1, H1⟩, ⟨%d2, H2⟩, ⟨%d3, H3⟩⟩
      iapply ((ptC c t h0 h1 (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [Ha0 Ha1 Ha2 Ha3 Ha4 Ha5 Ha6 Ha7 Ha8 Ha9 HS0 HS1 HS2 Hg]
      · isplitr [Hg]
        · isplitl [Ha0]; · iexact Ha0
          isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          isplitl [Ha7]; · iexact Ha7
          isplitl [Ha8]; · iexact Ha8
          isplitl [Ha9]; · iexact Ha9
          isplitl [HS0]
          · unfold owns; iexists _; isplitr
            swap; · iexact HS0
            ipureintro; exact View.read_writes_of_cover _ _ _ _ _ (scoverC_0 c t h0 h1 _ _ _ _ _ _)
          isplitl [HS1]
          · unfold owns; iexists _; isplitr
            swap; · iexact HS1
            ipureintro; exact View.read_writes_of_cover _ _ _ _ _ (scoverC_1 c t h0 h1 _ _ _ _ _ _)
          unfold owns; iexists _; isplitr
          swap; · iexact HS2
          ipureintro; exact View.read_writes_of_cover _ _ _ _ _ (scoverC_2 c t h0 h1 _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 c t h0 h1 _ _ _ _ _ _)
    ·
      rw [Dat.leavesExact_idle (dat1 V c) 3 t (idleAt1_3 t (fun h => h1 ((hcond1_1 t).mp h))) (noFlush1_3 t (fun h => h1 ((hcond1_1 t).mp h)))]
      rw [outsAt1_B V c t h0 h1]
      unfold outsB; (try dsimp only)
      have hz : t.val ≠ 0 := by omega
      rw [PhiS_castSucc V c t, PhiS_pos V c _ _ hz]
      iintro ⟨⟨⟨Ha0, Ha1, Ha2, Ha3, Ha4, Ha5, Ha6, Ha7, Ha8, Ha9, HS0, HS1, HS2⟩, Hg⟩, Ho, ⟨%d0, H0⟩, ⟨%d1, H1⟩, ⟨%d2, H2⟩, ⟨%d3, H3⟩⟩
      iapply ((ptB c t h0 h1 (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Ha0 Ha1 Ha2 Ha3 Ha4 Ha5 Ha6 Ha7 Ha8 Ha9 HS0 HS1 HS2 Hg]
      · isplitr [Hg]
        · isplitl [Ha0]; · iexact Ha0
          isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          isplitl [Ha7]; · iexact Ha7
          isplitl [Ha8]; · iexact Ha8
          isplitl [Ha9]; · iexact Ha9
          isplitl [HS0]
          · unfold owns; iexists _; isplitr
            swap; · iexact HS0
            ipureintro; exact View.read_writes_of_cover _ _ _ _ _ (scoverB_0 c t h0 h1 _ _ _ _ _ _)
          isplitl [HS1]
          · unfold owns; iexists _; isplitr
            swap; · iexact HS1
            ipureintro; exact View.read_writes_of_cover _ _ _ _ _ (scoverB_1 c t h0 h1 _ _ _ _ _ _)
          unfold owns; iexists _; isplitr
          swap; · iexact HS2
          ipureintro; exact View.read_writes_of_cover _ _ _ _ _ (scoverB_2 c t h0 h1 _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the untouched rest back: the carried buffers' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  iintro ⟨⟨Ha0, Ha1, Ha2, Ha3, Ha4, Ha5, Ha6, Ha7, Ha8, Ha9, HS0, HS1, HS2⟩, Hg⟩
  isplitr [Hg]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [HS0]; · iexists _; iexact HS0
    isplitl [HS1]; · iexists _; iexact HS1
    iexists _; iexact HS2
  iexact Hg

end Cert.KernelIdeal.Hand

end
-- ==== Proof.Frame.Run.lean ====
/-
  The whole program as three segments — the host operations that transpose, stack and cast the weights and stack the
  biases; the projection region; the attention region — run from the launch to the return. The buffers' contents at
  each boundary are a fold from the launch memory: after the host operations; after the projection region (its three
  output arrays at what its write-backs leave); after the attention region (the result array likewise). The run ends
  with every unscoped buffer at the last boundary's contents, from which both the unchanged arguments and the result
  are read.
-/
import proofs.«113662_j9672266350973_2_alg».proof.Proof.Frame.R0
import proofs.«113662_j9672266350973_2_alg».proof.Proof.Frame.R1
import proofs.«113662_j9672266350973_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev Wk0 : Dev nD → Valuation τ sig (Elt F) := fun c b => m (c, b)
/-- After the host operations (the projection region's entry). -/
abbrev Wk1 : Dev nD → Valuation τ sig (Elt F) := fun c => StableHlo.after hostOps0 (Wk0 m c)
abbrev Vk1 : (c : Dev nD) → (b : Ref sig .tc) → Buf (Elt F) ((c : Thread nD τ).loc b) := fun c b => Wk1 m c b
/-- At the projection region's exit: its arrays at what the pipeline leaves, every other buffer as entered. -/
def Wk2 (c : Dev nD) : Valuation τ sig (Elt F) :=
  Pipeline.withArrays spec0 c (Wk1 m c) fun w => (dat0 (Vk1 m) c).arrAt w cfg0.N
theorem Wk2_arr (c : Dev nD) (w : Fin cfg0.W) :
    Wk2 m c (Proc.devRef .tc (Pipeline.arrRef spec0 w)) = (dat0 (Vk1 m) c).arrAt w cfg0.N := by
  unfold Wk2; exact Pipeline.withArrays_arr spec0 launch0.win.arr_inj c _ _ w
theorem Wk2_of_ne (c : Dev nD) (b : Ref sig .tc) (hb : ∀ w, Pipeline.arrRef spec0 w ≠ b) :
    Wk2 m c (Proc.devRef .tc b) = Wk1 m c (Proc.devRef .tc b) := by
  unfold Wk2; exact Pipeline.withArrays_of_ne spec0 c _ _ b hb
abbrev Vk2 : (c : Dev nD) → (b : Ref sig .tc) → Buf (Elt F) ((c : Thread nD τ).loc b) := fun c b => Wk2 m c b
theorem hF0 (c : Dev nD) (w : Fin cfg0.W) : (dat0 (Vk1 m) c).arrAt w cfg0.N = Vk2 m c (Pipeline.arrRef spec0 w) :=
  (Wk2_arr m c w).symm
theorem hrest0 (c : Dev nD) : ∀ b, b ∉ Finset.univ.image (Pipeline.arrRef spec0) → Vk2 m c b = Vk1 m c b :=
  fun b hb => Wk2_of_ne m c b fun w e => hb (Finset.mem_image.mpr ⟨w, Finset.mem_univ _, e⟩)

/-- At the attention region's exit: its arrays at what the pipeline leaves, every other buffer as entered. -/
def Wk3 (c : Dev nD) : Valuation τ sig (Elt F) :=
  Pipeline.withArrays spec1 c (Wk2 m c) fun w => (dat1 (Vk2 m) c).arrAt w cfg1.N
theorem Wk3_arr (c : Dev nD) (w : Fin cfg1.W) :
    Wk3 m c (Proc.devRef .tc (Pipeline.arrRef spec1 w)) = (dat1 (Vk2 m) c).arrAt w cfg1.N := by
  unfold Wk3; exact Pipeline.withArrays_arr spec1 launch1.win.arr_inj c _ _ w
theorem Wk3_of_ne (c : Dev nD) (b : Ref sig .tc) (hb : ∀ w, Pipeline.arrRef spec1 w ≠ b) :
    Wk3 m c (Proc.devRef .tc b) = Wk2 m c (Proc.devRef .tc b) := by
  unfold Wk3; exact Pipeline.withArrays_of_ne spec1 c _ _ b hb
abbrev Vk3 : (c : Dev nD) → (b : Ref sig .tc) → Buf (Elt F) ((c : Thread nD τ).loc b) := fun c b => Wk3 m c b
theorem hF1 (c : Dev nD) (w : Fin cfg1.W) : (dat1 (Vk2 m) c).arrAt w cfg1.N = Vk3 m c (Pipeline.arrRef spec1 w) :=
  (Wk3_arr m c w).symm
theorem hrest1 (c : Dev nD) : ∀ b, b ∉ Finset.univ.image (Pipeline.arrRef spec1) → Vk3 m c b = Vk2 m c b :=
  fun b hb => Wk3_of_ne m c b fun w e => hb (Finset.mem_image.mpr ⟨w, Finset.mem_univ _, e⟩)

/-! The arguments end as launched: no host operation and no region writes one. -/

theorem Wk3_main_arg0 (c : Dev nD) : Wk3 m c (Proc.devRef .tc main_arg0) = m ((c : Thread nD τ).loc main_arg0) :=
  calc Wk3 m c (Proc.devRef .tc main_arg0)
    _ = Wk2 m c (Proc.devRef .tc main_arg0) := Wk3_of_ne m c main_arg0 (by decide)
    _ = Wk1 m c (Proc.devRef .tc main_arg0) := (Wk2_arr m c 0).trans (((dat0 (Vk1 m) c).arrAt_in 0 rfl _).trans (A_eq0 (Vk1 m) c 0))
    _ = m ((c : Thread nD τ).loc main_arg0) := Gen.V1_of m c main_arg0 (by decide)
theorem Wk3_main_arg1 (c : Dev nD) : Wk3 m c (Proc.devRef .tc main_arg1) = m ((c : Thread nD τ).loc main_arg1) :=
  calc Wk3 m c (Proc.devRef .tc main_arg1)
    _ = Wk2 m c (Proc.devRef .tc main_arg1) := Wk3_of_ne m c main_arg1 (by decide)
    _ = Wk1 m c (Proc.devRef .tc main_arg1) := Wk2_of_ne m c main_arg1 (by decide)
    _ = m ((c : Thread nD τ).loc main_arg1) := Gen.V1_of m c main_arg1 (by decide)
theorem Wk3_main_arg2 (c : Dev nD) : Wk3 m c (Proc.devRef .tc main_arg2) = m ((c : Thread nD τ).loc main_arg2) :=
  calc Wk3 m c (Proc.devRef .tc main_arg2)
    _ = Wk2 m c (Proc.devRef .tc main_arg2) := Wk3_of_ne m c main_arg2 (by decide)
    _ = Wk1 m c (Proc.devRef .tc main_arg2) := Wk2_of_ne m c main_arg2 (by decide)
    _ = m ((c : Thread nD τ).loc main_arg2) := Gen.V1_of m c main_arg2 (by decide)
theorem Wk3_main_arg3 (c : Dev nD) : Wk3 m c (Proc.devRef .tc main_arg3) = m ((c : Thread nD τ).loc main_arg3) :=
  calc Wk3 m c (Proc.devRef .tc main_arg3)
    _ = Wk2 m c (Proc.devRef .tc main_arg3) := Wk3_of_ne m c main_arg3 (by decide)
    _ = Wk1 m c (Proc.devRef .tc main_arg3) := Wk2_of_ne m c main_arg3 (by decide)
    _ = m ((c : Thread nD τ).loc main_arg3) := Gen.V1_of m c main_arg3 (by decide)
theorem Wk3_main_arg4 (c : Dev nD) : Wk3 m c (Proc.devRef .tc main_arg4) = m ((c : Thread nD τ).loc main_arg4) :=
  calc Wk3 m c (Proc.devRef .tc main_arg4)
    _ = Wk2 m c (Proc.devRef .tc main_arg4) := Wk3_of_ne m c main_arg4 (by decide)
    _ = Wk1 m c (Proc.devRef .tc main_arg4) := Wk2_of_ne m c main_arg4 (by decide)
    _ = m ((c : Thread nD τ).loc main_arg4) := Gen.V1_of m c main_arg4 (by decide)
theorem Wk3_main_arg5 (c : Dev nD) : Wk3 m c (Proc.devRef .tc main_arg5) = m ((c : Thread nD τ).loc main_arg5) :=
  calc Wk3 m c (Proc.devRef .tc main_arg5)
    _ = Wk2 m c (Proc.devRef .tc main_arg5) := Wk3_of_ne m c main_arg5 (by decide)
    _ = Wk1 m c (Proc.devRef .tc main_arg5) := Wk2_of_ne m c main_arg5 (by decide)
    _ = m ((c : Thread nD τ).loc main_arg5) := Gen.V1_of m c main_arg5 (by decide)
theorem Wk3_main_arg6 (c : Dev nD) : Wk3 m c (Proc.devRef .tc main_arg6) = m ((c : Thread nD τ).loc main_arg6) :=
  calc Wk3 m c (Proc.devRef .tc main_arg6)
    _ = Wk2 m c (Proc.devRef .tc main_arg6) := Wk3_of_ne m c main_arg6 (by decide)
    _ = Wk1 m c (Proc.devRef .tc main_arg6) := Wk2_of_ne m c main_arg6 (by decide)
    _ = m ((c : Thread nD τ).loc main_arg6) := Gen.V1_of m c main_arg6 (by decide)

/-- The result array ends at what the attention region's write-backs leave. -/
theorem Wk3_main_v8 (c : Dev nD) : Wk3 m c (Proc.devRef .tc main_v8) = (dat1 (Vk2 m) c).arrAt 3 cfg1.N := Wk3_arr m c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vk1 m) c
  | ⟨1, _⟩ => fun c => dat1 (Vk2 m) c
abbrev 𝒱₀ : Variants := Variants.none
abbrev Lk : GSem nD τ sig → Finset Unit := fun _ => ∅
abbrev lvk : GSem nD τ sig → Unit → ℕ := fun _ _ => 0
/-- What rides beside the buffers through every segment: the generator register at some state and the core's debts, none. -/
abbrev Rk (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lk lvk :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rk

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wk3 m c) ∗ ∃ r, prngReg c r)

/-! ## The regions as segments -/

set_option backward.isDefEq.respectTransparency.types false in
/-- The projection region over the thread state: entered from every unscoped buffer after the host operations, left with
    its three output arrays written. -/
def reg0 : Pipeline.RegionSeg (pcfgs (F := F)) adm (pdats m) () defs₀ 𝒱₀ Lk lvk 0 where
  win := launch0.win.to₀
  block_pos := launch0.block_pos
  stage_whole := launch0.stage_whole
  K := PEmpty
  osem k := k.elim
  ho := Pipeline.OwnSemFacts.none _
  hbody c := (body_obligation0 (Vk1 m) c).loose
  hwaits := Pipeline.hwaits_of_owed_zero _ _ _ _ Lk lvk 0 fun _ _ => rfl
  pre c := iprop(StableHlo.held (c : Thread nD τ) (Pipeline.ucRefs τ sig) (Wk1 m c) ∗ Rk c)
  post c := iprop(StableHlo.held (c : Thread nD τ) (Pipeline.ucRefs τ sig) (Wk2 m c) ∗ Rk c)
  X c := iprop(∃ r, prngReg c r)
  Y c := iprop(∃ r, prngReg c r)
  Z c := Pipeline.unscopedRest (Ix := Unit) (Name := ℕ) (U := UR sig nD τ) (Lvl := ℕ) spec0 c (Vk1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vk1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vk1 m c) (Vk2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from the projection region's exit contents, left with the result
    array written; the three carried buffers go into the region's invariant at anything and come back out at anything. -/
def reg1 : Pipeline.RegionSeg (pcfgs (F := F)) adm (pdats m) () defs₀ 𝒱₀ Lk lvk 1 where
  win := launch1.win.to₀
  block_pos := launch1.block_pos
  stage_whole := launch1.stage_whole
  K := PEmpty
  osem k := k.elim
  ho := Pipeline.OwnSemFacts.none _
  hbody c := (body_obligation1 (Vk2 m) c).loose
  hwaits := Pipeline.hwaits_of_owed_zero _ _ _ _ Lk lvk 1 fun _ _ => rfl
  pre c := iprop(StableHlo.held (c : Thread nD τ) (Pipeline.ucRefs τ sig) (Wk2 m c) ∗ Rk c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vk2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vk2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (Vk2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vk2 m c) (Vk3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ Lk lvk) :=
  [ .host (hseg hostOps0 hostOps0_sub hostOps0_fresh (Wk0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters, every weakly fair execution of the program terminates, nothing faulting,
    and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wk3 m c b) :=
  Pipeline.θ_run_regions_kit (pcfgs (F := F)) adm (pdats m) () cellOf_inj emb₁ defs₀ 𝒱₀ Lk lvk m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wk0 m c) ∗ Rk c)) (Tₙ := Tₙ m)
    (hch := ⟨fun _ => .rfl, fun _ => .rfl, fun _ => .rfl, fun _ => .rfl⟩)
    (hinit := by
      refine Pipeline.initEach Lk lvk fun c => ?_
      rw [show unscopedBufs c (fun b => m ((c : Thread nD τ).loc b)) = StableHlo.held (c : Thread nD τ) (Pipeline.ucRefs τ sig) (Wk0 m c)
        from Pipeline.unscopedBufs_held c (Wk0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wk3 m c b)
    (hfin := fun c s' => by
      iintro ⟨⟨Hh, -⟩, HSI⟩
      unfold StableHlo.held
      imodintro
      iapply (pointsTo_read_all (Pipeline.ucRefs τ sig) (fun b => (((c : Thread nD τ)).1, b)) (Wk3 m c) s')
      isplitl [Hh] <;> iassumption)
    (hQ := fun s h c => h c)

/-- The frame: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (Wk3_main_arg0 m c),
     (h c _ (mem_uc main_arg1 (by decide))).trans (Wk3_main_arg1 m c),
     (h c _ (mem_uc main_arg2 (by decide))).trans (Wk3_main_arg2 m c),
     (h c _ (mem_uc main_arg3 (by decide))).trans (Wk3_main_arg3 m c),
     (h c _ (mem_uc main_arg4 (by decide))).trans (Wk3_main_arg4 m c),
     (h c _ (mem_uc main_arg5 (by decide))).trans (Wk3_main_arg5 m c),
     (h c _ (mem_uc main_arg6 (by decide))).trans (Wk3_main_arg6 m c)⟩) (run_all m ρ)

/-- The run with the result named: the result array ends at what the attention region's write-backs leave, the arguments
    as launched. -/
theorem run_value : θ_run defs (onTc (τ := τ) (main (F := F))) ⟨m, fun _ => 0, ρ⟩ (fun r => ∀ c : Dev nD,
      r.2.mem ((c.tc : Thread nD τ).loc main_v8) = (dat1 (Vk2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v8 (by decide))).trans (Wk3_main_v8 m c),
     (h c _ (mem_uc main_arg0 (by decide))).trans (Wk3_main_arg0 m c),
     (h c _ (mem_uc main_arg1 (by decide))).trans (Wk3_main_arg1 m c),
     (h c _ (mem_uc main_arg2 (by decide))).trans (Wk3_main_arg2 m c),
     (h c _ (mem_uc main_arg3 (by decide))).trans (Wk3_main_arg3 m c),
     (h c _ (mem_uc main_arg4 (by decide))).trans (Wk3_main_arg4 m c),
     (h c _ (mem_uc main_arg5 (by decide))).trans (Wk3_main_arg5 m c),
     (h c _ (mem_uc main_arg6 (by decide))).trans (Wk3_main_arg6 m c)⟩) (run_all m ρ)

end Cert.KernelIdeal.Hand

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.ProjValue.lean ====
/-
  The projection body read entry by entry, on the extended reals.

  A point holds a block of 512 rows of the input `x`, the three weight matrices laid side by side as one 1024 × 3072
  matrix `w` and the three biases side by side as one row `b` of 3072. It forms the rows' products with all 3072 columns
  at once, adds the bias row to every row, and cuts the result into three blocks of 1024 columns: columns 0–1023 are the
  query projection, 1024–2047 the key projection, 2048–3071 the value projection. So entry `(p, o)` of each block is
  `∑ₖ x p k · w k c + b c` at the column `c = o`, `o + 1024`, `o + 2048` of the stacked matrix. A change of float format
  and a cast to the same shape do nothing here, and the product into the zero accumulator is the bare sum.
-/
import proofs.«113662_j9672266350973_2_alg».proof.Proof.FlashDefs
import proofs.«113662_j9672266350973_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-- The rows' products with the stacked weights plus the stacked bias, at row `p` and stacked column `c`. -/
theorem pay1_apply (x0 : Vec Ideal S512x1024 .f32) (w : Vec Ideal S1024x3072 .bf16) (b : Vec Ideal S1x3072 .f32) (p : Fin 512)
    (c : Fin 3072) :
    k0_pay1 (F := Ideal) x0 w b (ix2 p c) = (∑ k : Fin 1024, x0 (ix2 p k) * w (ix2 k c)) + b (ix2 (0 : Fin 1) c) := by
  unfold k0_pay1
  rw [shapeCast_self, shapeCast_self, addf_apply, broadcastTo_1b_ab_apply]
  refine congrArg (· + b (ix2 (0 : Fin 1) c)) ?_
  exact PlainDot.matmul_zero_apply (φ₁ := .bf16) (φ₂ := .bf16) dot_S512x1024_S1024x3072_S512x3072_1_0_0_1_n_n rfl none _ _ (ix2 p c)

/-- The query block: columns 0–1023 of the stacked result. -/
theorem projQ_apply (x0 : Vec Ideal S512x1024 .f32) (w : Vec Ideal S1024x3072 .bf16) (b : Vec Ideal S1x3072 .f32) (p : Fin 512)
    (o : Fin 1024) :
    projQ x0 w b (ix2 p o)
      = (∑ k : Fin 1024, x0 (ix2 p k) * w (ix2 k (⟨o.val, by omega⟩ : Fin 3072))) + b (ix2 (0 : Fin 1) (⟨o.val, by omega⟩ : Fin 3072)) := by
  unfold projQ k0_pay2
  rw [truncf_apply]
  refine (slice2_axis1_apply 0 _ _ p o (⟨o.val, by omega⟩ : Fin 3072) (Nat.zero_add _).symm).trans ?_
  exact pay1_apply x0 w b p _

/-- The key block: columns 1024–2047 of the stacked result. -/
theorem projK_apply (x0 : Vec Ideal S512x1024 .f32) (w : Vec Ideal S1024x3072 .bf16) (b : Vec Ideal S1x3072 .f32) (p : Fin 512)
    (o : Fin 1024) :
    projK x0 w b (ix2 p o)
      = (∑ k : Fin 1024, x0 (ix2 p k) * w (ix2 k (⟨o.val + 1024, by omega⟩ : Fin 3072)))
        + b (ix2 (0 : Fin 1) (⟨o.val + 1024, by omega⟩ : Fin 3072)) := by
  unfold projK k0_pay3
  rw [truncf_apply]
  refine (slice2_axis1_apply 1024 _ _ p o (⟨o.val + 1024, by omega⟩ : Fin 3072) (Nat.add_comm _ _)).trans ?_
  exact pay1_apply x0 w b p _

/-- The value block: columns 2048–3071 of the stacked result. -/
theorem projV_apply (x0 : Vec Ideal S512x1024 .f32) (w : Vec Ideal S1024x3072 .bf16) (b : Vec Ideal S1x3072 .f32) (p : Fin 512)
    (o : Fin 1024) :
    projV x0 w b (ix2 p o)
      = (∑ k : Fin 1024, x0 (ix2 p k) * w (ix2 k (⟨o.val + 2048, by omega⟩ : Fin 3072)))
        + b (ix2 (0 : Fin 1) (⟨o.val + 2048, by omega⟩ : Fin 3072)) := by
  unfold projV k0_pay4
  rw [truncf_apply]
  refine (slice2_axis1_apply 2048 _ _ p o (⟨o.val + 2048, by omega⟩ : Fin 3072) (Nat.add_comm _ _)).trans ?_
  exact pay1_apply x0 w b p _

end Cert.KernelIdeal.Hand

end
-- ==== Proof.Value0.lean ====
/-
  The projection region, from blocks to arrays. Each of the sixteen grid points writes back one block of 512 rows of
  each of the three projections; the blocks tile the arrays, and each block is the restriction of one function of the
  arrays the region finds: entry `(r, o)` of the query, key and value arrays is `∑ₖ x r k · w k c + b c` at the
  stacked column `c = o`, `o + 1024`, `o + 2048`.
-/
import proofs.«113662_j9672266350973_2_alg».proof.Proof.Frame.R0
import proofs.«113662_j9672266350973_2_alg».proof.Proof.ProjValue
import Idealize.ShloMosaic.Lib.Pipeline.Value
import Idealize.ShloMosaic.Lib.ValueIdx

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-! ### What one point stores, entry by entry -/

/-- The query block a point stores, from the point's three input blocks. -/
theorem out0_3_apply (x0 : Vec Ideal S512x1024 .f32) (x1 : Vec Ideal S1024x3072 .bf16) (x2 : Vec Ideal S1x3072 .f32)
    (p : Fin 512) (o : Fin 1024) :
    out0_3 x0 x1 x2 (ix2 p o)
      = (∑ k : Fin 1024, x0 (ix2 p k) * x1 (ix2 k (⟨o.val, by omega⟩ : Fin 3072)))
        + x2 (ix2 (0 : Fin 1) (⟨o.val, by omega⟩ : Fin 3072)) := by
  unfold out0_3
  rw [View.canon_unit_zero offsets_zero]
  simp only [View.ld_unit_zero (S := S512x1024) offsets_zero, View.ld_unit_zero (S := S1024x3072) offsets_zero,
    View.ld_unit_zero (S := S1x3072) offsets_zero]
  exact projQ_apply x0 x1 x2 p o

/-! ### The index maps over the grid -/

/-- Point `t` stages and writes back row block `t`; the weights and the bias are staged whole. -/
theorem idx0 : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-! ### The input blocks, read off the arrays -/

/-- Entry `(p, k)` of point `t`'s block of `x` is entry `(512 t + p, k)` of `x`. -/
theorem iblk0_0_apply (c : Dev nD) (t : Fin cfg0.N) (x : S512x1024.Idx) (i : S8192x1024.Idx)
    (h0 : (i 0).val = 512 * t.val + (x 0).val) (h1 : (i 1).val = (x 1).val) :
    (iblk0 V c 0 t : Vec Ideal S512x1024 .f32) x = (V c main_arg0 : S8192x1024.Idx → EReal) i := by
  obtain ⟨⟨e0, e1⟩, -⟩ := idx0 t
  unfold iblk0
  rw [View.read_apply]
  show V c main_arg0 _ = V c main_arg0 _
  congr 1
  funext a
  apply Fin.ext
  match a with
  | ⟨0, _⟩ => show win0_0.index t 0 * 512 + 1 * (x 0).val = (i 0).val; rw [e0, h0]; omega
  | ⟨1, _⟩ => show win0_0.index t 1 * 1024 + 1 * (x 1).val = (i 1).val; rw [e1, h1]; omega

/-- The weight block is the whole stacked weight matrix. -/
theorem iblk0_1_apply (c : Dev nD) (t : Fin cfg0.N) (x : S1024x3072.Idx) :
    (iblk0 V c 1 t : Vec Ideal S1024x3072 .bf16) x = (V c main_v4 : S1024x3072.Idx → EReal) x := by
  obtain ⟨-, ⟨e0, e1⟩, -⟩ := idx0 t
  unfold iblk0
  rw [View.read_apply]
  show V c main_v4 _ = V c main_v4 _
  congr 1
  funext a
  apply Fin.ext
  match a with
  | ⟨0, _⟩ => show win0_1.index t 0 * 1024 + 1 * (x 0).val = (x 0).val; rw [e0]; omega
  | ⟨1, _⟩ => show win0_1.index t 1 * 3072 + 1 * (x 1).val = (x 1).val; rw [e1]; omega

/-- The bias block is the whole stacked bias row. -/
theorem iblk0_2_apply (c : Dev nD) (t : Fin cfg0.N) (x : S1x3072.Idx) :
    (iblk0 V c 2 t : Vec Ideal S1x3072 .f32) x = (V c main_v6 : S1x3072.Idx → EReal) x := by
  obtain ⟨-, -, ⟨e0, e1⟩, -⟩ := idx0 t
  unfold iblk0
  rw [View.read_apply]
  show V c main_v6 _ = V c main_v6 _
  congr 1
  funext a
  apply Fin.ext
  match a with
  | ⟨0, _⟩ => show win0_2.index t 0 * 1 + 1 * (x 0).val = (x 0).val; rw [e0]; omega
  | ⟨1, _⟩ => show win0_2.index t 1 * 3072 + 1 * (x 1).val = (x 1).val; rw [e1]; omega

/-! ### The query array -/

/-- The query array as one function of the arrays the region finds: `∑ₖ x r k · w k o + b o`. -/
def G3 (a : S8192x1024.Idx → EReal) (w : S1024x3072.Idx → EReal) (b : S1x3072.Idx → EReal) : S8192x1024.Idx → EReal :=
  fun i => (∑ k : Fin 1024, a (ix2 (⟨(i 0).val, idx2_lt0 i⟩ : Fin 8192) k)
        * w (ix2 k (⟨(i 1).val, by have := idx2_lt1 i; omega⟩ : Fin 3072)))
      + b (ix2 (0 : Fin 1) (⟨(i 1).val, by have := idx2_lt1 i; omega⟩ : Fin 3072))

/-- Entry `(p, o)` of what point `t` stores is entry `(512 t + p, o)` of the query array. -/
theorem point0_3 (c : Dev nD) (t : Fin cfg0.N) (p : Fin 512) (o : Fin 1024) (i : S8192x1024.Idx)
    (h0 : (i 0).val = 512 * t.val + p.val) (h1 : (i 1).val = o.val) :
    out0_3 (iblk0 V c 0 t) (iblk0 V c 1 t) (iblk0 V c 2 t) (ix2 p o)
      = G3 (V c main_arg0) (V c main_v4) (V c main_v6) i := by
  refine (out0_3_apply (iblk0 V c 0 t) (iblk0 V c 1 t) (iblk0 V c 2 t) p o).trans ?_
  unfold G3
  simp only [h1]
  congr 1
  · refine Finset.sum_congr rfl fun k _ => ?_
    congr 1
    · exact iblk0_0_apply V c t (ix2 p k) _ h0 rfl
    · exact iblk0_1_apply V c t _
  · exact iblk0_2_apply V c t _

/-- What point `t` writes back is block `t` of the query array. -/
theorem flushed0_3_eq (c : Dev nD) (t : Fin cfg0.N) :
    (dat0 V c).flushed 3 t
      = ((cfg0.win 3).blk t).view.read (Elt Ideal) (G3 (V c main_arg0) (V c main_v4) (V c main_v6)) := by
  obtain ⟨-, -, -, ⟨e0, e1⟩, -⟩ := idx0 t
  show (cfg0.win 3).cut (grid0.coords t) ((dat0 V c).after 3 t) = _
  rw [after0_3]
  funext y
  have hy := eq_ix2 (n0 := 512) (n1 := 1024) y
  show out0_3 (iblk0 V c 0 t) (iblk0 V c 1 t) (iblk0 V c 2 t) y
    = G3 (V c main_arg0) (V c main_v4) (V c main_v6) (((cfg0.win 3).blk t).view.emb y)
  refine (congrArg (out0_3 (iblk0 V c 0 t) (iblk0 V c 1 t) (iblk0 V c 2 t)) hy).trans ?_
  refine point0_3 V c t (y 0) (y 1) _ ?_ ?_
  · show win0_3.index t 0 * 512 + 1 * (y 0).val = _
    rw [e0]; omega
  · show win0_3.index t 1 * 1024 + 1 * (y 1).val = _
    rw [e1]; omega

/-- An index of the array is in point `t`'s block iff each coordinate is in the block's range on its axis. -/
theorem mem_blk0_3 (t : Fin cfg0.N) (i : S8192x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v7_0).slice (win0_3.rect t)).set ↔ _
  rw [View.set_slice_whole, Rect.mem_set_unit]
  exact Iff.rfl

/-- Row `r` lies in the block of point `r / 512`: the sixteen blocks cover the array. -/
theorem cover0_3 (i : S8192x1024.Idx) :
    ∃ t : Fin cfg0.N, (cfg0.win 3).flush t = true ∧ i ∈ ((cfg0.win 3).blk t).view.set := by
  have hi0 : (i 0).val < 8192 := idx2_lt0 i
  have hi1 : (i 1).val < 1024 := idx2_lt1 i
  obtain ⟨t, ht⟩ : ∃ t : Fin cfg0.N, t.val = (i 0).val / 512 :=
    ⟨⟨(i 0).val / 512, by rw [show cfg0.N = 16 from N_0]; omega⟩, rfl⟩
  obtain ⟨-, -, -, ⟨e0, e1⟩, -⟩ := idx0 t
  refine ⟨t, flush0_3 t, ?_⟩
  rw [mem_blk0_3]
  intro a
  match a with
  | ⟨0, _⟩ =>
    show win0_3.index t 0 * 512 ≤ (i 0).val ∧ (i 0).val < win0_3.index t 0 * 512 + 512
    rw [e0, ht]; omega
  | ⟨1, _⟩ =>
    show win0_3.index t 1 * 1024 ≤ (i 1).val ∧ (i 1).val < win0_3.index t 1 * 1024 + 1024
    rw [e1]; omega

/-- The query array after the region. -/
theorem final0_3 (c : Dev nD) : (dat0 V c).arrAt 3 cfg0.N = G3 (V c main_arg0) (V c main_v4) (V c main_v6) :=
  (dat0 V c).arrAt_eq_of_cover 3 _ (fun t _ => flushed0_3_eq V c t) cover0_3

/-- The query array read at `(r, o)`: `∑ₖ x r k · w k o + b o`. -/
theorem G3_apply (a : S8192x1024.Idx → EReal) (w : S1024x3072.Idx → EReal) (b : S1x3072.Idx → EReal)
    (r : Fin 8192) (o : Fin 1024) :
    G3 a w b (ix2 r o)
      = (∑ k : Fin 1024, a (ix2 r k) * w (ix2 k (⟨o.val, by omega⟩ : Fin 3072)))
        + b (ix2 (0 : Fin 1) (⟨o.val, by omega⟩ : Fin 3072)) := rfl

/-- Entry `(r, o)` of the query array after the region. -/
theorem arr0_3 (c : Dev nD) (r : Fin 8192) (o : Fin 1024) :
    ((dat0 V c).arrAt 3 cfg0.N : S8192x1024.Idx → EReal) (ix2 r o)
      = G3 (V c main_arg0) (V c main_v4) (V c main_v6) (ix2 r o) := by
  rw [final0_3]

/-- The key block a point stores, from the point's three input blocks. -/
theorem out0_4_apply (x0 : Vec Ideal S512x1024 .f32) (x1 : Vec Ideal S1024x3072 .bf16) (x2 : Vec Ideal S1x3072 .f32)
    (p : Fin 512) (o : Fin 1024) :
    out0_4 x0 x1 x2 (ix2 p o)
      = (∑ k : Fin 1024, x0 (ix2 p k) * x1 (ix2 k (⟨o.val + 1024, by omega⟩ : Fin 3072)))
        + x2 (ix2 (0 : Fin 1) (⟨o.val + 1024, by omega⟩ : Fin 3072)) := by
  unfold out0_4
  rw [View.canon_unit_zero offsets_zero]
  simp only [View.ld_unit_zero (S := S512x1024) offsets_zero, View.ld_unit_zero (S := S1024x3072) offsets_zero,
    View.ld_unit_zero (S := S1x3072) offsets_zero]
  exact projK_apply x0 x1 x2 p o

/-! ### The key array -/

/-- The key array as one function of the arrays the region finds: `∑ₖ x r k · w k (o + 1024) + b (o + 1024)`. -/
def G4 (a : S8192x1024.Idx → EReal) (w : S1024x3072.Idx → EReal) (b : S1x3072.Idx → EReal) : S8192x1024.Idx → EReal :=
  fun i => (∑ k : Fin 1024, a (ix2 (⟨(i 0).val, idx2_lt0 i⟩ : Fin 8192) k)
        * w (ix2 k (⟨(i 1).val + 1024, by have := idx2_lt1 i; omega⟩ : Fin 3072)))
      + b (ix2 (0 : Fin 1) (⟨(i 1).val + 1024, by have := idx2_lt1 i; omega⟩ : Fin 3072))

/-- Entry `(p, o)` of what point `t` stores is entry `(512 t + p, o)` of the key array. -/
theorem point0_4 (c : Dev nD) (t : Fin cfg0.N) (p : Fin 512) (o : Fin 1024) (i : S8192x1024.Idx)
    (h0 : (i 0).val = 512 * t.val + p.val) (h1 : (i 1).val = o.val) :
    out0_4 (iblk0 V c 0 t) (iblk0 V c 1 t) (iblk0 V c 2 t) (ix2 p o)
      = G4 (V c main_arg0) (V c main_v4) (V c main_v6) i := by
  refine (out0_4_apply (iblk0 V c 0 t) (iblk0 V c 1 t) (iblk0 V c 2 t) p o).trans ?_
  unfold G4
  simp only [h1]
  congr 1
  · refine Finset.sum_congr rfl fun k _ => ?_
    congr 1
    · exact iblk0_0_apply V c t (ix2 p k) _ h0 rfl
    · exact iblk0_1_apply V c t _
  · exact iblk0_2_apply V c t _

/-- What point `t` writes back is block `t` of the key array. -/
theorem flushed0_4_eq (c : Dev nD) (t : Fin cfg0.N) :
    (dat0 V c).flushed 4 t
      = ((cfg0.win 4).blk t).view.read (Elt Ideal) (G4 (V c main_arg0) (V c main_v4) (V c main_v6)) := by
  obtain ⟨-, -, -, -, ⟨e0, e1⟩, -⟩ := idx0 t
  show (cfg0.win 4).cut (grid0.coords t) ((dat0 V c).after 4 t) = _
  rw [after0_4]
  funext y
  have hy := eq_ix2 (n0 := 512) (n1 := 1024) y
  show out0_4 (iblk0 V c 0 t) (iblk0 V c 1 t) (iblk0 V c 2 t) y
    = G4 (V c main_arg0) (V c main_v4) (V c main_v6) (((cfg0.win 4).blk t).view.emb y)
  refine (congrArg (out0_4 (iblk0 V c 0 t) (iblk0 V c 1 t) (iblk0 V c 2 t)) hy).trans ?_
  refine point0_4 V c t (y 0) (y 1) _ ?_ ?_
  · show win0_4.index t 0 * 512 + 1 * (y 0).val = _
    rw [e0]; omega
  · show win0_4.index t 1 * 1024 + 1 * (y 1).val = _
    rw [e1]; omega

/-- An index of the array is in point `t`'s block iff each coordinate is in the block's range on its axis. -/
theorem mem_blk0_4 (t : Fin cfg0.N) (i : S8192x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v7_1).slice (win0_4.rect t)).set ↔ _
  rw [View.set_slice_whole, Rect.mem_set_unit]
  exact Iff.rfl

/-- Row `r` lies in the block of point `r / 512`: the sixteen blocks cover the array. -/
theorem cover0_4 (i : S8192x1024.Idx) :
    ∃ t : Fin cfg0.N, (cfg0.win 4).flush t = true ∧ i ∈ ((cfg0.win 4).blk t).view.set := by
  have hi0 : (i 0).val < 8192 := idx2_lt0 i
  have hi1 : (i 1).val < 1024 := idx2_lt1 i
  obtain ⟨t, ht⟩ : ∃ t : Fin cfg0.N, t.val = (i 0).val / 512 :=
    ⟨⟨(i 0).val / 512, by rw [show cfg0.N = 16 from N_0]; omega⟩, rfl⟩
  obtain ⟨-, -, -, -, ⟨e0, e1⟩, -⟩ := idx0 t
  refine ⟨t, flush0_4 t, ?_⟩
  rw [mem_blk0_4]
  intro a
  match a with
  | ⟨0, _⟩ =>
    show win0_4.index t 0 * 512 ≤ (i 0).val ∧ (i 0).val < win0_4.index t 0 * 512 + 512
    rw [e0, ht]; omega
  | ⟨1, _⟩ =>
    show win0_4.index t 1 * 1024 ≤ (i 1).val ∧ (i 1).val < win0_4.index t 1 * 1024 + 1024
    rw [e1]; omega

/-- The key array after the region. -/
theorem final0_4 (c : Dev nD) : (dat0 V c).arrAt 4 cfg0.N = G4 (V c main_arg0) (V c main_v4) (V c main_v6) :=
  (dat0 V c).arrAt_eq_of_cover 4 _ (fun t _ => flushed0_4_eq V c t) cover0_4

/-- The key array read at `(r, o)`: `∑ₖ x r k · w k (o + 1024) + b (o + 1024)`. -/
theorem G4_apply (a : S8192x1024.Idx → EReal) (w : S1024x3072.Idx → EReal) (b : S1x3072.Idx → EReal)
    (r : Fin 8192) (o : Fin 1024) :
    G4 a w b (ix2 r o)
      = (∑ k : Fin 1024, a (ix2 r k) * w (ix2 k (⟨o.val + 1024, by omega⟩ : Fin 3072)))
        + b (ix2 (0 : Fin 1) (⟨o.val + 1024, by omega⟩ : Fin 3072)) := rfl

/-- Entry `(r, o)` of the key array after the region. -/
theorem arr0_4 (c : Dev nD) (r : Fin 8192) (o : Fin 1024) :
    ((dat0 V c).arrAt 4 cfg0.N : S8192x1024.Idx → EReal) (ix2 r o)
      = G4 (V c main_arg0) (V c main_v4) (V c main_v6) (ix2 r o) := by
  rw [final0_4]

/-- The value block a point stores, from the point's three input blocks. -/
theorem out0_5_apply (x0 : Vec Ideal S512x1024 .f32) (x1 : Vec Ideal S1024x3072 .bf16) (x2 : Vec Ideal S1x3072 .f32)
    (p : Fin 512) (o : Fin 1024) :
    out0_5 x0 x1 x2 (ix2 p o)
      = (∑ k : Fin 1024, x0 (ix2 p k) * x1 (ix2 k (⟨o.val + 2048, by omega⟩ : Fin 3072)))
        + x2 (ix2 (0 : Fin 1) (⟨o.val + 2048, by omega⟩ : Fin 3072)) := by
  unfold out0_5
  rw [View.canon_unit_zero offsets_zero]
  simp only [View.ld_unit_zero (S := S512x1024) offsets_zero, View.ld_unit_zero (S := S1024x3072) offsets_zero,
    View.ld_unit_zero (S := S1x3072) offsets_zero]
  exact projV_apply x0 x1 x2 p o

/-! ### The value array -/

/-- The value array as one function of the arrays the region finds: `∑ₖ x r k · w k (o + 2048) + b (o + 2048)`. -/
def G5 (a : S8192x1024.Idx → EReal) (w : S1024x3072.Idx → EReal) (b : S1x3072.Idx → EReal) : S8192x1024.Idx → EReal :=
  fun i => (∑ k : Fin 1024, a (ix2 (⟨(i 0).val, idx2_lt0 i⟩ : Fin 8192) k)
        * w (ix2 k (⟨(i 1).val + 2048, by have := idx2_lt1 i; omega⟩ : Fin 3072)))
      + b (ix2 (0 : Fin 1) (⟨(i 1).val + 2048, by have := idx2_lt1 i; omega⟩ : Fin 3072))

/-- Entry `(p, o)` of what point `t` stores is entry `(512 t + p, o)` of the value array. -/
theorem point0_5 (c : Dev nD) (t : Fin cfg0.N) (p : Fin 512) (o : Fin 1024) (i : S8192x1024.Idx)
    (h0 : (i 0).val = 512 * t.val + p.val) (h1 : (i 1).val = o.val) :
    out0_5 (iblk0 V c 0 t) (iblk0 V c 1 t) (iblk0 V c 2 t) (ix2 p o)
      = G5 (V c main_arg0) (V c main_v4) (V c main_v6) i := by
  refine (out0_5_apply (iblk0 V c 0 t) (iblk0 V c 1 t) (iblk0 V c 2 t) p o).trans ?_
  unfold G5
  simp only [h1]
  congr 1
  · refine Finset.sum_congr rfl fun k _ => ?_
    congr 1
    · exact iblk0_0_apply V c t (ix2 p k) _ h0 rfl
    · exact iblk0_1_apply V c t _
  · exact iblk0_2_apply V c t _

/-- What point `t` writes back is block `t` of the value array. -/
theorem flushed0_5_eq (c : Dev nD) (t : Fin cfg0.N) :
    (dat0 V c).flushed 5 t
      = ((cfg0.win 5).blk t).view.read (Elt Ideal) (G5 (V c main_arg0) (V c main_v4) (V c main_v6)) := by
  obtain ⟨-, -, -, -, -, e0, e1⟩ := idx0 t
  show (cfg0.win 5).cut (grid0.coords t) ((dat0 V c).after 5 t) = _
  rw [after0_5]
  funext y
  have hy := eq_ix2 (n0 := 512) (n1 := 1024) y
  show out0_5 (iblk0 V c 0 t) (iblk0 V c 1 t) (iblk0 V c 2 t) y
    = G5 (V c main_arg0) (V c main_v4) (V c main_v6) (((cfg0.win 5).blk t).view.emb y)
  refine (congrArg (out0_5 (iblk0 V c 0 t) (iblk0 V c 1 t) (iblk0 V c 2 t)) hy).trans ?_
  refine point0_5 V c t (y 0) (y 1) _ ?_ ?_
  · show win0_5.index t 0 * 512 + 1 * (y 0).val = _
    rw [e0]; omega
  · show win0_5.index t 1 * 1024 + 1 * (y 1).val = _
    rw [e1]; omega

/-- An index of the array is in point `t`'s block iff each coordinate is in the block's range on its axis. -/
theorem mem_blk0_5 (t : Fin cfg0.N) (i : S8192x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v7_2).slice (win0_5.rect t)).set ↔ _
  rw [View.set_slice_whole, Rect.mem_set_unit]
  exact Iff.rfl

/-- Row `r` lies in the block of point `r / 512`: the sixteen blocks cover the array. -/
theorem cover0_5 (i : S8192x1024.Idx) :
    ∃ t : Fin cfg0.N, (cfg0.win 5).flush t = true ∧ i ∈ ((cfg0.win 5).blk t).view.set := by
  have hi0 : (i 0).val < 8192 := idx2_lt0 i
  have hi1 : (i 1).val < 1024 := idx2_lt1 i
  obtain ⟨t, ht⟩ : ∃ t : Fin cfg0.N, t.val = (i 0).val / 512 :=
    ⟨⟨(i 0).val / 512, by rw [show cfg0.N = 16 from N_0]; omega⟩, rfl⟩
  obtain ⟨-, -, -, -, -, e0, e1⟩ := idx0 t
  refine ⟨t, flush0_5 t, ?_⟩
  rw [mem_blk0_5]
  intro a
  match a with
  | ⟨0, _⟩ =>
    show win0_5.index t 0 * 512 ≤ (i 0).val ∧ (i 0).val < win0_5.index t 0 * 512 + 512
    rw [e0, ht]; omega
  | ⟨1, _⟩ =>
    show win0_5.index t 1 * 1024 ≤ (i 1).val ∧ (i 1).val < win0_5.index t 1 * 1024 + 1024
    rw [e1]; omega

/-- The value array after the region. -/
theorem final0_5 (c : Dev nD) : (dat0 V c).arrAt 5 cfg0.N = G5 (V c main_arg0) (V c main_v4) (V c main_v6) :=
  (dat0 V c).arrAt_eq_of_cover 5 _ (fun t _ => flushed0_5_eq V c t) cover0_5

/-- The value array read at `(r, o)`: `∑ₖ x r k · w k (o + 2048) + b (o + 2048)`. -/
theorem G5_apply (a : S8192x1024.Idx → EReal) (w : S1024x3072.Idx → EReal) (b : S1x3072.Idx → EReal)
    (r : Fin 8192) (o : Fin 1024) :
    G5 a w b (ix2 r o)
      = (∑ k : Fin 1024, a (ix2 r k) * w (ix2 k (⟨o.val + 2048, by omega⟩ : Fin 3072)))
        + b (ix2 (0 : Fin 1) (⟨o.val + 2048, by omega⟩ : Fin 3072)) := rfl

/-- Entry `(r, o)` of the value array after the region. -/
theorem arr0_5 (c : Dev nD) (r : Fin 8192) (o : Fin 1024) :
    ((dat0 V c).arrAt 5 cfg0.N : S8192x1024.Idx → EReal) (ix2 r o)
      = G5 (V c main_arg0) (V c main_v4) (V c main_v6) (ix2 r o) := by
  rw [final0_5]

end Cert.KernelIdeal.Hand

end
-- ==== Proof.HostPrefix.lean ====
/-
  What the kernel program's host operations leave, before the first region, in the two arrays the projection kernel
  reads besides `x`: the three weight matrices transposed and laid side by side as one `[1024, 3072]` matrix (then
  converted to the narrower format, the identity on the extended reals), and the three biases laid end to end as one
  `[3072]` vector, reshaped to a single row. Read at an index: column `p · 1024 + o` of row `k` of the stacked weights
  is entry `(o, k)` of weight `p`, and entry `p · 1024 + o` of the stacked bias row is entry `o` of bias `p`.
-/
import proofs.«113662_j9672266350973_2_alg».proof.Proof.Gen.KernelIdeal.Launch
import proofs.«113662_j9672266350973_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.TcCoe Idealize.ShloMosaic.ValueIdx Idealize.ShloMosaic.StableHlo
  Cert.KernelIdeal Cert.KernelIdeal.Gen

/-! ## An operation of three operands, each operand's contents at its own reference -/

section ThreeOperands

variable {τ : Topo} {sig : RefSig} {Val : EltTy → Type} {x a b y : Ref sig .tc}

/-- The result of an operation over a literal family of three references, with each operand's contents written at its
    own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end ThreeOperands

/-- Rewrites what a buffer holds after a literal line of one-operand operations, three-operand operations and reshapes:
    at an operation's own result its function's value, at any other reference what was there. -/
local macro "host_results" : tactic =>
  `(tactic| (simp only [after_cons, after_nil]
             repeat (first
               | rw [unary_result] | rw [reshape_result] | rw [nary3_result]
               | (rw [unary_result_ne]; rotate_left; decide)
               | (rw [reshape_result_ne]; rotate_left; decide)
               | (rw [nary_result_ne]; rotate_left; decide))))

/-! ## Three pieces laid end to end, read by coordinates -/

section Pieces

variable {α : Type}

/-- Three `[1024, 1024]` matrices side by side: the first 1024 columns are the first piece's. -/
theorem cols3_first (u0 u1 u2 : S1024x1024.Idx → α) (h : Shape.Concatenates [S1024x1024, S1024x1024, S1024x1024] S1024x3072 1)
    (k o : Fin 1024) (ho : o.val < 3072) :
    concatenate S1024x3072 1 [⟨S1024x1024, u0⟩, ⟨S1024x1024, u1⟩, ⟨S1024x1024, u2⟩] h (ix2 k (⟨o.val, ho⟩ : Fin 3072))
      = u0 (ix2 k o) := by
  refine concatenate_apply_piece (t := S1024x3072) 1 [⟨S1024x1024, u0⟩, ⟨S1024x1024, u1⟩, ⟨S1024x1024, u2⟩] h
    (ix2 k (⟨o.val, ho⟩ : Fin 3072)) 0 (show (0 : ℕ) < 3 by omega) S1024x1024 u0 rfl rfl 0 ?_ (ix2 k o) ?_ ?_
  · rfl
  · intro b hb
    match b, hb with
    | ⟨0, _⟩, _ => rfl
    | ⟨1, _⟩, hb => exact absurd (Fin.ext rfl) hb
  · show 0 + o.val = o.val
    omega

/-- The next 1024 columns are the second piece's. -/
theorem cols3_second (u0 u1 u2 : S1024x1024.Idx → α) (h : Shape.Concatenates [S1024x1024, S1024x1024, S1024x1024] S1024x3072 1)
    (k o : Fin 1024) (ho : o.val + 1024 < 3072) :
    concatenate S1024x3072 1 [⟨S1024x1024, u0⟩, ⟨S1024x1024, u1⟩, ⟨S1024x1024, u2⟩] h (ix2 k (⟨o.val + 1024, ho⟩ : Fin 3072))
      = u1 (ix2 k o) := by
  refine concatenate_apply_piece (t := S1024x3072) 1 [⟨S1024x1024, u0⟩, ⟨S1024x1024, u1⟩, ⟨S1024x1024, u2⟩] h
    (ix2 k (⟨o.val + 1024, ho⟩ : Fin 3072)) 1 (show (1 : ℕ) < 3 by omega) S1024x1024 u1 rfl rfl 1024 ?_ (ix2 k o) ?_ ?_
  · rfl
  · intro b hb
    match b, hb with
    | ⟨0, _⟩, _ => rfl
    | ⟨1, _⟩, hb => exact absurd (Fin.ext rfl) hb
  · show 1024 + o.val = o.val + 1024
    omega

/-- The last 1024 columns are the third piece's. -/
theorem cols3_third (u0 u1 u2 : S1024x1024.Idx → α) (h : Shape.Concatenates [S1024x1024, S1024x1024, S1024x1024] S1024x3072 1)
    (k o : Fin 1024) (ho : o.val + 2048 < 3072) :
    concatenate S1024x3072 1 [⟨S1024x1024, u0⟩, ⟨S1024x1024, u1⟩, ⟨S1024x1024, u2⟩] h (ix2 k (⟨o.val + 2048, ho⟩ : Fin 3072))
      = u2 (ix2 k o) := by
  refine concatenate_apply_piece (t := S1024x3072) 1 [⟨S1024x1024, u0⟩, ⟨S1024x1024, u1⟩, ⟨S1024x1024, u2⟩] h
    (ix2 k (⟨o.val + 2048, ho⟩ : Fin 3072)) 2 (show (2 : ℕ) < 3 by omega) S1024x1024 u2 rfl rfl 2048 ?_ (ix2 k o) ?_ ?_
  · rfl
  · intro b hb
    match b, hb with
    | ⟨0, _⟩, _ => rfl
    | ⟨1, _⟩, hb => exact absurd (Fin.ext rfl) hb
  · show 2048 + o.val = o.val + 2048
    omega

/-- Three `[1024]` vectors end to end: the first 1024 entries are the first piece's. -/
theorem vec3_first (u0 u1 u2 : S1024.Idx → α) (h : Shape.Concatenates [S1024, S1024, S1024] S3072 0) (o : Fin 1024)
    (ho : o.val < 3072) :
    concatenate S3072 0 [⟨S1024, u0⟩, ⟨S1024, u1⟩, ⟨S1024, u2⟩] h (ix1 (⟨o.val, ho⟩ : Fin 3072)) = u0 (ix1 o) := by
  refine concatenate_apply_piece (t := S3072) 0 [⟨S1024, u0⟩, ⟨S1024, u1⟩, ⟨S1024, u2⟩] h
    (ix1 (⟨o.val, ho⟩ : Fin 3072)) 0 (show (0 : ℕ) < 3 by omega) S1024 u0 rfl rfl 0 ?_ (ix1 o) ?_ ?_
  · rfl
  · intro b hb
    match b, hb with
    | ⟨0, _⟩, hb => exact absurd (Fin.ext rfl) hb
  · show 0 + o.val = o.val
    omega

/-- The next 1024 entries are the second piece's. -/
theorem vec3_second (u0 u1 u2 : S1024.Idx → α) (h : Shape.Concatenates [S1024, S1024, S1024] S3072 0) (o : Fin 1024)
    (ho : o.val + 1024 < 3072) :
    concatenate S3072 0 [⟨S1024, u0⟩, ⟨S1024, u1⟩, ⟨S1024, u2⟩] h (ix1 (⟨o.val + 1024, ho⟩ : Fin 3072)) = u1 (ix1 o) := by
  refine concatenate_apply_piece (t := S3072) 0 [⟨S1024, u0⟩, ⟨S1024, u1⟩, ⟨S1024, u2⟩] h
    (ix1 (⟨o.val + 1024, ho⟩ : Fin 3072)) 1 (show (1 : ℕ) < 3 by omega) S1024 u1 rfl rfl 1024 ?_ (ix1 o) ?_ ?_
  · rfl
  · intro b hb
    match b, hb with
    | ⟨0, _⟩, hb => exact absurd (Fin.ext rfl) hb
  · show 1024 + o.val = o.val + 1024
    omega

/-- The last 1024 entries are the third piece's. -/
theorem vec3_third (u0 u1 u2 : S1024.Idx → α) (h : Shape.Concatenates [S1024, S1024, S1024] S3072 0) (o : Fin 1024)
    (ho : o.val + 2048 < 3072) :
    concatenate S3072 0 [⟨S1024, u0⟩, ⟨S1024, u1⟩, ⟨S1024, u2⟩] h (ix1 (⟨o.val + 2048, ho⟩ : Fin 3072)) = u2 (ix1 o) := by
  refine concatenate_apply_piece (t := S3072) 0 [⟨S1024, u0⟩, ⟨S1024, u1⟩, ⟨S1024, u2⟩] h
    (ix1 (⟨o.val + 2048, ho⟩ : Fin 3072)) 2 (show (2 : ℕ) < 3 by omega) S1024 u2 rfl rfl 2048 ?_ (ix1 o) ?_ ?_
  · rfl
  · intro b hb
    match b, hb with
    | ⟨0, _⟩, hb => exact absurd (Fin.ext rfl) hb
  · show 2048 + o.val = o.val + 2048
    omega

end Pieces

/-! ## The host operations' composed terms -/

variable (V0 : Valuation τ sig (Elt Ideal))

/-- The stacked weights: the three transposed weight matrices side by side, converted. -/
theorem stackedW_eq :
    (StableHlo.after (Gen.hostOps0 (F := Ideal)) V0 (Proc.devRef .tc main_v4) : S1024x3072.Idx → EReal)
      = truncf (F := Ideal) .bf16 (concatenate S1024x3072 1
          [⟨S1024x1024, transpose S1024x1024 [1, 0] (V0 (Proc.devRef .tc main_arg1)) transposes_S1024x1024_S1024x1024_1_0⟩,
           ⟨S1024x1024, transpose S1024x1024 [1, 0] (V0 (Proc.devRef .tc main_arg3)) transposes_S1024x1024_S1024x1024_1_0⟩,
           ⟨S1024x1024, transpose S1024x1024 [1, 0] (V0 (Proc.devRef .tc main_arg5)) transposes_S1024x1024_S1024x1024_1_0⟩]
          concatenates_S1024x1024_S1024x1024_S1024x1024_S1024x3072_d1) bitsLt_bf16_f32 := by
  dsimp only [Gen.hostOps0]
  host_results
  rfl

/-- The stacked bias row: the three biases end to end, as one row. -/
theorem stackedB_eq :
    (StableHlo.after (Gen.hostOps0 (F := Ideal)) V0 (Proc.devRef .tc main_v6) : S1x3072.Idx → EReal)
      = shapeCast S1x3072 (concatenate S3072 0
          [⟨S1024, V0 (Proc.devRef .tc main_arg2)⟩, ⟨S1024, V0 (Proc.devRef .tc main_arg4)⟩, ⟨S1024, V0 (Proc.devRef .tc main_arg6)⟩]
          concatenates_S1024_S1024_S1024_S3072_d0) shapeCasts_S3072_S1x3072 := by
  dsimp only [Gen.hostOps0]
  host_results
  rfl

/-- The rows `x` are not written. -/
theorem x_unchanged :
    StableHlo.after (Gen.hostOps0 (F := Ideal)) V0 (Proc.devRef .tc main_arg0) = V0 (Proc.devRef .tc main_arg0) := by
  dsimp only [Gen.hostOps0]
  host_results

/-! ## The stacked arrays read at an index -/

/-- Columns `0 … 1023` of the stacked weights, row `k`: the query weight at `(o, k)`. -/
theorem stackedW_q (k o : Fin 1024) (ho : o.val < 3072) :
    StableHlo.after (Gen.hostOps0 (F := Ideal)) V0 (Proc.devRef .tc main_v4) (ix2 k (⟨o.val, ho⟩ : Fin 3072))
      = V0 (Proc.devRef .tc main_arg1) (ix2 o k) :=
  (congrFun (stackedW_eq V0) _).trans <| (truncf_apply _ bitsLt_bf16_f32 _).trans
    ((cols3_first _ _ _ concatenates_S1024x1024_S1024x1024_S1024x1024_S1024x3072_d1 k o ho).trans
      (transpose_ix2_apply _ transposes_S1024x1024_S1024x1024_1_0 k o))

/-- Columns `1024 … 2047`, row `k`: the key weight at `(o, k)`. -/
theorem stackedW_k (k o : Fin 1024) (ho : o.val + 1024 < 3072) :
    StableHlo.after (Gen.hostOps0 (F := Ideal)) V0 (Proc.devRef .tc main_v4) (ix2 k (⟨o.val + 1024, ho⟩ : Fin 3072))
      = V0 (Proc.devRef .tc main_arg3) (ix2 o k) :=
  (congrFun (stackedW_eq V0) _).trans <| (truncf_apply _ bitsLt_bf16_f32 _).trans
    ((cols3_second _ _ _ concatenates_S1024x1024_S1024x1024_S1024x1024_S1024x3072_d1 k o ho).trans
      (transpose_ix2_apply _ transposes_S1024x1024_S1024x1024_1_0 k o))

/-- Columns `2048 … 3071`, row `k`: the value weight at `(o, k)`. -/
theorem stackedW_v (k o : Fin 1024) (ho : o.val + 2048 < 3072) :
    StableHlo.after (Gen.hostOps0 (F := Ideal)) V0 (Proc.devRef .tc main_v4) (ix2 k (⟨o.val + 2048, ho⟩ : Fin 3072))
      = V0 (Proc.devRef .tc main_arg5) (ix2 o k) :=
  (congrFun (stackedW_eq V0) _).trans <| (truncf_apply _ bitsLt_bf16_f32 _).trans
    ((cols3_third _ _ _ concatenates_S1024x1024_S1024x1024_S1024x1024_S1024x3072_d1 k o ho).trans
      (transpose_ix2_apply _ transposes_S1024x1024_S1024x1024_1_0 k o))

/-- Entries `0 … 1023` of the stacked bias row: the query bias. -/
theorem stackedB_q (u : Fin 1) (o : Fin 1024) (ho : o.val < 3072) :
    StableHlo.after (Gen.hostOps0 (F := Ideal)) V0 (Proc.devRef .tc main_v6) (ix2 u (⟨o.val, ho⟩ : Fin 3072))
      = V0 (Proc.devRef .tc main_arg2) (ix1 o) :=
  (congrFun (stackedB_eq V0) _).trans
    ((shapeCast_a_1a_apply _ shapeCasts_S3072_S1x3072 u (⟨o.val, ho⟩ : Fin 3072)).trans
      (vec3_first _ _ _ concatenates_S1024_S1024_S1024_S3072_d0 o ho))

/-- Entries `1024 … 2047`: the key bias. -/
theorem stackedB_k (u : Fin 1) (o : Fin 1024) (ho : o.val + 1024 < 3072) :
    StableHlo.after (Gen.hostOps0 (F := Ideal)) V0 (Proc.devRef .tc main_v6) (ix2 u (⟨o.val + 1024, ho⟩ : Fin 3072))
      = V0 (Proc.devRef .tc main_arg4) (ix1 o) :=
  (congrFun (stackedB_eq V0) _).trans
    ((shapeCast_a_1a_apply _ shapeCasts_S3072_S1x3072 u (⟨o.val + 1024, ho⟩ : Fin 3072)).trans
      (vec3_second _ _ _ concatenates_S1024_S1024_S1024_S3072_d0 o ho))

/-- Entries `2048 … 3071`: the value bias. -/
theorem stackedB_v (u : Fin 1) (o : Fin 1024) (ho : o.val + 2048 < 3072) :
    StableHlo.after (Gen.hostOps0 (F := Ideal)) V0 (Proc.devRef .tc main_v6) (ix2 u (⟨o.val + 2048, ho⟩ : Fin 3072))
      = V0 (Proc.devRef .tc main_arg6) (ix1 o) :=
  (congrFun (stackedB_eq V0) _).trans
    ((shapeCast_a_1a_apply _ shapeCasts_S3072_S1x3072 u (⟨o.val + 2048, ho⟩ : Fin 3072)).trans
      (vec3_third _ _ _ concatenates_S1024_S1024_S1024_S3072_d0 o ho))

/-! ## The same, spelled at the launch contents `m` of core `c`

The valuation between the host operations and the first region is the host operations run from the launch contents;
the statements above at that valuation, with the right-hand sides read in `m`. -/

section AtLaunch

variable (m : (ℓ : Loc nD τ sig) → Buf (Elt Ideal) ℓ) (c : Dev nD)

theorem V1_stackedW_q (k o : Fin 1024) (ho : o.val < 3072) :
    Gen.V1 m c (Proc.devRef .tc main_v4) (ix2 k (⟨o.val, ho⟩ : Fin 3072)) = m (c, Proc.devRef .tc main_arg1) (ix2 o k) :=
  stackedW_q (Gen.V0 m c) k o ho
theorem V1_stackedW_k (k o : Fin 1024) (ho : o.val + 1024 < 3072) :
    Gen.V1 m c (Proc.devRef .tc main_v4) (ix2 k (⟨o.val + 1024, ho⟩ : Fin 3072)) = m (c, Proc.devRef .tc main_arg3) (ix2 o k) :=
  stackedW_k (Gen.V0 m c) k o ho
theorem V1_stackedW_v (k o : Fin 1024) (ho : o.val + 2048 < 3072) :
    Gen.V1 m c (Proc.devRef .tc main_v4) (ix2 k (⟨o.val + 2048, ho⟩ : Fin 3072)) = m (c, Proc.devRef .tc main_arg5) (ix2 o k) :=
  stackedW_v (Gen.V0 m c) k o ho
theorem V1_stackedB_q (u : Fin 1) (o : Fin 1024) (ho : o.val < 3072) :
    Gen.V1 m c (Proc.devRef .tc main_v6) (ix2 u (⟨o.val, ho⟩ : Fin 3072)) = m (c, Proc.devRef .tc main_arg2) (ix1 o) :=
  stackedB_q (Gen.V0 m c) u o ho
theorem V1_stackedB_k (u : Fin 1) (o : Fin 1024) (ho : o.val + 1024 < 3072) :
    Gen.V1 m c (Proc.devRef .tc main_v6) (ix2 u (⟨o.val + 1024, ho⟩ : Fin 3072)) = m (c, Proc.devRef .tc main_arg4) (ix1 o) :=
  stackedB_k (Gen.V0 m c) u o ho
theorem V1_stackedB_v (u : Fin 1) (o : Fin 1024) (ho : o.val + 2048 < 3072) :
    Gen.V1 m c (Proc.devRef .tc main_v6) (ix2 u (⟨o.val + 2048, ho⟩ : Fin 3072)) = m (c, Proc.devRef .tc main_arg6) (ix1 o) :=
  stackedB_v (Gen.V0 m c) u o ho
theorem V1_x_unchanged : Gen.V1 m c (Proc.devRef .tc main_arg0) = m (c, Proc.devRef .tc main_arg0) :=
  x_unchanged (Gen.V0 m c)

end AtLaunch

end Cert.KernelIdeal.Hand

end
-- ==== Proof.Finite.lean ====
/-
  From the printed finiteness predicate to the mathematics: if the conjunction of the seven "every entry has
  absolute value below +∞" tests is true, then every entry of each of the seven arrays is a real number.
-/
import proofs.«113662_j9672266350973_2_alg».proof.Pre_finite_inputs
import Idealize.ShloMosaic.PureOps.Ideal
import Idealize.ShloMosaic.Lib.ReduceAll
import Idealize.ShloMosaic.Lib.ValueIdx
import Mathlib

noncomputable section

namespace Cert.KernelIdeal.Hand

open Idealize.ShloMosaic Cert.Pre_finite_inputs

/-- The shape of rank 0 has exactly one index. -/
instance subsingleton_S_Idx : Subsingleton S_.Idx := ⟨fun a b => funext fun d => d.elim0⟩

/-- The bit pattern `0x7F800000` of the 32-bit format denotes +∞. -/
theorem ofBits_inf : Ideal.ofBits .f32 0x7F800000#32 = (⊤ : EReal) := by
  simp [Ideal.ofBits, Ideal.ieee]

/-- An extended real whose absolute value `max x (−x)` tests below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

variable [Cert.Pre_finite_inputs.Facts]

/-- One `all (|a| < +∞)` test: if the conjunction over all entries is true, every entry of `a` is real. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant S_ .f32 0x7F800000#32)))
          (constantI S_ 1 1#1) hr hu ValueIdx.ix0 = 1#1) (i : s.Idx) : ∃ r : ℝ, a i = (r : EReal) :=
  real_of_abs_lt_inf (a i) (Host.reduce_andi_all _ _ hr hu _ e i)

/-- If the printed finiteness predicate of the seven arrays is true, every entry of every array is a real number. -/
theorem finite_of_pre (a0 : FVec Ideal S8192x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 : FVec Ideal S1024 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ValueIdx.ix0
  dsimp only [fn, fn_part1] at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨all_real a0 _ _ _ e0, all_real a1 _ _ _ e1, all_real a2 _ _ _ e2, all_real a3 _ _ _ e3,
    all_real a4 _ _ _ e4, all_real a5 _ _ _ e5, all_real a6 _ _ _ e6⟩

end Cert.KernelIdeal.Hand

end
-- ==== Proof.Spec.lean ====
/-
  The mathematics of the certificate, free of any program: scaled dot-product attention of projected rows,
  once as the textbook softmax over all keys at once, once as the running ("online") recurrence that visits the
  keys chunk by chunk and keeps a running maximum, a running normaliser and a running weighted sum.
  Everything is over the extended reals, with the exponential and the quotient the ideal instance uses.
-/
import Mathlib
import Idealize.ShloMosaic.PureOps.Ideal

noncomputable section

open scoped BigOperators

namespace Cert.Spec

open Idealize.ShloMosaic

/-- A linear projection: row `r` of `x` against row `o` of the weight, plus the bias: `∑ₖ x r k · W o k + b o`. -/
def proj (x : Fin 8192 → Fin 1024 → EReal) (W : Fin 1024 → Fin 1024 → EReal) (b : Fin 1024 → EReal)
    (r : Fin 8192) (o : Fin 1024) : EReal :=
  (∑ k : Fin 1024, x r k * W o k) + b o

/-- The scaled score of query row `r` against key row `k'`: the inner product over the 1024 features, times 1/32
    (the reciprocal of √1024). -/
def score (Q K : Fin 8192 → Fin 1024 → EReal) (r k' : Fin 8192) : EReal :=
  (∑ o : Fin 1024, Q r o * K k' o) * ((1 / 32 : ℝ) : EReal)

/-- Softmax-weighted average of `v` under the scores `s`, all keys at once: with `M` the largest score,
    `e k = exp (s k − M)` and `L = ∑ e`, the value `∑ₖ (e k / L) · v k`. -/
def attn (s v : Fin 8192 → EReal) : EReal :=
  ∑ k : Fin 8192,
    Ideal.div (Ideal.exp (s k - Finset.univ.fold max ⊥ s))
      (∑ k' : Fin 8192, Ideal.exp (s k' - Finset.univ.fold max ⊥ s)) * v k

/-- The whole result at `(r, o)`: attention of query row `r` over all key rows, read at value column `o`. -/
def G (x : Fin 8192 → Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (r : Fin 8192) (o : Fin 1024) : EReal :=
  attn (fun k' => score (proj x Wq bq) (proj x Wk bk) r k') (fun k' => proj x Wv bv k' o)

/-- Key row number `i` of chunk `j` (four chunks of 2048 keys). -/
def key (j : ℕ) (i : Fin 2048) : Fin 8192 := ⟨(j % 4) * 2048 + i.val, by have := i.isLt; have := Nat.mod_lt j (show 0 < 4 by norm_num); omega⟩

/-- One step of the running recurrence: from the state `(m, l, a)` — running maximum, running normaliser, running
    weighted sum — and a chunk's scores `s` and values `v`, the next state: `m' = max m (max s)`,
    `l' = exp (m − m') · l + ∑ exp (s i − m')`, `a' = exp (m − m') · a + ∑ exp (s i − m') · v i`. -/
def step (st : EReal × EReal × EReal) (s v : Fin 2048 → EReal) : EReal × EReal × EReal :=
  (max st.1 (Finset.univ.fold max ⊥ s),
   Ideal.exp (st.1 - max st.1 (Finset.univ.fold max ⊥ s)) * st.2.1
     + ∑ i : Fin 2048, Ideal.exp (s i - max st.1 (Finset.univ.fold max ⊥ s)),
   Ideal.exp (st.1 - max st.1 (Finset.univ.fold max ⊥ s)) * st.2.2
     + ∑ i : Fin 2048, Ideal.exp (s i - max st.1 (Finset.univ.fold max ⊥ s)) * v i)

/-- The running state after the first `n` chunks, from `(−∞, 0, 0)`. -/
def online (s v : ℕ → Fin 2048 → EReal) : ℕ → EReal × EReal × EReal
  | 0 => (⊥, 0, 0)
  | n + 1 => step (online s v n) (s n) (v n)

/-- What the recurrence delivers after all four chunks: the weighted sum over the normaliser. -/
def onlineOut (s v : ℕ → Fin 2048 → EReal) : EReal :=
  Ideal.div (online s v 4).2.2 (online s v 4).2.1

end Cert.Spec

end
-- ==== Proof.OnlineSoftmax.lean ====
/-
  The running ("online") softmax recurrence over four chunks of 2048 real scores and values delivers the
  softmax-weighted sum over all 8192 keys.  The argument is carried out over the reals: after each chunk the state
  is (m, L(m), A(m)) for some real reference point m, where L(m) = ∑ exp (S k − m) and A(m) = ∑ exp (S k − m) · V k
  over the keys seen so far; the quotient A(m) / L(m) does not depend on m, and with m the largest score it is the
  textbook softmax-weighted sum.
-/
import proofs.«113662_j9672266350973_2_alg».proof.Proof.Spec

noncomputable section

open scoped BigOperators

namespace Cert.Spec.Softmax

open Idealize.ShloMosaic

/-! ### Coercion of reals into the extended reals -/

/-- The coercion of a finite sum of reals is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

/-- The coercion of the larger of two reals is the larger of the coercions. -/
theorem coe_max (x y : ℝ) : ((max x y : ℝ) : EReal) = max (x : EReal) (y : EReal) :=
  EReal.coe_strictMono.monotone.map_max

/-- The running maximum, started from −∞, of finitely many (at least one) real numbers is a real number. -/
theorem fold_max_coe {ι : Type*} {t : Finset ι} (ht : t.Nonempty) (f : ι → ℝ) :
    ∃ c : ℝ, t.fold max ⊥ (fun i => (f i : EReal)) = (c : EReal) := by
  refine Finset.Nonempty.cons_induction (fun a => ?_) (fun a s h _ ih => ?_) ht
  · exact ⟨f a, by rw [Finset.fold_singleton]; exact max_bot_right _⟩
  · obtain ⟨c, hc⟩ := ih
    exact ⟨max (f a) c, by rw [Finset.fold_cons, hc, coe_max]⟩

/-! ### One step of the recurrence on real data -/

/-- The first step, from the state (−∞, 0, 0): the new reference point is a real `m'`, the normaliser is
    `∑ exp (s i − m')` and the weighted sum `∑ exp (s i − m') · v i`. -/
theorem step_bot (s v : Fin 2048 → ℝ) :
    ∃ m' : ℝ, step (⊥, 0, 0) (fun i => (s i : EReal)) (fun i => (v i : EReal))
      = ((m' : EReal), ((∑ i, Real.exp (s i - m') : ℝ) : EReal),
          ((∑ i, Real.exp (s i - m') * v i : ℝ) : EReal)) := by
  obtain ⟨c, hc⟩ := fold_max_coe (Finset.univ_nonempty (α := Fin 2048)) s
  refine ⟨c, ?_⟩
  simp only [step, hc, max_bot_left, EReal.bot_sub, Ideal.exp_bot, mul_zero, zero_add, ← EReal.coe_sub,
    Ideal.exp_coe, ← EReal.coe_mul, ← coe_sum]

/-- A later step, from a real state `(m, l, a)`: the new reference point is a real `m'`, and the normaliser and the
    weighted sum are the old ones rescaled by `exp (m − m')` plus the chunk's contributions. -/
theorem step_coe (m l a : ℝ) (s v : Fin 2048 → ℝ) :
    ∃ m' : ℝ, step ((m : EReal), (l : EReal), (a : EReal)) (fun i => (s i : EReal)) (fun i => (v i : EReal))
      = ((m' : EReal), ((Real.exp (m - m') * l + ∑ i, Real.exp (s i - m') : ℝ) : EReal),
          ((Real.exp (m - m') * a + ∑ i, Real.exp (s i - m') * v i : ℝ) : EReal)) := by
  obtain ⟨c, hc⟩ := fold_max_coe (Finset.univ_nonempty (α := Fin 2048)) s
  refine ⟨max m c, ?_⟩
  simp only [step, hc, ← coe_max, ← EReal.coe_sub, Ideal.exp_coe, ← EReal.coe_mul, ← coe_sum, ← EReal.coe_add]

/-! ### The partial sums relative to a reference point -/

/-- The normaliser over the first `n` chunks, relative to the reference point `m`: `∑ exp (S k − m)`. -/
def Lr (S : Fin 8192 → ℝ) (n : ℕ) (m : ℝ) : ℝ :=
  ∑ j ∈ Finset.range n, ∑ i : Fin 2048, Real.exp (S (key j i) - m)

/-- The weighted sum over the first `n` chunks, relative to the reference point `m`: `∑ exp (S k − m) · V k`. -/
def Ar (S V : Fin 8192 → ℝ) (n : ℕ) (m : ℝ) : ℝ :=
  ∑ j ∈ Finset.range n, ∑ i : Fin 2048, Real.exp (S (key j i) - m) * V (key j i)

/-- Moving the reference point from `m` to `m'` rescales the normaliser by `exp (m − m')`. -/
theorem Lr_shift (S : Fin 8192 → ℝ) (n : ℕ) (m m' : ℝ) : Real.exp (m - m') * Lr S n m = Lr S n m' := by
  unfold Lr
  rw [Finset.mul_sum]
  refine Finset.sum_congr rfl fun j _ => ?_
  rw [Finset.mul_sum]
  refine Finset.sum_congr rfl fun i _ => ?_
  rw [← Real.exp_add]
  congr 1
  ring

/-- Moving the reference point from `m` to `m'` rescales the weighted sum by `exp (m − m')`. -/
theorem Ar_shift (S V : Fin 8192 → ℝ) (n : ℕ) (m m' : ℝ) : Real.exp (m - m') * Ar S V n m = Ar S V n m' := by
  unfold Ar
  rw [Finset.mul_sum]
  refine Finset.sum_congr rfl fun j _ => ?_
  rw [Finset.mul_sum]
  refine Finset.sum_congr rfl fun i _ => ?_
  rw [← mul_assoc, ← Real.exp_add]
  congr 2
  ring

/-- After at least one chunk the running state is real: for some real reference point `m` it is
    `(m, L(m), A(m))` with the sums taken over the chunks seen so far. -/
theorem online_succ (S V : Fin 8192 → ℝ) (n : ℕ) :
    ∃ m : ℝ, online (fun j i => ((S (key j i) : ℝ) : EReal)) (fun j i => ((V (key j i) : ℝ) : EReal)) (n + 1)
      = ((m : EReal), ((Lr S (n + 1) m : ℝ) : EReal), ((Ar S V (n + 1) m : ℝ) : EReal)) := by
  induction n with
  | zero =>
    obtain ⟨m', h⟩ := step_bot (fun i => S (key 0 i)) (fun i => V (key 0 i))
    refine ⟨m', ?_⟩
    show step (⊥, 0, 0) _ _ = _
    rw [h]
    simp only [Lr, Ar, zero_add, Finset.sum_range_one]
  | succ n ih =>
    obtain ⟨m, hm⟩ := ih
    obtain ⟨m', h⟩ := step_coe m (Lr S (n + 1) m) (Ar S V (n + 1) m)
      (fun i => S (key (n + 1) i)) (fun i => V (key (n + 1) i))
    refine ⟨m', ?_⟩
    show step (online _ _ (n + 1)) _ _ = _
    rw [hm, h, Lr_shift, Ar_shift]
    simp only [Lr, Ar, Finset.sum_range_succ _ (n + 1)]

/-! ### The four chunks cover the 8192 keys exactly once -/

/-- A sum over the four chunks of 2048 keys is the sum over all 8192 keys. -/
theorem chunk_sum {M : Type*} [AddCommMonoid M] (f : Fin 8192 → M) :
    ∑ j ∈ Finset.range 4, ∑ i : Fin 2048, f (key j i) = ∑ k : Fin 8192, f k := by
  rw [← Finset.sum_product' (Finset.range 4) Finset.univ (fun j i => f (key j i))]
  refine Finset.sum_nbij' (fun p => key p.1 p.2)
    (fun k => (k.val / 2048, ⟨k.val % 2048, Nat.mod_lt _ (by norm_num)⟩)) ?_ ?_ ?_ ?_ ?_
  · intro p _
    exact Finset.mem_univ _
  · intro k _
    have := k.isLt
    simp only [Finset.mem_product, Finset.mem_range, Finset.mem_univ, and_true]
    omega
  · rintro ⟨j, i⟩ hp
    simp only [Finset.mem_product, Finset.mem_range, Finset.mem_univ, and_true] at hp
    have := i.isLt
    refine Prod.ext ?_ (Fin.ext ?_)
    · show (j % 4 * 2048 + i.val) / 2048 = j
      omega
    · show (j % 4 * 2048 + i.val) % 2048 = i.val
      omega
  · intro k _
    have := k.isLt
    refine Fin.ext ?_
    show (k.val / 2048) % 4 * 2048 + k.val % 2048 = k.val
    omega
  · intro p _
    rfl

/-! ### The real identity -/

/-- The quotient `A(m) / L(m)` of the weighted sum by the normaliser does not depend on the reference point: taken at
    `m` it equals the softmax-weighted sum with the weights `exp (S k − M) / L(M)` taken at any other point `M`. -/
theorem quotient_eq {ι : Type*} [Fintype ι] [Nonempty ι] (S V : ι → ℝ) (m M : ℝ) :
    (∑ k, Real.exp (S k - m) * V k) * (1 / ∑ k, Real.exp (S k - m))
      = ∑ k, Real.exp (S k - M) * (1 / ∑ k', Real.exp (S k' - M)) * V k := by
  have hpos : 0 < ∑ k, Real.exp (S k - M) := Finset.sum_pos (fun k _ => Real.exp_pos _) Finset.univ_nonempty
  have hc : 0 < Real.exp (M - m) := Real.exp_pos _
  have e1 : ∑ k, Real.exp (S k - m) = Real.exp (M - m) * ∑ k, Real.exp (S k - M) := by
    rw [Finset.mul_sum]
    refine Finset.sum_congr rfl fun k _ => ?_
    rw [← Real.exp_add]
    congr 1
    ring
  have e2 : ∑ k, Real.exp (S k - m) * V k = Real.exp (M - m) * ∑ k, Real.exp (S k - M) * V k := by
    rw [Finset.mul_sum]
    refine Finset.sum_congr rfl fun k _ => ?_
    rw [← mul_assoc, ← Real.exp_add]
    congr 2
    ring
  have e3 : ∑ k, Real.exp (S k - M) * (1 / ∑ k', Real.exp (S k' - M)) * V k
      = (∑ k, Real.exp (S k - M) * V k) * (1 / ∑ k', Real.exp (S k' - M)) := by
    rw [Finset.sum_mul]
    refine Finset.sum_congr rfl fun k _ => ?_
    ring
  rw [e1, e2, e3]
  field_simp

end Cert.Spec.Softmax

namespace Cert.Spec

open Idealize.ShloMosaic Cert.Spec.Softmax

/-- The running recurrence over the four chunks of 2048 real scores and values delivers the softmax-weighted sum
    over all 8192 keys. -/
theorem onlineOut_eq_attn (S V : Fin 8192 → ℝ) :
    onlineOut (fun j i => ((S (key j i) : ℝ) : EReal)) (fun j i => ((V (key j i) : ℝ) : EReal))
      = attn (fun k => ((S k : ℝ) : EReal)) (fun k => ((V k : ℝ) : EReal)) := by
  obtain ⟨m, hm⟩ := online_succ S V 3
  obtain ⟨M, hM⟩ := fold_max_coe (Finset.univ_nonempty (α := Fin 8192)) S
  have hL : Lr S 4 m = ∑ k, Real.exp (S k - m) := chunk_sum (fun k => Real.exp (S k - m))
  have hA : Ar S V 4 m = ∑ k, Real.exp (S k - m) * V k := chunk_sum (fun k => Real.exp (S k - m) * V k)
  have hLm : (∑ k : Fin 8192, Real.exp (S k - m)) ≠ 0 :=
    (Finset.sum_pos (fun k _ => Real.exp_pos _) Finset.univ_nonempty).ne'
  have hLM : (∑ k : Fin 8192, Real.exp (S k - M)) ≠ 0 :=
    (Finset.sum_pos (fun k _ => Real.exp_pos _) Finset.univ_nonempty).ne'
  have hm4 : online (fun j i => ((S (key j i) : ℝ) : EReal)) (fun j i => ((V (key j i) : ℝ) : EReal)) 4
      = ((m : EReal), ((Lr S 4 m : ℝ) : EReal), ((Ar S V 4 m : ℝ) : EReal)) := hm
  unfold onlineOut attn
  rw [hm4, hL, hA]
  simp only [hM, ← EReal.coe_sub, Ideal.exp_coe, ← coe_sum, Ideal.div_coe hLm, Ideal.div_coe hLM, ← EReal.coe_mul]
  rw [quotient_eq S V m M]

end Cert.Spec

end
-- ==== Proof.FiniteSpec.lean ====
/-
  Closure of the real numbers, inside the extended reals, under the operations of the specification: projections and
  scaled scores of pointwise real data are real, so the textbook attention of projected real data agrees with the
  running recurrence over the four chunks.
-/
import proofs.«113662_j9672266350973_2_alg».proof.Proof.OnlineSoftmax

noncomputable section

open scoped BigOperators

namespace Cert.Spec

open Idealize.ShloMosaic Cert.Spec.Softmax

/-- A projection of pointwise real data is pointwise real: `∑ₖ x r k · W o k + b o` is a real number. -/
theorem proj_real (x : Fin 8192 → Fin 1024 → EReal) (W : Fin 1024 → Fin 1024 → EReal) (b : Fin 1024 → EReal)
    (hx : ∀ r k, ∃ y : ℝ, x r k = (y : EReal)) (hW : ∀ o k, ∃ y : ℝ, W o k = (y : EReal))
    (hb : ∀ o, ∃ y : ℝ, b o = (y : EReal)) (r : Fin 8192) (o : Fin 1024) :
    ∃ y : ℝ, proj x W b r o = (y : EReal) := by
  choose x' hx' using hx
  choose W' hW' using hW
  choose b' hb' using hb
  refine ⟨(∑ k, x' r k * W' o k) + b' o, ?_⟩
  simp only [proj, hx', hW', hb', ← EReal.coe_mul, ← coe_sum, ← EReal.coe_add]

/-- The scaled score of pointwise real rows is a real number. -/
theorem score_real (Q K : Fin 8192 → Fin 1024 → EReal)
    (hQ : ∀ r o, ∃ y : ℝ, Q r o = (y : EReal)) (hK : ∀ r o, ∃ y : ℝ, K r o = (y : EReal)) (r k' : Fin 8192) :
    ∃ y : ℝ, score Q K r k' = (y : EReal) := by
  choose Q' hQ' using hQ
  choose K' hK' using hK
  refine ⟨(∑ o, Q' r o * K' k' o) * (1 / 32), ?_⟩
  simp only [score, hQ', hK', ← EReal.coe_mul, ← coe_sum]

/-- On pointwise real inputs, the textbook attention of the projected rows equals the running recurrence over the
    four chunks of 2048 keys. -/
theorem G_eq_online (x : Fin 8192 → Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (hx : ∀ r k, ∃ y : ℝ, x r k = (y : EReal))
    (hWq : ∀ o k, ∃ y : ℝ, Wq o k = (y : EReal)) (hbq : ∀ o, ∃ y : ℝ, bq o = (y : EReal))
    (hWk : ∀ o k, ∃ y : ℝ, Wk o k = (y : EReal)) (hbk : ∀ o, ∃ y : ℝ, bk o = (y : EReal))
    (hWv : ∀ o k, ∃ y : ℝ, Wv o k = (y : EReal)) (hbv : ∀ o, ∃ y : ℝ, bv o = (y : EReal))
    (r : Fin 8192) (o : Fin 1024) :
    G x Wq bq Wk bk Wv bv r o
      = onlineOut (fun j i => score (proj x Wq bq) (proj x Wk bk) r (key j i))
          (fun j i => proj x Wv bv (key j i) o) := by
  have hS : ∀ k', ∃ y : ℝ, score (proj x Wq bq) (proj x Wk bk) r k' = (y : EReal) := fun k' =>
    score_real _ _ (proj_real x Wq bq hx hWq hbq) (proj_real x Wk bk hx hWk hbk) r k'
  have hV : ∀ k', ∃ y : ℝ, proj x Wv bv k' o = (y : EReal) := fun k' => proj_real x Wv bv hx hWv hbv k' o
  choose S hS' using hS
  choose V hV' using hV
  unfold G
  simp only [hS', hV']
  exact (onlineOut_eq_attn S V).symm

end Cert.Spec

end
-- ==== Proof.Frame.Pieces.lean ====
/-
  What the attention body's stores ARE, case by case: the pieces the symbolic runs found, read back, are the step
  functions of the loads — the first point of a query row from the reset values, a later point from what the point
  before left, and at the last point the output block is the weighted sum over the normaliser.
-/
import proofs.«113662_j9672266350973_2_alg».proof.Proof.Frame.R1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Reading a whole carried buffer back at contents chosen to read as `X` gives `X`. -/
theorem rd_s0 (h : (scM1_0 : Memref sig .tc .vmem S1024x1 .f32).IsWhole) (X : Vec F S1024x1 .f32) :
    View.read (Elt F) (View.whole cc1_scratch0) (h.unread X) = X := h.read_unread X
theorem rd_s1 (h : (scM1_1 : Memref sig .tc .vmem S1024x1 .f32).IsWhole) (X : Vec F S1024x1 .f32) :
    View.read (Elt F) (View.whole cc1_scratch1) (h.unread X) = X := h.read_unread X
theorem rd_s2 (h : (scM1_2 : Memref sig .tc .vmem S1024x1024 .f32).IsWhole) (X : Vec F S1024x1024 .f32) :
    View.read (Elt F) (View.whole cc1_scratch2) (h.unread X) = X := h.read_unread X

theorem hz2 : (![0, 0] : Fin 2 → Nat) = fun _ => 0 := funext fun a => by fin_cases a <;> rfl

set_option maxHeartbeats 2000000 in
/-- A middle point: each carried buffer is stored once, whole, with the step function of what the loads read. -/
theorem outsB_eq (c : Dev nD) (t : Fin cfg1.N) (h0 : ¬t.val % 4 = 0) (h1 : ¬t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) :
    (outsB (F := F) c t h0 h1 x0 x1 x2 xs0 xs1 xs2).2.1 = stepM x0 x1 xs0
    ∧ (outsB (F := F) c t h0 h1 x0 x1 x2 xs0 xs1 xs2).2.2.1 = stepL x0 x1 xs0 xs1
    ∧ (outsB (F := F) c t h0 h1 x0 x1 x2 xs0 xs1 xs2).2.2.2 = stepA x0 x1 x2 xs0 xs2 := by
  refine ⟨?_, ?_, ?_⟩
  · unfold outsB; dsimp only
    rw [View.read_writes_eq_canon _ _ _ (scoverB_0 c t h0 h1 x0 x1 x2 xs0 xs1 xs2)]
    unfold ptB kernelRun1_B; dsimp only; sl_unfold_words
    rw [View.canon_unit_zero hz2]
    unfold stepM
    simp only [View.readAt_eq_ld, Memref.IsWhole.read_unread, rd_s0, rd_s1, rd_s2, View.ld_unit_zero (S := S1024x1024) hz2, View.ld_unit_zero (S := S2048x1024) hz2, View.ld_unit_zero (S := S1024x1) hz2]
  · unfold outsB; dsimp only
    rw [View.read_writes_eq_canon _ _ _ (scoverB_1 c t h0 h1 x0 x1 x2 xs0 xs1 xs2)]
    unfold ptB kernelRun1_B; dsimp only; sl_unfold_words
    rw [View.canon_unit_zero hz2]
    unfold stepL
    simp only [View.readAt_eq_ld, Memref.IsWhole.read_unread, rd_s0, rd_s1, rd_s2, View.ld_unit_zero (S := S1024x1024) hz2, View.ld_unit_zero (S := S2048x1024) hz2, View.ld_unit_zero (S := S1024x1) hz2]
  · unfold outsB; dsimp only
    rw [View.read_writes_eq_canon _ _ _ (scoverB_2 c t h0 h1 x0 x1 x2 xs0 xs1 xs2)]
    unfold ptB kernelRun1_B; dsimp only; sl_unfold_words
    rw [View.canon_unit_zero hz2]
    unfold stepA
    simp only [View.readAt_eq_ld, Memref.IsWhole.read_unread, rd_s0, rd_s1, rd_s2, View.ld_unit_zero (S := S1024x1024) hz2, View.ld_unit_zero (S := S2048x1024) hz2, View.ld_unit_zero (S := S1024x1) hz2]

set_option maxHeartbeats 2000000 in
/-- The last point of a row: the three carried buffers as at a middle point, and the output block stored once, whole, with
    the quotient of what was just stored into the weighted sum and the normaliser. -/
theorem outsC_eq (c : Dev nD) (t : Fin cfg1.N) (h0 : ¬t.val % 4 = 0) (h1 : t.val % 4 = 3) (x0 : Vec F S1024x1024 .bf16) (x1 : Vec F S2048x1024 .bf16) (x2 : Vec F S2048x1024 .bf16) (xs0 : Vec F S1024x1 .f32) (xs1 : Vec F S1024x1 .f32) (xs2 : Vec F S1024x1024 .f32) :
    (outsC (F := F) c t h0 h1 x0 x1 x2 xs0 xs1 xs2).1 = outF (stepA x0 x1 x2 xs0 xs2) (stepL x0 x1 xs0 xs1)
    ∧ (outsC (F := F) c t h0 h1 x0 x1 x2 xs0 xs1 xs2).2.1 = stepM x0 x1 xs0
    ∧ (outsC (F := F) c t h0 h1 x0 x1 x2 xs0 xs1 xs2).2.2.1 = stepL x0 x1 xs0 xs1
    ∧ (outsC (F := F) c t h0 h1 x0 x1 x2 xs0 xs1 xs2).2.2.2 = stepA x0 x1 x2 xs0 xs2 := by
  refine ⟨?_, ?_, ?_, ?_⟩
  · unfold outsC; dsimp only
    rw [View.read_writes_eq_canon _ _ _ (coverC_3 c t h0 h1 x0 x1 x2 xs0 xs1 xs2)]
    unfold ptC kernelRun1_C; dsimp only; sl_unfold_words
    rw [View.canon_unit_zero hz2, View.readCov_unit_zero (S := S1024x1024) _ hz2, View.readCov_unit_zero (S := S1024x1) _ hz2]
    unfold outF stepA stepL
    simp only [View.readAt_eq_ld, Memref.IsWhole.read_unread, rd_s0, rd_s1, rd_s2, View.ld_unit_zero (S := S1024x1024) hz2, View.ld_unit_zero (S := S2048x1024) hz2, View.ld_unit_zero (S := S1024x1) hz2]
  · unfold outsC; dsimp only
    rw [View.read_writes_eq_canon _ _ _ (scoverC_0 c t h0 h1 x0 x1 x2 xs0 xs1 xs2)]
    unfold ptC kernelRun1_C; dsimp only; sl_unfold_words
    rw [View.canon_unit_zero hz2]
    unfold stepM
    simp only [View.readAt_eq_ld, Memref.IsWhole.read_unread, rd_s0, rd_s1, rd_s2, View.ld_unit_zero (S := S1024x1024) hz2, View.ld_unit_zero (S := S2048x1024) hz2, View.ld_unit_zero (S := S1024x1) hz2]
  · unfold outsC; dsimp only
    rw [View.read_writes_eq_canon _ _ _ (scoverC_1 c t h0 h1 x0 x1 x2 xs0 xs1 xs2)]
    unfold ptC kernelRun1_C; dsimp only; sl_unfold_words
    rw [View.canon_unit_zero hz2]
    unfold stepL
    simp only [View.readAt_eq_ld, Memref.IsWhole.read_unread, rd_s0, rd_s1, rd_s2, View.ld_unit_zero (S := S1024x1024) hz2, View.ld_unit_zero (S := S2048x1024) hz2, View.ld_unit_zero (S := S1024x1) hz2]
  · unfold outsC; dsimp only
    rw [View.read_writes_eq_canon _ _ _ (scoverC_2 c t h0 h1 x0 x1 x2 xs0 xs1 xs2)]
    unfold ptC kernelRun1_C; dsimp only; sl_unfold_words
    rw [View.canon_unit_zero hz2]
    unfold stepA
    simp only [View.readAt_eq_ld, Memref.IsWhole.read_unread, rd_s0, rd_s1, rd_s2, View.ld_unit_zero (S := S1024x1024) hz2, View.ld_unit_zero (S := S2048x1024) hz2, View.ld_unit_zero (S := S1024x1) hz2]

set_option maxHeartbeats 2000000 in
/-- The first point of a row: each carried buffer is first reset, then stored with the step function of the reset values. -/
theorem outsA_eq (c : Dev nD) (t : Fin cfg1.N) (h0 : t.val % 4 = 0) (x0 : Vec F S1024x1024 .bf16) (x1 : Vec F S2048x1024 .bf16) (x2 : Vec F S2048x1024 .bf16) :
    (outsA (F := F) c t h0 x0 x1 x2).2.1 = stepM x0 x1 initM
    ∧ (outsA (F := F) c t h0 x0 x1 x2).2.2.1 = stepL x0 x1 initM initL
    ∧ (outsA (F := F) c t h0 x0 x1 x2).2.2.2 = stepA x0 x1 x2 initM initA := by
  refine ⟨?_, ?_, ?_⟩
  · unfold outsA; dsimp only
    rw [View.read_writes_eq_canon _ _ _ (scoverA_0 c t h0 x0 x1 x2)]
    unfold ptA kernelRun1_A; dsimp only; sl_unfold_words
    rw [View.canon_cons_unit_zero (S := S1024x1) hz2]
    simp only [View.readCov_unit_zero (S := S1024x1) _ hz2, View.readCov_unit_zero (S := S1024x1024) _ hz2]
    unfold stepM initM
    simp only [View.readAt_eq_ld, Memref.IsWhole.read_unread, rd_s0, rd_s1, rd_s2, View.ld_unit_zero (S := S1024x1024) hz2, View.ld_unit_zero (S := S2048x1024) hz2, View.ld_unit_zero (S := S1024x1) hz2]
  · unfold outsA; dsimp only
    rw [View.read_writes_eq_canon _ _ _ (scoverA_1 c t h0 x0 x1 x2)]
    unfold ptA kernelRun1_A; dsimp only; sl_unfold_words
    rw [View.canon_cons_unit_zero (S := S1024x1) hz2]
    simp only [View.readCov_unit_zero (S := S1024x1) _ hz2, View.readCov_unit_zero (S := S1024x1024) _ hz2]
    unfold stepL initM initL
    simp only [View.readAt_eq_ld, Memref.IsWhole.read_unread, rd_s0, rd_s1, rd_s2, View.ld_unit_zero (S := S1024x1024) hz2, View.ld_unit_zero (S := S2048x1024) hz2, View.ld_unit_zero (S := S1024x1) hz2]
  · unfold outsA; dsimp only
    rw [View.read_writes_eq_canon _ _ _ (scoverA_2 c t h0 x0 x1 x2)]
    unfold ptA kernelRun1_A; dsimp only; sl_unfold_words
    rw [View.canon_cons_unit_zero (S := S1024x1024) hz2]
    simp only [View.readCov_unit_zero (S := S1024x1) _ hz2, View.readCov_unit_zero (S := S1024x1024) _ hz2]
    unfold stepA initM initA
    simp only [View.readAt_eq_ld, Memref.IsWhole.read_unread, rd_s0, rd_s1, rd_s2, View.ld_unit_zero (S := S1024x1024) hz2, View.ld_unit_zero (S := S2048x1024) hz2, View.ld_unit_zero (S := S1024x1) hz2]

end Cert.KernelIdeal.Hand

end
-- ==== Proof.Value1.lean ====
/-
  The attention region, from blocks to arrays. The region's grid is 8 × 4: point `t` is query block `t / 4` against key
  block `t % 4`. At point `t` the query window stages rows `1024·(t / 4) …` of the query array, the key and value windows
  rows `2048·(t % 4) …` of the key and value arrays; the output window's block is rows `1024·(t / 4) …` of the result, and
  it is written back only at the last point of each query row (`t % 4 = 3`). So entry `(p, d)` of a staged block is an
  entry of its array at a row the point's number gives, and — the eight written blocks tiling the 8192 rows — the result
  array after the region is any function whose restriction to each query block is what that block's last point leaves.
-/
import proofs.«113662_j9672266350973_2_alg».proof.Proof.Frame.R1
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-! ### The index maps over the grid -/

/-- Point `t` stages query block `t / 4`, key and value block `t % 4`, and holds output block `t / 4`. -/
theorem idx1 : ∀ t : Fin cfg1.N, (win1_0.index t (0 : Fin 2) = t.val / 4 ∧ win1_0.index t (1 : Fin 2) = 0)
    ∧ (win1_1.index t (0 : Fin 2) = t.val % 4 ∧ win1_1.index t (1 : Fin 2) = 0)
    ∧ (win1_2.index t (0 : Fin 2) = t.val % 4 ∧ win1_2.index t (1 : Fin 2) = 0)
    ∧ (win1_3.index t (0 : Fin 2) = t.val / 4 ∧ win1_3.index t (1 : Fin 2) = 0) :=
  (by decide +kernel : ∀ t : Fin grid1.N, _)

/-- Row `p` of query block `t / 4` is a row of the 8192-row arrays. -/
theorem qrow_lt (t : Fin cfg1.N) (p : Fin 1024) : 1024 * (t.val / 4) + p.val < 8192 := by
  have ht : t.val < 32 := lt_of_lt_of_eq t.isLt (show cfg1.N = 32 from N_1)
  have := p.isLt
  omega

/-- Row `i` of key block `t % 4` is a row of the 8192-row arrays. -/
theorem krow_lt (t : Fin cfg1.N) (i : Fin 2048) : 2048 * (t.val % 4) + i.val < 8192 := by
  have := i.isLt
  omega

/-! ### The input blocks, read off the arrays -/

/-- Entry `(p, d)` of point `t`'s query block is entry `(1024·(t / 4) + p, d)` of the query array. -/
theorem iblk1_0_apply (c : Dev nD) (t : Fin cfg1.N) (p d : Fin 1024) :
    (iblk1 V c 0 t : Vec F S1024x1024 .bf16) (ix2 p d)
      = (V c main_v7_0 : S8192x1024.Idx → Elt F .bf16) (ix2 (⟨1024 * (t.val / 4) + p.val, qrow_lt t p⟩ : Fin 8192) d) := by
  obtain ⟨⟨e0, e1⟩, -⟩ := idx1 t
  unfold iblk1
  rw [View.read_apply]
  show V c main_v7_0 _ = V c main_v7_0 _
  refine congrArg (V c main_v7_0) ?_
  funext a
  apply Fin.ext
  match a with
  | ⟨0, _⟩ => show win1_0.index t 0 * 1024 + 1 * p.val = 1024 * (t.val / 4) + p.val; rw [e0]; omega
  | ⟨1, _⟩ => show win1_0.index t 1 * 1024 + 1 * d.val = d.val; rw [e1]; omega

/-- Entry `(i, d)` of point `t`'s key block is entry `(2048·(t % 4) + i, d)` of the key array. -/
theorem iblk1_1_apply (c : Dev nD) (t : Fin cfg1.N) (i : Fin 2048) (d : Fin 1024) :
    (iblk1 V c 1 t : Vec F S2048x1024 .bf16) (ix2 i d)
      = (V c main_v7_1 : S8192x1024.Idx → Elt F .bf16) (ix2 (⟨2048 * (t.val % 4) + i.val, krow_lt t i⟩ : Fin 8192) d) := by
  obtain ⟨-, ⟨e0, e1⟩, -⟩ := idx1 t
  unfold iblk1
  rw [View.read_apply]
  show V c main_v7_1 _ = V c main_v7_1 _
  refine congrArg (V c main_v7_1) ?_
  funext a
  apply Fin.ext
  match a with
  | ⟨0, _⟩ => show win1_1.index t 0 * 2048 + 1 * i.val = 2048 * (t.val % 4) + i.val; rw [e0]; omega
  | ⟨1, _⟩ => show win1_1.index t 1 * 1024 + 1 * d.val = d.val; rw [e1]; omega

/-- Entry `(i, d)` of point `t`'s value block is entry `(2048·(t % 4) + i, d)` of the value array. -/
theorem iblk1_2_apply (c : Dev nD) (t : Fin cfg1.N) (i : Fin 2048) (d : Fin 1024) :
    (iblk1 V c 2 t : Vec F S2048x1024 .bf16) (ix2 i d)
      = (V c main_v7_2 : S8192x1024.Idx → Elt F .bf16) (ix2 (⟨2048 * (t.val % 4) + i.val, krow_lt t i⟩ : Fin 8192) d) := by
  obtain ⟨-, -, ⟨e0, e1⟩, -⟩ := idx1 t
  unfold iblk1
  rw [View.read_apply]
  show V c main_v7_2 _ = V c main_v7_2 _
  refine congrArg (V c main_v7_2) ?_
  funext a
  apply Fin.ext
  match a with
  | ⟨0, _⟩ => show win1_2.index t 0 * 2048 + 1 * i.val = 2048 * (t.val % 4) + i.val; rw [e0]; omega
  | ⟨1, _⟩ => show win1_2.index t 1 * 1024 + 1 * d.val = d.val; rw [e1]; omega

/-! ### The result array, from the blocks written back -/

/-- What the last point of a query row writes back is that row's block of `Gf`, when `Gf` restricted to the block is
    what the point leaves in the output's staging buffer. -/
theorem flushed1_3_eq (c : Dev nD) (Gf : S8192x1024.Idx → Elt F .f32)
    (h : ∀ t : Fin cfg1.N, t.val % 4 = 3 → ∀ p o : Fin 1024,
      (outsAt1 V c t.val t.isLt).1 (ix2 p o) = Gf (ix2 (⟨1024 * (t.val / 4) + p.val, qrow_lt t p⟩ : Fin 8192) o))
    (t : Fin cfg1.N) (hf : (cfg1.win 3).flush t = true) :
    (dat1 V c).flushed 3 t = ((cfg1.win 3).blk t).view.read (Elt F) Gf := by
  have h3 : t.val % 4 = 3 := (flush1_3 t).mp hf
  obtain ⟨-, -, -, e0, e1⟩ := idx1 t
  show (cfg1.win 3).cut (grid1.coords t) ((dat1 V c).after 3 t) = _
  rw [after1_3]
  funext j
  obtain ⟨p, o, rfl⟩ : ∃ (p o : Fin 1024), j = ix2 p o := ⟨j 0, j 1, eq_ix2 j⟩
  rw [View.read_apply]
  show (outsAt1 V c t.val t.isLt).1 (ix2 p o) = Gf (((cfg1.win 3).blk t).view.emb (ix2 p o))
  rw [h t h3 p o]
  refine congrArg Gf ?_
  funext a
  apply Fin.ext
  match a with
  | ⟨0, _⟩ => show 1024 * (t.val / 4) + p.val = win1_3.index t 0 * 1024 + 1 * p.val; rw [e0]; omega
  | ⟨1, _⟩ => show o.val = win1_3.index t 1 * 1024 + 1 * o.val; rw [e1]; omega

/-- An index of the result array is in point `t`'s output block iff each coordinate is in the block's range on its axis. -/
theorem mem_blk1_3 (t : Fin cfg1.N) (i : S8192x1024.Idx) :
    i ∈ ((cfg1.win 3).blk t).view.set
      ↔ ∀ a : Fin 2, win1_3.index t a * S1024x1024.size a ≤ (i a).val ∧ (i a).val < win1_3.index t a * S1024x1024.size a + S1024x1024.size a := by
  show i ∈ ((View.whole main_v8).slice (win1_3.rect t)).set ↔ _
  rw [View.set_slice_whole, Rect.mem_set_unit]
  exact Iff.rfl

/-- The last point of the query row that holds array row `r`. -/
def lastPt (r : Fin 8192) : Fin cfg1.N :=
  ⟨4 * (r.val / 1024) + 3, lt_of_lt_of_eq (by have := r.isLt; omega : 4 * (r.val / 1024) + 3 < 32) (show cfg1.N = 32 from N_1).symm⟩

/-- THE RESULT ARRAY after the region: any `Gf` whose restriction to each query block is what that block's last point
    leaves in the output's staging buffer — the eight blocks written back tile the array's 8192 rows. -/
theorem final1 (c : Dev nD) (Gf : S8192x1024.Idx → Elt F .f32)
    (h : ∀ t : Fin cfg1.N, t.val % 4 = 3 → ∀ p o : Fin 1024,
      (outsAt1 V c t.val t.isLt).1 (ix2 p o) = Gf (ix2 (⟨1024 * (t.val / 4) + p.val, qrow_lt t p⟩ : Fin 8192) o)) :
    (dat1 V c).arrAt 3 cfg1.N = Gf :=
  (dat1 V c).arrAt_eq_of_cover 3 Gf (flushed1_3_eq V c Gf h) fun i => by
    have hi0 : (i 0).val < 8192 := (i 0).isLt
    have hi1 : (i 1).val < 1024 := (i 1).isLt
    have hv : (lastPt ⟨(i 0).val, hi0⟩).val = 4 * ((i 0).val / 1024) + 3 := rfl
    obtain ⟨-, -, -, e0, e1⟩ := idx1 (lastPt ⟨(i 0).val, hi0⟩)
    refine ⟨lastPt ⟨(i 0).val, hi0⟩, (flush1_3 _).mpr (by rw [hv]; omega), ?_⟩
    rw [mem_blk1_3]
    intro a
    match a with
    | ⟨0, _⟩ =>
      show win1_3.index (lastPt ⟨(i 0).val, hi0⟩) 0 * 1024 ≤ (i 0).val
        ∧ (i 0).val < win1_3.index (lastPt ⟨(i 0).val, hi0⟩) 0 * 1024 + 1024
      rw [e0, hv]; omega
    | ⟨1, _⟩ =>
      show win1_3.index (lastPt ⟨(i 0).val, hi0⟩) 1 * 1024 ≤ (i 1).val
        ∧ (i 1).val < win1_3.index (lastPt ⟨(i 0).val, hi0⟩) 1 * 1024 + 1024
      rw [e1]; omega

end Cert.KernelIdeal.Hand

end
-- ==== Proof.LibRowMax.lean ====
/-
  GENERAL LEMMA: the largest entry of each row of a rank-2 array — what `max(x, axis=-1)` becomes in a vector
  program — read at an index given by coordinates.
  • `multiReduction_maximumf_axis1_apply`: the lane maximum of an `[a, b]` array of extended reals, folded from the
    accumulator's word, at `i`, is the maximum over `k` of the entries `(i, k)` of row `i`, folded from that word's value.
-/
import Idealize.ShloMosaic.Lib.ValueIdx
import Idealize.ShloMosaic.PureOps.Ideal.Laws

noncomputable section

namespace Idealize.ShloMosaic.ValueIdx

open Idealize.ShloMosaic

/-- The lane maximum of an `[a, b]` array of extended reals: at `i` it is the fold of `max`, from the accumulator word's
    value, over the entries of row `i`. -/
theorem multiReduction_maximumf_axis1_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun k => src (ix2 i k)) := by
  refine (Ideal.multiReduction_maximumf_single src acc h hφ hacc (ix1 i)).trans ?_
  refine congrArg (fun f => Finset.fold max (Ideal.ofBits .f32 acc) f (Finset.univ : Finset (Fin b))) (funext fun k => congrArg src ?_)
  funext c
  match c with
  | ⟨0, _⟩ => exact Fin.ext rfl
  | ⟨1, _⟩ => exact Fin.ext rfl

end Idealize.ShloMosaic.ValueIdx

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.LibRhsTDot.lean ====
/-
  A matrix against the transpose of another, read at an entry, on the extended reals.

  For dimension numbers that contract the SECOND axis of both operands (an M×K matrix against an N×K matrix, no batch
  axis — the product l · rᵀ), the contraction index has a single coordinate, and entry (a, b) of the product is the sum
  over k : Fin K of left (a, k) · right (b, k): row a of the left operand against row b of the right one. A
  `tpu.matmul` of that form into the zero accumulator is that sum, the zero word added on the left changing nothing.

  The statements take any dimension record `D` together with a proof that it is the record of that form; for a printed
  record that proof is `rfl`.
-/
import Idealize.ShloMosaic.PureOps.Ideal.Laws
import Idealize.ShloMosaic.Lib.ValueIdx

noncomputable section

namespace Idealize.ShloMosaic.RhsTDot

open Idealize.ShloMosaic Idealize.ShloMosaic.ValueIdx

variable {M K N : Nat}

/-- The left operand is read on its row axis at the entry's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand is read on its row axis at the entry's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The contraction of such a product, re-indexed by the one contracted coordinate. -/
theorem sum_eq (D : DotDims ⟨2, ![M, K]⟩ ⟨2, ![N, K]⟩ ⟨2, ![M, N]⟩) (hD : D = DotDims.transposedRhs M K N)
    (l : (⟨2, ![M, K]⟩ : Shape).Idx → EReal) (r : (⟨2, ![N, K]⟩ : Shape).Idx → EReal) (j : (⟨2, ![M, N]⟩ : Shape).Idx) :
    ∑ q : D.contr.Idx, l (D.lhsIdx j q) * r (D.rhsIdx j q) = ∑ k : Fin K, l (ix2 (j 0) k) * r (ix2 (j 1) k) := by
  subst hD
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_row _ _
      | ⟨1, _⟩ => exact ((DotDims.transposedRhs M K N).rhsIdx_val_of_single rfl _ _).trans hk)
  exact congrArg₂ (fun x y => l x * r y) el er

/-- A `tpu.matmul` of such a product into the zero accumulator at an entry. -/
theorem matmul_zero_apply {φ₁ φ₂ : FTy} (D : DotDims ⟨2, ![M, K]⟩ ⟨2, ![N, K]⟩ ⟨2, ![M, N]⟩) (hD : D = DotDims.transposedRhs M K N)
    (prec : Option ContractPrecision) (l : FVec Ideal ⟨2, ![M, K]⟩ φ₁) (r : FVec Ideal ⟨2, ![N, K]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 (j 1) k) := by
  simp only [matmul]
  rw [Ideal.matmul_constant_zero_apply]
  exact sum_eq D hD l r j

/-- The same at an entry given by its coordinates: row `a` of the left operand against row `b` of the right one. -/
theorem matmul_zero_ix2 {φ₁ φ₂ : FTy} (D : DotDims ⟨2, ![M, K]⟩ ⟨2, ![N, K]⟩ ⟨2, ![M, N]⟩) (hD : D = DotDims.transposedRhs M K N)
    (prec : Option ContractPrecision) (l : FVec Ideal ⟨2, ![M, K]⟩ φ₁) (r : FVec Ideal ⟨2, ![N, K]⟩ φ₂)
    (a : Fin M) (b : Fin N) :
    matmul D prec l r (constant (F := Ideal) ⟨2, ![M, N]⟩ .f32 0x00000000#32) (ix2 a b)
      = ∑ k : Fin K, l (ix2 a k) * r (ix2 b k) :=
  matmul_zero_apply D hD prec l r (ix2 a b)

end Idealize.ShloMosaic.RhsTDot

end
-- ==== Proof.FlashStepValue.lean ====
/-
  One grid point of the flash-attention body read entry by entry, on the extended reals.

  A point holds a block of 1024 query rows `q`, a block of 2048 key rows `k` with their value rows `v`, and per query row
  `p` the running maximum `m p`, the running normaliser `l p` and the running weighted sum `a p o`. With the scaled
  scores of row `p` against the block, `s i = (∑_d q p d · k i d) / 32`, and `m' = max (m p) (max_i s i)`, the point
  leaves `m'`, `exp (m p − m') · l p + ∑_i exp (s i − m')` and `exp (m p − m') · a p o + ∑_i exp (s i − m') · v i o`:
  one step of the running recurrence of the specification. The first point of a row starts from `−∞, 0, 0`; the last one
  writes `a p o / l p`. A change of float format and a cast to the same shape do nothing here; the sums come from a
  product into the zero accumulator and from a lane sum from the zero word, so they carry no leading zero.
-/
import proofs.«113662_j9672266350973_2_alg».proof.Proof.FlashDefs
import proofs.«113662_j9672266350973_2_alg».proof.Proof.Spec
import proofs.«113662_j9672266350973_2_alg».proof.Proof.LibRowMax
import proofs.«113662_j9672266350973_2_alg».proof.Proof.LibKeepdims
import proofs.«113662_j9672266350973_2_alg».proof.Proof.LibPlainDot
import proofs.«113662_j9672266350973_2_alg».proof.Proof.LibRhsTDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-- The scaled scores of query row `p` against the block's 2048 key rows: the inner product over the 1024 features,
    times 1/32. -/
def sc (q : Vec Ideal S1024x1024 .bf16) (k : Vec Ideal S2048x1024 .bf16) (p : Fin 1024) : Fin 2048 → EReal :=
  fun i => (∑ d : Fin 1024, q (ix2 p d) * k (ix2 i d)) * ((1 / 32 : ℝ) : EReal)

/-- The scale's word is the real 1/32 = 2⁻⁵. -/
theorem scale_lit : Ideal.ofBits .f32 0x3D000000#32 = ((1 / 32 : ℝ) : EReal) := by
  simp [Ideal.ofBits, Ideal.ieee, -EReal.coe_mul]; norm_num

/-- The word the running maximum starts from is `−∞`. -/
theorem neg_inf_lit : Ideal.ofBits .f32 0xFF800000#32 = ⊥ := by
  simp [Ideal.ofBits, Ideal.ieee]

/-- The point's scaled scores at `(p, i)`. -/
theorem pay7_apply (q : Vec Ideal S1024x1024 .bf16) (k : Vec Ideal S2048x1024 .bf16) (p : Fin 1024) (i : Fin 2048) :
    k1_pay7 (F := Ideal) q k (ix2 p i) = sc q k p i := by
  have h := RhsTDot.matmul_zero_ix2 (φ₁ := .bf16) (φ₂ := .bf16) dot_S1024x1024_S2048x1024_S1024x2048_1_1_0_0_n_n rfl none q k p i
  unfold k1_pay7
  rw [shapeCast_self, shapeCast_self, mulf_apply, broadcast_apply, Ideal.ofBits_def, scale_lit]
  exact congrArg (· * _) h

/-- The new running maximum of row `p`. -/
theorem pay8_apply (q : Vec Ideal S1024x1024 .bf16) (k : Vec Ideal S2048x1024 .bf16) (mS : Vec Ideal S1024x1 .f32) (p : Fin 1024) :
    k1_pay8 (F := Ideal) q k mS (ix2 p (0 : Fin 1)) = max (mS (ix2 p (0 : Fin 1))) (Finset.univ.fold max ⊥ (sc q k p)) := by
  unfold k1_pay8
  rw [maximumf_apply]
  refine congrArg (max (mS (ix2 p (0 : Fin 1)))) ?_
  refine (shapeCast_a_a1_apply _ _ p 0).trans ?_
  refine (multiReduction_maximumf_axis1_apply _ _ _ _ _ p).trans ?_
  rw [neg_inf_lit]
  exact congrArg (fun f => Finset.fold max ⊥ f (Finset.univ : Finset (Fin 2048))) (funext fun i => pay7_apply q k p i)

/-- The factor the old normaliser and the old weighted sum are rescaled by. -/
theorem pay9_apply (q : Vec Ideal S1024x1024 .bf16) (k : Vec Ideal S2048x1024 .bf16) (mS mS' : Vec Ideal S1024x1 .f32) (p : Fin 1024) :
    k1_pay9 (F := Ideal) q k mS mS' (ix2 p (0 : Fin 1))
      = Ideal.exp (mS' (ix2 p (0 : Fin 1)) - max (mS (ix2 p (0 : Fin 1))) (Finset.univ.fold max ⊥ (sc q k p))) := by
  unfold k1_pay9
  show Ideal.exp (mS' (ix2 p (0 : Fin 1)) - k1_pay8 q k mS (ix2 p (0 : Fin 1))) = _
  rw [pay8_apply]

/-- The weight of key `i` for row `p`. -/
theorem pay10_apply (q : Vec Ideal S1024x1024 .bf16) (k : Vec Ideal S2048x1024 .bf16) (mS : Vec Ideal S1024x1 .f32) (p : Fin 1024)
    (i : Fin 2048) :
    k1_pay10 (F := Ideal) q k mS (ix2 p i)
      = Ideal.exp (sc q k p i - max (mS (ix2 p (0 : Fin 1))) (Finset.univ.fold max ⊥ (sc q k p))) := by
  unfold k1_pay10
  show Ideal.exp (k1_pay7 q k (ix2 p i) - broadcastTo S1024x2048 (k1_pay8 q k mS) _ (ix2 p i)) = _
  rw [broadcastTo_a1_ab_apply, pay7_apply, pay8_apply]

/-- The running maximum a point leaves, at row `p`. -/
theorem stepM_apply (q : Vec Ideal S1024x1024 .bf16) (k : Vec Ideal S2048x1024 .bf16) (mS : Vec Ideal S1024x1 .f32) (p : Fin 1024) :
    stepM q k mS (ix2 p (0 : Fin 1)) = max (mS (ix2 p (0 : Fin 1))) (Finset.univ.fold max ⊥ (sc q k p)) := by
  unfold stepM k1_pay2
  rw [shapeCast_self]
  exact pay8_apply q k mS p

/-- The running normaliser a point leaves, at row `p`. -/
theorem stepL_apply (q : Vec Ideal S1024x1024 .bf16) (k : Vec Ideal S2048x1024 .bf16) (mS lS : Vec Ideal S1024x1 .f32) (p : Fin 1024) :
    stepL q k mS lS (ix2 p (0 : Fin 1))
      = Ideal.exp (mS (ix2 p (0 : Fin 1)) - max (mS (ix2 p (0 : Fin 1))) (Finset.univ.fold max ⊥ (sc q k p))) * lS (ix2 p (0 : Fin 1))
        + ∑ i : Fin 2048, Ideal.exp (sc q k p i - max (mS (ix2 p (0 : Fin 1))) (Finset.univ.fold max ⊥ (sc q k p))) := by
  unfold stepL k1_pay11
  rw [shapeCast_self, addf_apply, mulf_apply, pay9_apply]
  refine congrArg₂ (fun a b : EReal => a + b) rfl ?_
  refine (shapeCast_a_a1_apply _ _ p 0).trans ?_
  refine (multiReduction_add_axis1_apply _ _ _ _ p).trans ?_
  exact Finset.sum_congr rfl fun i _ => pay10_apply q k mS p i

/-- The running weighted sum a point leaves, at `(p, o)`. -/
theorem stepA_apply (q : Vec Ideal S1024x1024 .bf16) (k v : Vec Ideal S2048x1024 .bf16) (mS : Vec Ideal S1024x1 .f32)
    (aS : Vec Ideal S1024x1024 .f32) (p o : Fin 1024) :
    stepA q k v mS aS (ix2 p o)
      = Ideal.exp (mS (ix2 p (0 : Fin 1)) - max (mS (ix2 p (0 : Fin 1))) (Finset.univ.fold max ⊥ (sc q k p))) * aS (ix2 p o)
        + ∑ i : Fin 2048, Ideal.exp (sc q k p i - max (mS (ix2 p (0 : Fin 1))) (Finset.univ.fold max ⊥ (sc q k p))) * v (ix2 i o) := by
  unfold stepA k1_pay1 k1_pay12 k1_pay13 k1_pay14
  rw [shapeCast_self, shapeCast_self, addf_apply, mulf_apply, broadcastTo_a1_ab_apply, pay9_apply]
  refine congrArg₂ (fun a b : EReal => a + b) rfl ?_
  refine (PlainDot.matmul_zero_apply (φ₁ := .bf16) (φ₂ := .bf16) dot_S1024x2048_S2048x1024_S1024x1024_1_0_0_1_n_n rfl none _ _ (ix2 p o)).trans ?_
  exact Finset.sum_congr rfl fun i _ => congrArg (· * v (ix2 i o)) (pay10_apply q k mS p i)

/-- One grid point is one step of the running recurrence, row by row and column by column. -/
theorem step_apply (q : Vec Ideal S1024x1024 .bf16) (k v : Vec Ideal S2048x1024 .bf16) (mS lS : Vec Ideal S1024x1 .f32)
    (aS : Vec Ideal S1024x1024 .f32) (p o : Fin 1024) :
    (stepM q k mS (ix2 p (0 : Fin 1)), stepL q k mS lS (ix2 p (0 : Fin 1)), stepA q k v mS aS (ix2 p o))
      = Cert.Spec.step (mS (ix2 p (0 : Fin 1)), lS (ix2 p (0 : Fin 1)), aS (ix2 p o)) (sc q k p) (fun i => v (ix2 i o)) := by
  rw [stepM_apply, stepL_apply, stepA_apply]
  unfold Cert.Spec.step
  rfl

/-- What the first point of a query row starts the three carried values from: `−∞`, `0`, `0`. -/
theorem init_apply (p o : Fin 1024) :
    initM (F := Ideal) (ix2 p (0 : Fin 1)) = ⊥ ∧ initL (F := Ideal) (ix2 p (0 : Fin 1)) = 0 ∧ initA (F := Ideal) (ix2 p o) = 0 := by
  refine ⟨?_, ?_, ?_⟩
  · unfold initM k1_pay4
    rw [shapeCast_self, broadcast_apply, Ideal.ofBits_def]
    exact neg_inf_lit
  · unfold initL k1_pay5
    rw [shapeCast_self, broadcast_apply, Ideal.ofBits_def]
    exact Ideal.ofBits_zero_f32
  · unfold initA k1_pay6
    rw [shapeCast_self, broadcast_apply, Ideal.ofBits_def]
    exact Ideal.ofBits_zero_f32

/-- What the last point of a query row writes: the weighted sum over the normaliser. -/
theorem outF_apply (aS : Vec Ideal S1024x1024 .f32) (lS : Vec Ideal S1024x1 .f32) (p o : Fin 1024) :
    outF aS lS (ix2 p o) = Ideal.div (aS (ix2 p o)) (lS (ix2 p (0 : Fin 1))) := by
  unfold outF k1_pay3
  rw [divf_apply, broadcastTo_a1_ab_apply]

end Cert.KernelIdeal.Hand

end
-- ==== Proof.Value1Ind.lean ====
/-
  The attention region's running state is the specification's recurrence. Within a query row the region visits the four
  key blocks in order; its first point starts the three carried values from `−∞, 0, 0` and every later point takes what the
  point before left. Read at a query row and a value column, one point is one step of the running recurrence on that
  block's scaled scores and values, so after the point that handles key block `j` the carried triple is the recurrence
  after `j + 1` blocks; the last point of the row writes the weighted sum over the normaliser, the recurrence's result;
  and the blocks written back tile the result array, which therefore holds that result at every row and column.
-/
import proofs.«113662_j9672266350973_2_alg».proof.Proof.Frame.Pieces
import proofs.«113662_j9672266350973_2_alg».proof.Proof.Value1
import proofs.«113662_j9672266350973_2_alg».proof.Proof.FlashStepValue
import proofs.«113662_j9672266350973_2_alg».proof.Proof.Spec

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The query, key and value arrays as the region finds them, as functions of a row and a column. -/
def Qf (c : Dev nD) : Fin 8192 → Fin 1024 → EReal := fun r d => (V c main_v7_0 : S8192x1024.Idx → Elt Ideal .bf16) (ix2 r d)
def Kf (c : Dev nD) : Fin 8192 → Fin 1024 → EReal := fun r d => (V c main_v7_1 : S8192x1024.Idx → Elt Ideal .bf16) (ix2 r d)
def Vf (c : Dev nD) : Fin 8192 → Fin 1024 → EReal := fun r d => (V c main_v7_2 : S8192x1024.Idx → Elt Ideal .bf16) (ix2 r d)

/-- The scaled scores of row `p` of point `t`'s query block against its key block are the specification's scores of
    array row `1024·(t / 4) + p` against the keys of chunk `t % 4`. -/
theorem sc_blk (c : Dev nD) (t : Fin cfg1.N) (p : Fin 1024) (row : Fin 8192) (hrow : row.val = 1024 * (t.val / 4) + p.val) :
    sc (iblk1 V c 0 t) (iblk1 V c 1 t) p
      = fun i => Cert.Spec.score (Qf V c) (Kf V c) row (Cert.Spec.key (t.val % 4) i) := by
  funext i
  unfold sc Cert.Spec.score Qf Kf
  refine congrArg (· * ((1 / 32 : ℝ) : EReal)) (Finset.sum_congr rfl fun d _ => ?_)
  rw [iblk1_0_apply, iblk1_1_apply]
  have e0 : (⟨1024 * (t.val / 4) + p.val, qrow_lt t p⟩ : Fin 8192) = row := Fin.ext hrow.symm
  have e1 : (⟨2048 * (t.val % 4) + i.val, krow_lt t i⟩ : Fin 8192) = Cert.Spec.key (t.val % 4) i :=
    Fin.ext (by show 2048 * (t.val % 4) + i.val = (t.val % 4 % 4) * 2048 + i.val; omega)
  rw [e0, e1]

/-- Column `o` of point `t`'s value block is column `o` of the values of chunk `t % 4`. -/
theorem v_blk (c : Dev nD) (t : Fin cfg1.N) (o : Fin 1024) :
    (fun i : Fin 2048 => (iblk1 V c 2 t : Vec Ideal S2048x1024 .bf16) (ix2 i o))
      = fun i => Vf V c (Cert.Spec.key (t.val % 4) i) o := by
  funext i
  unfold Vf
  rw [iblk1_2_apply]
  have e1 : (⟨2048 * (t.val % 4) + i.val, krow_lt t i⟩ : Fin 8192) = Cert.Spec.key (t.val % 4) i :=
    Fin.ext (by show 2048 * (t.val % 4) + i.val = (t.val % 4 % 4) * 2048 + i.val; omega)
  rw [e1]

/-- The first point of a query row, read at row `p` and column `o`: one step of the recurrence from `(−∞, 0, 0)`. -/
theorem carried_first (c : Dev nD) (n : ℕ) (hn : n < cfg1.N) (h0 : n % 4 = 0) (p o : Fin 1024) :
    ((outsAt1 V c n hn).2.1 (ix2 p (0 : Fin 1)), (outsAt1 V c n hn).2.2.1 (ix2 p (0 : Fin 1)), (outsAt1 V c n hn).2.2.2 (ix2 p o))
      = Cert.Spec.step (⊥, 0, 0) (sc (iblk1 V c 0 ⟨n, hn⟩) (iblk1 V c 1 ⟨n, hn⟩) p)
          (fun i => (iblk1 V c 2 ⟨n, hn⟩ : Vec Ideal S2048x1024 .bf16) (ix2 i o)) := by
  rw [outsAt1_A V c ⟨n, hn⟩ h0]
  obtain ⟨eM, eL, eA⟩ := outsA_eq (F := Ideal) c ⟨n, hn⟩ h0 (iblk1 V c 0 ⟨n, hn⟩) (iblk1 V c 1 ⟨n, hn⟩) (iblk1 V c 2 ⟨n, hn⟩)
  obtain ⟨i1, i2, i3⟩ := init_apply p o
  rw [eM, eL, eA, step_apply, i1, i2, i3]

/-- A later point of a query row, read at row `p` and column `o`: one step of the recurrence from what the point before left. -/
theorem carried_next (c : Dev nD) (n : ℕ) (hn : n < cfg1.N) (h0 : ¬n % 4 = 0) (hp : n - 1 < cfg1.N) (p o : Fin 1024) :
    ((outsAt1 V c n hn).2.1 (ix2 p (0 : Fin 1)), (outsAt1 V c n hn).2.2.1 (ix2 p (0 : Fin 1)), (outsAt1 V c n hn).2.2.2 (ix2 p o))
      = Cert.Spec.step
          ((outsAt1 V c (n - 1) hp).2.1 (ix2 p (0 : Fin 1)), (outsAt1 V c (n - 1) hp).2.2.1 (ix2 p (0 : Fin 1)),
            (outsAt1 V c (n - 1) hp).2.2.2 (ix2 p o))
          (sc (iblk1 V c 0 ⟨n, hn⟩) (iblk1 V c 1 ⟨n, hn⟩) p)
          (fun i => (iblk1 V c 2 ⟨n, hn⟩ : Vec Ideal S2048x1024 .bf16) (ix2 i o)) := by
  by_cases h1 : n % 4 = 3
  · rw [outsAt1_C V c ⟨n, hn⟩ h0 h1]
    generalize outsAt1 V c (n - 1) hp = prev
    obtain ⟨-, eM, eL, eA⟩ := outsC_eq (F := Ideal) c ⟨n, hn⟩ h0 h1 (iblk1 V c 0 ⟨n, hn⟩) (iblk1 V c 1 ⟨n, hn⟩) (iblk1 V c 2 ⟨n, hn⟩)
      prev.2.1 prev.2.2.1 prev.2.2.2
    rw [eM, eL, eA, step_apply]
  · rw [outsAt1_B V c ⟨n, hn⟩ h0 h1]
    generalize outsAt1 V c (n - 1) hp = prev
    obtain ⟨eM, eL, eA⟩ := outsB_eq (F := Ideal) c ⟨n, hn⟩ h0 h1 (iblk1 V c 0 ⟨n, hn⟩) (iblk1 V c 1 ⟨n, hn⟩) (iblk1 V c 2 ⟨n, hn⟩)
      prev.2.1 prev.2.2.1 prev.2.2.2
    rw [eM, eL, eA, step_apply]

/-- THE INVARIANT, by induction on the point: after the point that handles key chunk `n % 4` of its query row, the carried
    triple read at row `p` and column `o` is the running recurrence after `n % 4 + 1` chunks. -/
theorem carried_online (c : Dev nD) : ∀ (n : ℕ) (hn : n < cfg1.N) (p o : Fin 1024) (row : Fin 8192)
    (hrow : row.val = 1024 * (n / 4) + p.val),
    ((outsAt1 V c n hn).2.1 (ix2 p (0 : Fin 1)), (outsAt1 V c n hn).2.2.1 (ix2 p (0 : Fin 1)), (outsAt1 V c n hn).2.2.2 (ix2 p o))
      = Cert.Spec.online (fun j i => Cert.Spec.score (Qf V c) (Kf V c) row (Cert.Spec.key j i))
          (fun j i => Vf V c (Cert.Spec.key j i) o) (n % 4 + 1) := by
  intro n
  induction n using Nat.strong_induction_on with
  | _ n ih =>
    intro hn p o row hrow
    have hsc := sc_blk V c ⟨n, hn⟩ p row hrow
    have hv := v_blk V c ⟨n, hn⟩ o
    have hval : (⟨n, hn⟩ : Fin cfg1.N).val = n := rfl
    rw [hval] at hsc hv
    by_cases h0 : n % 4 = 0
    · rw [carried_first V c n hn h0 p o, hsc, hv, h0]
      rfl
    · have hp : n - 1 < cfg1.N := by omega
      have ih' := ih (n - 1) (by omega) hp p o row (by omega)
      rw [show (n - 1) % 4 + 1 = n % 4 from by omega] at ih'
      rw [carried_next V c n hn h0 hp p o, hsc, hv, ih']
      rfl

/-- The invariant at a point of the grid, with the row written out. -/
theorem carried_online_pt (c : Dev nD) (t : Fin cfg1.N) (p o : Fin 1024) :
    ((outsAt1 V c t.val t.isLt).2.1 (ix2 p (0 : Fin 1)), (outsAt1 V c t.val t.isLt).2.2.1 (ix2 p (0 : Fin 1)),
        (outsAt1 V c t.val t.isLt).2.2.2 (ix2 p o))
      = Cert.Spec.online
          (fun j i => Cert.Spec.score (Qf V c) (Kf V c) (⟨1024 * (t.val / 4) + p.val, qrow_lt t p⟩ : Fin 8192) (Cert.Spec.key j i))
          (fun j i => Vf V c (Cert.Spec.key j i) o) (t.val % 4 + 1) :=
  carried_online V c t.val t.isLt p o _ rfl

/-- WHAT THE LAST POINT OF A QUERY ROW WRITES: the recurrence's result after all four chunks, the weighted sum over the
    normaliser, at the row's array row and the value column. -/
theorem out_online (c : Dev nD) (t : Fin cfg1.N) (h3 : t.val % 4 = 3) (p o : Fin 1024) :
    (outsAt1 V c t.val t.isLt).1 (ix2 p o)
      = Cert.Spec.onlineOut
          (fun j i => Cert.Spec.score (Qf V c) (Kf V c) (⟨1024 * (t.val / 4) + p.val, qrow_lt t p⟩ : Fin 8192) (Cert.Spec.key j i))
          (fun j i => Vf V c (Cert.Spec.key j i) o) := by
  have h0 : ¬t.val % 4 = 0 := by omega
  have inv := carried_online_pt V c t p o
  rw [show t.val % 4 + 1 = 4 from by omega] at inv
  have e1 : (outsAt1 V c t.val t.isLt).1 = outF (outsAt1 V c t.val t.isLt).2.2.2 (outsAt1 V c t.val t.isLt).2.2.1 := by
    rw [outsAt1_C V c t h0 h3]
    obtain ⟨eO, -, eL, eA⟩ := outsC_eq (F := Ideal) c t h0 h3 (iblk1 V c 0 t) (iblk1 V c 1 t) (iblk1 V c 2 t)
      (outsAt1 V c (t.val - 1) (Nat.lt_of_le_of_lt (Nat.sub_le _ _) t.isLt)).2.1
      (outsAt1 V c (t.val - 1) (Nat.lt_of_le_of_lt (Nat.sub_le _ _) t.isLt)).2.2.1
      (outsAt1 V c (t.val - 1) (Nat.lt_of_le_of_lt (Nat.sub_le _ _) t.isLt)).2.2.2
    rw [eO, eL, eA]
  rw [e1, outF_apply]
  unfold Cert.Spec.onlineOut
  rw [← inv]

/-- THE RESULT ARRAY after the region: at every row and column the recurrence's result over the four key chunks. -/
theorem arr1_3 (c : Dev nD) (r : Fin 8192) (o : Fin 1024) :
    ((dat1 V c).arrAt 3 cfg1.N : S8192x1024.Idx → EReal) (ix2 r o)
      = Cert.Spec.onlineOut (fun j i => Cert.Spec.score (Qf V c) (Kf V c) r (Cert.Spec.key j i))
          (fun j i => Vf V c (Cert.Spec.key j i) o) :=
  congrFun (final1 V c
    (fun idx => Cert.Spec.onlineOut (fun j i => Cert.Spec.score (Qf V c) (Kf V c) (idx 0 : Fin 8192) (Cert.Spec.key j i))
      (fun j i => Vf V c (Cert.Spec.key j i) (idx 1 : Fin 1024)))
    (fun t h3 p o => out_online V c t h3 p o)) (ix2 r o)

end Cert.KernelIdeal.Hand

end
-- ==== Proof.KernelValue.lean ====
/-
  The kernel's closing equation. The three arrays the attention region finds are the query, key and value projections
  of the input rows (the stacked weights and bias, column third by column third, are the three weight matrices
  transposed and the three biases); the attention region leaves the running recurrence over the four chunks of keys;
  and on finite inputs that recurrence is the textbook attention.
-/
import proofs.«113662_j9672266350973_2_alg».proof.Defs
import proofs.«113662_j9672266350973_2_alg».proof.Proof.Gen.Pre_finite_inputs
import proofs.«113662_j9672266350973_2_alg».proof.Proof.Frame.Run
import proofs.«113662_j9672266350973_2_alg».proof.Proof.Value0
import proofs.«113662_j9672266350973_2_alg».proof.Proof.HostPrefix
import proofs.«113662_j9672266350973_2_alg».proof.Proof.Finite
import proofs.«113662_j9672266350973_2_alg».proof.Proof.FiniteSpec
import proofs.«113662_j9672266350973_2_alg».proof.Proof.Value1Ind

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ)

/-! ### The seven argument arrays, by coordinates -/

/-- The input rows: `x r k`. -/
abbrev X (c : Dev nD) : Fin 8192 → Fin 1024 → EReal :=
  fun r k => (m ((c.tc : Thread nD τ).loc main_arg0) : S8192x1024.Idx → EReal) (ix2 r k)
/-- The query weights, `W o k`, and bias. -/
abbrev Wq (c : Dev nD) : Fin 1024 → Fin 1024 → EReal :=
  fun o k => (m ((c.tc : Thread nD τ).loc main_arg1) : S1024x1024.Idx → EReal) (ix2 o k)
abbrev bq (c : Dev nD) : Fin 1024 → EReal :=
  fun o => (m ((c.tc : Thread nD τ).loc main_arg2) : S1024.Idx → EReal) (ix1 o)
/-- The key weights and bias. -/
abbrev Wk (c : Dev nD) : Fin 1024 → Fin 1024 → EReal :=
  fun o k => (m ((c.tc : Thread nD τ).loc main_arg3) : S1024x1024.Idx → EReal) (ix2 o k)
abbrev bk (c : Dev nD) : Fin 1024 → EReal :=
  fun o => (m ((c.tc : Thread nD τ).loc main_arg4) : S1024.Idx → EReal) (ix1 o)
/-- The value weights and bias. -/
abbrev Wv (c : Dev nD) : Fin 1024 → Fin 1024 → EReal :=
  fun o k => (m ((c.tc : Thread nD τ).loc main_arg5) : S1024x1024.Idx → EReal) (ix2 o k)
abbrev bv (c : Dev nD) : Fin 1024 → EReal :=
  fun o => (m ((c.tc : Thread nD τ).loc main_arg6) : S1024.Idx → EReal) (ix1 o)

/-! ### The three projected arrays the attention region finds -/

/-- The query array the attention region finds is the query projection of the input rows. -/
theorem Qf_eq (c : Dev nD) : Qf (Vk2 m) c = Cert.Spec.proj (X m c) (Wq m c) (bq m c) := by
  funext r d
  show (Wk2 m c (Proc.devRef .tc main_v7_0) : S8192x1024.Idx → EReal) (ix2 r d) = _
  refine (congrFun (Wk2_arr m c 3) (ix2 r d)).trans ?_
  refine (arr0_3 (Vk1 m) c r d).trans ?_
  refine (G3_apply _ _ _ r d).trans ?_
  unfold Cert.Spec.proj
  refine congrArg₂ (fun a b : EReal => a + b) ?_ ?_
  · refine Finset.sum_congr rfl fun k _ => ?_
    refine congrArg₂ (fun a b : EReal => a * b) ?_ ?_
    · exact congrFun (V1_x_unchanged m c) (ix2 r k)
    · exact V1_stackedW_q m c k d _
  · exact V1_stackedB_q m c 0 d _

/-- The key array the attention region finds is the key projection of the input rows. -/
theorem Kf_eq (c : Dev nD) : Kf (Vk2 m) c = Cert.Spec.proj (X m c) (Wk m c) (bk m c) := by
  funext r d
  show (Wk2 m c (Proc.devRef .tc main_v7_1) : S8192x1024.Idx → EReal) (ix2 r d) = _
  refine (congrFun (Wk2_arr m c 4) (ix2 r d)).trans ?_
  refine (arr0_4 (Vk1 m) c r d).trans ?_
  refine (G4_apply _ _ _ r d).trans ?_
  unfold Cert.Spec.proj
  refine congrArg₂ (fun a b : EReal => a + b) ?_ ?_
  · refine Finset.sum_congr rfl fun k _ => ?_
    refine congrArg₂ (fun a b : EReal => a * b) ?_ ?_
    · exact congrFun (V1_x_unchanged m c) (ix2 r k)
    · exact V1_stackedW_k m c k d _
  · exact V1_stackedB_k m c 0 d _

/-- The value array the attention region finds is the value projection of the input rows. -/
theorem Vf_eq (c : Dev nD) : Vf (Vk2 m) c = Cert.Spec.proj (X m c) (Wv m c) (bv m c) := by
  funext r d
  show (Wk2 m c (Proc.devRef .tc main_v7_2) : S8192x1024.Idx → EReal) (ix2 r d) = _
  refine (congrFun (Wk2_arr m c 5) (ix2 r d)).trans ?_
  refine (arr0_5 (Vk1 m) c r d).trans ?_
  refine (G5_apply _ _ _ r d).trans ?_
  unfold Cert.Spec.proj
  refine congrArg₂ (fun a b : EReal => a + b) ?_ ?_
  · refine Finset.sum_congr rfl fun k _ => ?_
    refine congrArg₂ (fun a b : EReal => a * b) ?_ ?_
    · exact congrFun (V1_x_unchanged m c) (ix2 r k)
    · exact V1_stackedW_v m c k d _
  · exact V1_stackedB_v m c 0 d _

/-! ### The kernel's result -/

/-- On finite inputs, entry `(r, o)` of the kernel's result array is the attention of query row `r` over all key
    rows, read at value column `o`. -/
theorem kernel_result (hpre : Cert.Pre_KernelIdeal (hPre_finite_inputs := Cert.Pre_finite_inputs.Gen.facts) m)
    (c : Dev nD) (r : Fin 8192) (o : Fin 1024) :
    ((dat1 (Vk2 m) c).arrAt 3 cfg1.N : S8192x1024.Idx → EReal) (ix2 r o)
      = Cert.Spec.G (X m c) (Wq m c) (bq m c) (Wk m c) (bk m c) (Wv m c) (bv m c) r o := by
  obtain ⟨h0, h1, h2, h3, h4, h5, h6⟩ := finite_of_pre _ _ _ _ _ _ _ (hpre c)
  refine (arr1_3 (Vk2 m) c r o).trans ?_
  rw [Qf_eq, Kf_eq, Vf_eq]
  exact (Cert.Spec.G_eq_online (X m c) (Wq m c) (bq m c) (Wk m c) (bk m c) (Wv m c) (bv m c)
    (fun r k => h0 (ix2 r k)) (fun o k => h1 (ix2 o k)) (fun o => h2 (ix1 o)) (fun o k => h3 (ix2 o k))
    (fun o => h4 (ix1 o)) (fun o k => h5 (ix2 o k)) (fun o => h6 (ix1 o)) r o).symm

end Cert.KernelIdeal.Hand

end
-- ==== Proof.RefValue.lean ====
/-
  The reference program's result, read at one entry, is the textbook attention of the specification: three linear
  projections of the rows, the scaled scores of a query row against every key row, the softmax of those scores
  (largest score subtracted, exponentials, their sum, the quotient), and the weighted sum of the projected values.
  Each stage of the program is read at an index from the stage before; nothing about finiteness is used.
-/
import proofs.«113662_j9672266350973_2_alg».proof.Proof.Gen.ReferenceIdeal.Read
import proofs.«113662_j9672266350973_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## The seven argument arrays, and their entries by coordinates -/

variable (a0 : (⟨S8192x1024, .f32⟩ : BufTy).Contents (Elt Ideal))
  (a1 a3 a5 : (⟨S1024x1024, .f32⟩ : BufTy).Contents (Elt Ideal))
  (a2 a4 a6 : (⟨S1024, .f32⟩ : BufTy).Contents (Elt Ideal))

/-- A rank-2 array as a function of its two coordinates. -/
abbrev mat {p q : ℕ} (x : (⟨2, ![p, q]⟩ : Shape).Idx → EReal) : Fin p → Fin q → EReal := fun r k => x (ix2 r k)
/-- A rank-1 array as a function of its coordinate. -/
abbrev vec {p : ℕ} (x : (⟨1, ![p]⟩ : Shape).Idx → EReal) : Fin p → EReal := fun o => x (ix1 o)

/-! ## The projections: `x · Wᵀ + b` at `(r, o)` is `∑ₖ x r k · W o k + b o` -/

/-- The left operand of a projection's product is read in row `r`, column `k`. -/
theorem lidx_proj (r : Fin 8192) (o k : Fin 1024) : lidx_main_v1 (ix2 r o) k = ix2 r k :=
  funext fun a => by match a with | ⟨0, _⟩ => rfl | ⟨1, _⟩ => rfl
/-- The transposed weight, read at `(k, o)`, is the weight at `(o, k)`. -/
theorem ridx_proj (r : Fin 8192) (o k : Fin 1024) : idx_main_v0 (ridx_main_v1 (ix2 r o) k) = ix2 o k :=
  funext fun a => by match a with | ⟨0, _⟩ => rfl | ⟨1, _⟩ => rfl
/-- The bias broadcast down the rows, read at `(r, o)`, is the bias at `o`. -/
theorem bidx_proj (r : Fin 8192) (o : Fin 1024) : idx_main_v2 (idx_main_v3 (ix2 r o)) = ix1 o :=
  funext fun a => by match a with | ⟨0, _⟩ => rfl

/-- The query projection at `(r, o)`. -/
theorem projQ_apply (r : Fin 8192) (o : Fin 1024) :
    val_main_v4 (F := Ideal) a0 a1 a2 (ix2 r o) = Cert.Spec.proj (mat a0) (mat a1) (vec a2) r o := by
  rw [val_main_v4_apply, val_main_v1_apply, val_main_v3_apply, val_main_v2_apply]
  simp only [val_main_v0_apply, lidx_proj, ridx_proj, bidx_proj, Ideal.addf_def]
  rfl

/-- The left operand of the key projection's product. -/
theorem lidx_projK (r : Fin 8192) (o k : Fin 1024) : lidx_main_v6 (ix2 r o) k = ix2 r k :=
  funext fun a => by match a with | ⟨0, _⟩ => rfl | ⟨1, _⟩ => rfl
theorem ridx_projK (r : Fin 8192) (o k : Fin 1024) : idx_main_v5 (ridx_main_v6 (ix2 r o) k) = ix2 o k :=
  funext fun a => by match a with | ⟨0, _⟩ => rfl | ⟨1, _⟩ => rfl
theorem bidx_projK (r : Fin 8192) (o : Fin 1024) : idx_main_v7 (idx_main_v8 (ix2 r o)) = ix1 o :=
  funext fun a => by match a with | ⟨0, _⟩ => rfl

/-- The key projection at `(r, o)`. -/
theorem projK_apply (r : Fin 8192) (o : Fin 1024) :
    val_main_v9 (F := Ideal) a0 a3 a4 (ix2 r o) = Cert.Spec.proj (mat a0) (mat a3) (vec a4) r o := by
  rw [val_main_v9_apply, val_main_v6_apply, val_main_v8_apply, val_main_v7_apply]
  simp only [val_main_v5_apply, lidx_projK, ridx_projK, bidx_projK, Ideal.addf_def]
  rfl

/-- The left operand of the value projection's product. -/
theorem lidx_projV (r : Fin 8192) (o k : Fin 1024) : lidx_main_v11 (ix2 r o) k = ix2 r k :=
  funext fun a => by match a with | ⟨0, _⟩ => rfl | ⟨1, _⟩ => rfl
theorem ridx_projV (r : Fin 8192) (o k : Fin 1024) : idx_main_v10 (ridx_main_v11 (ix2 r o) k) = ix2 o k :=
  funext fun a => by match a with | ⟨0, _⟩ => rfl | ⟨1, _⟩ => rfl
theorem bidx_projV (r : Fin 8192) (o : Fin 1024) : idx_main_v12 (idx_main_v13 (ix2 r o)) = ix1 o :=
  funext fun a => by match a with | ⟨0, _⟩ => rfl

/-- The value projection at `(r, o)`. -/
theorem projV_apply (r : Fin 8192) (o : Fin 1024) :
    val_main_v14 (F := Ideal) a0 a5 a6 (ix2 r o) = Cert.Spec.proj (mat a0) (mat a5) (vec a6) r o := by
  rw [val_main_v14_apply, val_main_v11_apply, val_main_v13_apply, val_main_v12_apply]
  simp only [val_main_v10_apply, lidx_projV, ridx_projV, bidx_projV, Ideal.addf_def]
  rfl

/-! ## The scaled scores: `(Q · Kᵀ) / √1024` at `(r, k')` is `(∑ₒ Q r o · K k' o) · (1/32)` -/

/-- The word `0x44800000` is the real 1024. -/
theorem ofBits_1024 : Ideal.ofBits .f32 0x44800000#32 = ((1024 : ℝ) : EReal) := by
  simp [Ideal.ofBits, Ideal.ieee, -EReal.coe_mul]; norm_num

/-- Its square root is the real 32. -/
theorem sqrt_1024 : Ideal.sqrt (Ideal.ofBits .f32 0x44800000#32) = ((32 : ℝ) : EReal) := by
  rw [ofBits_1024, Ideal.sqrt_coe, if_neg (by norm_num)]
  have h : Real.sqrt 1024 = 32 := by
    rw [show (1024 : ℝ) = 32 ^ 2 by norm_num]; exact Real.sqrt_sq (by norm_num)
  rw [h]

/-- The left operand of the score product is the query row `r`, feature `o`. -/
theorem lidx_score (r k' : Fin 8192) (o : Fin 1024) : lidx_main_v17 (ix2 r k') o = ix2 r o :=
  funext fun a => by match a with | ⟨0, _⟩ => rfl | ⟨1, _⟩ => rfl
/-- The transposed keys, read at `(o, k')`, are the keys at `(k', o)`. -/
theorem ridx_score (r k' : Fin 8192) (o : Fin 1024) : idx_main_v16 (ridx_main_v17 (ix2 r k') o) = ix2 k' o :=
  funext fun a => by match a with | ⟨0, _⟩ => rfl | ⟨1, _⟩ => rfl

/-- The scaled score of query row `r` against key row `k'`. -/
theorem score_apply (r k' : Fin 8192) :
    val_main_v19 (F := Ideal) a0 a1 a2 a3 a4 (ix2 r k')
      = Cert.Spec.score (Cert.Spec.proj (mat a0) (mat a1) (vec a2)) (Cert.Spec.proj (mat a0) (mat a3) (vec a4)) r k' := by
  rw [val_main_v19_apply, val_main_v17_apply, val_main_v18_apply, val_main_v15_apply, val_main_cst_apply]
  simp only [val_main_v16_apply, lidx_score, ridx_score, projQ_apply, projK_apply, Ideal.hostDivf_def,
    Ideal.hostUnary_sqrt_def, Ideal.ofBits_def, sqrt_1024]
  rw [Ideal.div_coe (by norm_num)]
  rfl

/-! ## The row maximum: the fold of `max` from `−∞` over the row -/

/-- The reduced index `r` with column `k` put back is `(r, k)`. -/
theorem lift_row {p q : ℕ} (h : (⟨2, ![p, q]⟩ : Shape).Reduces [1] (⟨1, ![p]⟩ : Shape)) (r : Fin p)
    (k : Fin ((⟨2, ![p, q]⟩ : Shape).size 1)) : h.lift (ix1 r) k = ix2 r (⟨k.val, k.isLt⟩ : Fin q) := by
  funext c; apply Fin.ext
  fin_cases c <;> rfl

/-- The host's reduce with a maximum body along the second axis, from the word of `−∞`: at `r` it is the fold of `max`
    from `⊥` over the entries of row `r`. -/
theorem hostRowMax_apply {p q : ℕ} (y : FVec Ideal ⟨2, ![p, q]⟩ .f32)
    (h' : (⟨2, ![p, q]⟩ : Shape).ReducesTo [1] (⟨1, ![p]⟩ : Shape)) (h : (⟨2, ![p, q]⟩ : Shape).Reduces [1] (⟨1, ![p]⟩ : Shape))
    (hu : 0 < (⟨0, ![]⟩ : Shape).numel) (r : Fin p) :
    Host.reduce FloatOps.maximumf y (constant (F := Ideal) (⟨0, ![]⟩ : Shape) .f32 0xFF800000#32) h' hu (ix1 r)
      = (Finset.univ : Finset (Fin q)).fold max ⊥ (fun k => y (ix2 r k)) := by
  rw [Host.reduce_eq_fold_single FloatOps.maximumf y _ h' h hu]
  have hb : (constant (F := Ideal) (⟨0, ![]⟩ : Shape) .f32 0xFF800000#32) (Shape.Idx.first hu) = (⊥ : EReal) := by
    show Ideal.ofBits .f32 0xFF800000#32 = ⊥
    simp [Ideal.ofBits, Ideal.ieee]
  rw [hb]
  have hf : (y ∘ h.lift (ix1 r)) = fun k : Fin q => y (ix2 r k) := funext fun k => congrArg y (lift_row h r k)
  exact congrArg (fun f => Finset.fold max ⊥ f (Finset.univ : Finset (Fin q))) hf

/-- The word `0xFF800000` is `−∞`. -/
theorem ofBits_neg_inf : Ideal.ofBits .f32 0xFF800000#32 = (⊥ : EReal) := by simp [Ideal.ofBits, Ideal.ieee]

/-- The largest score of row `r` (the program takes the maximum with `−∞` once more, which changes nothing). -/
theorem rowmax_apply (r : Fin 8192) :
    val_main_v22 (F := Ideal) a0 a1 a2 a3 a4 (ix1 r)
      = (Finset.univ : Finset (Fin 8192)).fold max ⊥ (fun k' => val_main_v19 (F := Ideal) a0 a1 a2 a3 a4 (ix2 r k')) := by
  rw [val_main_v22_apply, val_main_v21_apply, val_main_cst_1_apply]
  unfold val_main_v20 val_main_cst_0
  generalize val_main_v19 (F := Ideal) a0 a1 a2 a3 a4 = y
  rw [hostRowMax_apply y reducesTo_S8192x8192_S8192_d1 (by decide) h_S_ r]
  simp only [Ideal.maximumf_def, Ideal.ofBits_def, ofBits_neg_inf, bot_le, max_eq_right]

/-! ## The softmax and the weighted sum -/

/-- The row maximum broadcast along the row, read at `(r, k)`, is the maximum of row `r`. -/
theorem idx_keepmax (r k : Fin 8192) : idx_main_v23 (idx_main_v24 (ix2 r k)) = ix1 r :=
  funext fun a => by match a with | ⟨0, _⟩ => rfl

/-- The exponential of a score less its row's maximum. -/
theorem expo_apply (r k : Fin 8192) :
    val_main_v26 (F := Ideal) a0 a1 a2 a3 a4 (ix2 r k)
      = Ideal.exp (val_main_v19 (F := Ideal) a0 a1 a2 a3 a4 (ix2 r k) - val_main_v22 (F := Ideal) a0 a1 a2 a3 a4 (ix1 r)) := by
  rw [val_main_v26_apply, val_main_v25_apply, val_main_v24_apply, val_main_v23_apply]
  simp only [idx_keepmax, Ideal.hostUnary_exp_def, Ideal.subf_def]

/-- The summed axis's coordinate `k` put back into row `r`. -/
theorem idx_rowsum (r k : Fin 8192) : idx_main_v27 (ix1 r) k = ix2 r k :=
  funext fun a => by match a with | ⟨0, _⟩ => rfl | ⟨1, _⟩ => rfl

/-- The normaliser of row `r`: the sum of the row's exponentials (from the zero word, which adds nothing). -/
theorem norm_apply (r : Fin 8192) :
    val_main_v27 (F := Ideal) a0 a1 a2 a3 a4 (ix1 r) = ∑ k : Fin 8192, val_main_v26 (F := Ideal) a0 a1 a2 a3 a4 (ix2 r k) := by
  rw [val_main_v27_apply, val_main_cst_2_apply]
  simp only [idx_rowsum, Ideal.ofBits_def, Ideal.ofBits_zero_f32, zero_add]

/-- The normaliser broadcast along the row, read at `(r, k)`, is the normaliser of row `r`. -/
theorem idx_keepnorm (r k : Fin 8192) : idx_main_v28 (idx_main_v29 (ix2 r k)) = ix1 r :=
  funext fun a => by match a with | ⟨0, _⟩ => rfl

/-- The softmax weight of key `k` in row `r`. -/
theorem weight_apply (r k : Fin 8192) :
    val_main_v30 (F := Ideal) a0 a1 a2 a3 a4 (ix2 r k)
      = Ideal.div (val_main_v26 (F := Ideal) a0 a1 a2 a3 a4 (ix2 r k)) (val_main_v27 (F := Ideal) a0 a1 a2 a3 a4 (ix1 r)) := by
  rw [val_main_v30_apply, val_main_v29_apply, val_main_v28_apply]
  simp only [idx_keepnorm, Ideal.hostDivf_def]

/-- The left operand of the last product: weight of key `k` in row `r`. -/
theorem lidx_out (r k : Fin 8192) (o : Fin 1024) : lidx_main_v31 (ix2 r o) k = ix2 r k :=
  funext fun a => by match a with | ⟨0, _⟩ => rfl | ⟨1, _⟩ => rfl
/-- The right operand of the last product: value row `k`, column `o`. -/
theorem ridx_out (r k : Fin 8192) (o : Fin 1024) : ridx_main_v31 (ix2 r o) k = ix2 k o :=
  funext fun a => by match a with | ⟨0, _⟩ => rfl | ⟨1, _⟩ => rfl

/-- The reference's last stage at `(r, o)` is the specification's attention of the projected rows. -/
theorem val_apply (r : Fin 8192) (o : Fin 1024) :
    val_main_v31 (F := Ideal) a0 a1 a2 a3 a4 a5 a6 (ix2 r o)
      = Cert.Spec.G (mat a0) (mat a1) (vec a2) (mat a3) (vec a4) (mat a5) (vec a6) r o := by
  rw [val_main_v31_apply]
  simp only [lidx_out, ridx_out, weight_apply, norm_apply, expo_apply, rowmax_apply, score_apply, projV_apply]
  rfl

/-- The reference run's result, read at `(r, o)`, is the specification of the seven argument arrays' entries. -/
theorem result_apply (m : (ℓ : Loc nD τ sig) → Buf (Elt Ideal) ℓ) (c : Dev nD) (r : Fin 8192) (o : Fin 1024) :
    Cert.ReferenceIdeal.Value.res_main_v31 (F := Ideal) m c (ix2 r o)
      = Cert.Spec.G (fun r k => m ((c.tc : Thread nD τ).loc main_arg0) (ix2 r k))
          (fun o k => m ((c.tc : Thread nD τ).loc main_arg1) (ix2 o k)) (fun o => m ((c.tc : Thread nD τ).loc main_arg2) (ix1 o))
          (fun o k => m ((c.tc : Thread nD τ).loc main_arg3) (ix2 o k)) (fun o => m ((c.tc : Thread nD τ).loc main_arg4) (ix1 o))
          (fun o k => m ((c.tc : Thread nD τ).loc main_arg5) (ix2 o k)) (fun o => m ((c.tc : Thread nD τ).loc main_arg6) (ix1 o)) r o :=
  (congrFun (Read.val_main_v31_eq (F := Ideal) m c) (ix2 r o)).trans
    (val_apply (m ((c.tc : Thread nD τ).loc main_arg0)) (m ((c.tc : Thread nD τ).loc main_arg1)) (m ((c.tc : Thread nD τ).loc main_arg3))
      (m ((c.tc : Thread nD τ).loc main_arg5)) (m ((c.tc : Thread nD τ).loc main_arg2)) (m ((c.tc : Thread nD τ).loc main_arg4))
      (m ((c.tc : Thread nD τ).loc main_arg6)) r o)

end Cert.ReferenceIdeal.RefValue

end
-- ==== Proof.RefFrame.lean ====
/-
  The reference program runs to its end and leaves its seven argument arrays as they were: the second half of what its
  generated run states at every device, the first half being the result's value.
-/
import proofs.«113662_j9672266350973_2_alg».proof.Defs
import proofs.«113662_j9672266350973_2_alg».proof.Proof.Gen.ReferenceIdeal.Run
import proofs.«113662_j9672266350973_2_alg».proof.Proof.Gen.Pre_finite_inputs

noncomputable section

namespace Cert.ReferenceIdeal.RefValue

open Idealize.ShloMosaic Idealize.SL.Sem

/-- The reference's frame: every weakly fair execution terminates with the arguments unchanged. -/
theorem frame_ri :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

end Cert.ReferenceIdeal.RefValue

end
-- ==== Proof.lean ====
/-
  The certificate's five claims. The program projects the rows of `x` to queries, keys and values with one stacked
  matrix product, then runs attention over the keys in four chunks of 2048 with a running maximum, a running normaliser
  and a running weighted sum; the reference forms all 8192 × 8192 scores at once, takes the softmax of each row and
  multiplies by the values. Over the extended reals, for finite inputs, the two agree entry by entry: every score is a
  real number, the running recurrence rescales by `exp (m − m')` exactly where the textbook softmax subtracts one global
  maximum, and dividing a finite sum by the (positive, finite) normaliser commutes with the sum. The scale `1/32` the
  program multiplies by is the reciprocal of `√1024 = 32` the reference divides by.
  The two frames of the program (at the word level and over the extended reals) are one text read at two instances:
  the host operations, the projection region and the attention region as three segments. The idealisation rewrote
  nothing, so its claim is trivial.
-/
import proofs.«113662_j9672266350973_2_alg».proof.Defs
import proofs.«113662_j9672266350973_2_alg».proof.Proof.Gen.Kernel
import proofs.«113662_j9672266350973_2_alg».proof.Proof.Gen.KernelIdeal
import proofs.«113662_j9672266350973_2_alg».proof.Proof.Gen.ReferenceIdeal
import proofs.«113662_j9672266350973_2_alg».proof.Proof.Gen.Pre_finite_inputs
import proofs.«113662_j9672266350973_2_alg».proof.Proof.Bits.Frame.Run
import proofs.«113662_j9672266350973_2_alg».proof.Proof.Frame.Run
import proofs.«113662_j9672266350973_2_alg».proof.Proof.KernelValue
import proofs.«113662_j9672266350973_2_alg».proof.Proof.RefValue
import proofs.«113662_j9672266350973_2_alg».proof.Proof.RefFrame
import Idealize.ShloMosaic.Adequacy
import Idealize.ShloMosaic.Init

noncomputable section

namespace Cert.Proof

open Idealize.ShloMosaic Idealize.ShloMosaic.TcCoe Idealize.SL.Sem Idealize.ShloMosaic.ValueIdx

/-- The program at the word level runs to the end, faults nowhere and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- The same text over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The idealisation rewrote nothing. -/
theorem preserves : Cert.preserves_Kernel_KernelIdeal := trivial

set_option maxHeartbeats 1000000 in
/-- Over the extended reals, from memories agreeing on the seven finite arguments, both programs end with the same result:
    entry `(r, o)` of either is the softmax-weighted average, over all key rows, of value column `o` under the scaled scores
    of query row `r`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (Cert.KernelIdeal.Hand.dat1 (Cert.KernelIdeal.Hand.Vk2 m) c).arrAt 3 Cert.KernelIdeal.cfg1.N,
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  funext idx
  obtain ⟨r, o, rfl⟩ : ∃ (r : Fin 8192) (o : Fin 1024), idx = ix2 r o := ⟨idx 0, idx 1, eq_ix2 idx⟩
  refine (Cert.ReferenceIdeal.RefValue.result_apply m' c r o).trans ?_
  rw [(hagree c).1, (hagree c).2.1, (hagree c).2.2.1, (hagree c).2.2.2.1, (hagree c).2.2.2.2.1, (hagree c).2.2.2.2.2.1,
    (hagree c).2.2.2.2.2.2]
  exact (Cert.KernelIdeal.Hand.kernel_result m hpre c r o).symm

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, preserves, algebraic⟩

end Cert.Proof

end
